-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S8x5632x2048 : Shape := ⟨3, ![8, 5632, 2048]⟩
abbrev S8x2048x2816 : Shape := ⟨3, ![8, 2048, 2816]⟩
abbrev S2048x2 : Shape := ⟨2, ![2048, 2]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8x5632x2048 : S_.BroadcastsInDim S8x5632x2048 (![] : Fin 0 → Fin S8x5632x2048.rank)
  reducesTo_S8x5632x2048_S_d0_1_2 : S8x5632x2048.ReducesTo [0, 1, 2] S_
  bcast_S_S8x2048x2816 : S_.BroadcastsInDim S8x2048x2816 (![] : Fin 0 → Fin S8x2048x2816.rank)
  reducesTo_S8x2048x2816_S_d0_1_2 : S8x2048x2816.ReducesTo [0, 1, 2] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  main_v18

def fn {F : FTy → Type} [FloatOps F] (main_arg0 : FVec F S2048x2048 .f32) (main_arg1 : FVec F S8x5632x2048 .f32) (main_arg2 : FVec F S8x2048x2816 .f32) (main_arg3 : FVec F S2048x2 .f32) (main_arg4 : IVec S2048x2 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S8x5632x2048 .f32 := Host.absf main_arg1
  let main_cst_0 : FVec F S_ .f32 := constant S_ .f32 0x7F800000#32
  let main_v5 : FVec F S8x5632x2048 .f32 := broadcastInDim S8x5632x2048 ![] bcast_S_S8x5632x2048 main_cst_0
  let main_v6 : IVec S8x5632x2048 1 := cmpf .olt main_v4 main_v5
  let main_c_1 : IVec S_ 1 := constantI S_ 1 1#1
  let main_v7 : IVec S_ 1 := (fun x v => Host.reduce IntOp.andi x v reducesTo_S8x5632x2048_S_d0_1_2 h_S_) main_v6 main_c_1
  let main_v8 : IVec S_ 1 := andi main_v3 main_v7
  let main_v9 : FVec F S8x2048x2816 .f32 := Host.absf main_arg2
  let main_cst_2 : FVec F S_ .f32 := constant S_ .f32 0x7F800000#32
  let main_v10 : FVec F S8x2048x2816 .f32 := broadcastInDim S8x2048x2816 ![] bcast_S_S8x2048x2816 main_cst_2
  let main_v11 : IVec S8x2048x2816 1 := cmpf .olt main_v9 main_v10
  let main_c_3 : IVec S_ 1 := constantI S_ 1 1#1
  let main_v12 : IVec S_ 1 := (fun x v => Host.reduce IntOp.andi x v reducesTo_S8x2048x2816_S_d0_1_2 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_v13 main_v16
-- ==== Kernel.lean ====
abbrev S2048x2048 : Shape := ⟨2, ![2048, 2048]⟩
abbrev S8x5632x2048 : Shape := ⟨3, ![8, 5632, 2048]⟩
abbrev S8x2048x2816 : Shape := ⟨3, ![8, 2048, 2816]⟩
abbrev S2048x2 : Shape := ⟨2, ![2048, 2]⟩
abbrev S2048x2x1 : Shape := ⟨3, ![2048, 2, 1]⟩
abbrev S8 : Shape := ⟨1, ![8]⟩
abbrev S1x1x8 : Shape := ⟨3, ![1, 1, 8]⟩
abbrev S2048x2x8 : Shape := ⟨3, ![2048, 2, 8]⟩
abbrev S_ : Shape := ⟨0, ![]⟩
abbrev S2048x8 : Shape := ⟨2, ![2048, 8]⟩
abbrev S8x2816x2048 : Shape := ⟨3, ![8, 2816, 2048]⟩
abbrev S256x2048 : Shape := ⟨2, ![256, 2048]⟩
abbrev S1x1408x2048 : Shape := ⟨3, ![1, 1408, 2048]⟩
abbrev S1x2048x1408 : Shape := ⟨3, ![1, 2048, 1408]⟩
abbrev S256x8 : Shape := ⟨2, ![256, 8]⟩
abbrev S1408x2048 : Shape := ⟨2, ![1408, 2048]⟩
abbrev S256x1408 : Shape := ⟨2, ![256, 1408]⟩
abbrev S2048x1408 : Shape := ⟨2, ![2048, 1408]⟩
abbrev S256 : Shape := ⟨1, ![256]⟩
abbrev S256x1 : Shape := ⟨2, ![256, 1]⟩

abbrev nBuf : Space → Nat
  | .hbm => 23
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S8x5632x2048, .f32⟩
  | .hbm, ⟨2, _⟩ => ⟨S8x2048x2816, .f32⟩
  | .hbm, ⟨3, _⟩ => ⟨S2048x2, .f32⟩
  | .hbm, ⟨4, _⟩ => ⟨S2048x2, .i32⟩
  | .hbm, ⟨5, _⟩ => ⟨S2048x2x1, .i32⟩
  | .hbm, ⟨6, _⟩ => ⟨S8, .i32⟩
  | .hbm, ⟨7, _⟩ => ⟨S1x1x8, .i32⟩
  | .hbm, ⟨8, _⟩ => ⟨S2048x2x8, .i32⟩
  | .hbm, ⟨9, _⟩ => ⟨S2048x2x8, .i32⟩
  | .hbm, ⟨10, _⟩ => ⟨S2048x2x8, .i1⟩
  | .hbm, ⟨11, _⟩ => ⟨S2048x2x8, .f32⟩
  | .hbm, ⟨12, _⟩ => ⟨S2048x2x1, .f32⟩
  | .hbm, ⟨13, _⟩ => ⟨S2048x2x8, .f32⟩
  | .hbm, ⟨14, _⟩ => ⟨S2048x2x8, .f32⟩
  | .hbm, ⟨15, _⟩ => ⟨S_, .f32⟩
  | .hbm, ⟨16, _⟩ => ⟨S2048x8, .f32⟩
  | .hbm, ⟨17, _⟩ => ⟨S2048x2048, .bf16⟩
  | .hbm, ⟨18, _⟩ => ⟨S8x5632x2048, .bf16⟩
  | .hbm, ⟨19, _⟩ => ⟨S8x2048x2816, .bf16⟩
  | .hbm, ⟨20, _⟩ => ⟨S8x2816x2048, .bf16⟩
  | .hbm, ⟨21, _⟩ => ⟨S8x2816x2048, .bf16⟩
  | .hbm, ⟨22, _⟩ => ⟨S2048x2048, .f32⟩
  | .local _ .vmem, ⟨0, _⟩ => ⟨S256x2048, .bf16⟩
  | .local _ .vmem, ⟨1, _⟩ => ⟨S256x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S256x8, .f32⟩
  | .local _ .vmem, ⟨9, _⟩ => ⟨S256x8, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 2], ![false, false, false]⟩

def k0_cond4 (i : grid0.Coords) : BitVec 1 :=
  let arg1 : BitVec 32 := BitVec.ofNat 32 (i 1).val
  let c7_i32 : BitVec 32 := 7#32
  let v31 : BitVec 1 := Scalar.cmpi .eq arg1 c7_i32
  let arg2 : BitVec 32 := BitVec.ofNat 32 (i 2).val
  let c1_i32_21 : BitVec 32 := 1#32
  let v32 : BitVec 1 := Scalar.cmpi .eq arg2 c1_i32_21
  let v33 : BitVec 1 := Scalar.andi v31 v32
  let v34 : BitVec 32 := Scalar.extui v33
  let c0_i32_22 : BitVec 32 := 0#32
  let v35 : BitVec 1 := Scalar.cmpi .ne v34 c0_i32_22
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S2048x2_S2048x2x1_0_1 : S2048x2.BroadcastsInDim S2048x2x1 (![0, 1] : Fin 2 → Fin S2048x2x1.rank)
  bcast_S8_S1x1x8_2 : S8.BroadcastsInDim S1x1x8 (![2] : Fin 1 → Fin S1x1x8.rank)
  bcast_S2048x2x1_S2048x2x8_0_1_2 : S2048x2x1.BroadcastsInDim S2048x2x8 (![0, 1, 2] : Fin 3 → Fin S2048x2x8.rank)
  bcast_S1x1x8_S2048x2x8_0_1_2 : S1x1x8.BroadcastsInDim S2048x2x8 (![0, 1, 2] : Fin 3 → Fin S2048x2x8.rank)
  reducesTo_S2048x2x8_S2048x8_d1 : S2048x2x8.ReducesTo [1] S2048x8
  h_S_ : 0 < S_.numel
  bitsLt_bf16_f32 : FTy.bits .bf16 < FTy.bits .f32
  slices_S8x5632x2048_S8x2816x2048_0_0_0 : S8x5632x2048.Slices ![0, 0, 0] S8x2816x2048
  slices_S8x5632x2048_S8x2816x2048_0_2816_0 : S8x5632x2048.Slices ![0, 2816, 0] S8x2816x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S256x8_S256x8_0_0 : ∀ a, (![0, 0] : Fin 2 → Nat) a + S256x8.size a ≤ S256x8.size a
  h_S256x8 : 0 < S256x8.numel
  shapeCasts_S256x8_S256x8 : S256x8.ShapeCasts S256x8
  iota_S256x8_d1_w32 : S256x8.Iotas .tc 32 [1]
  reduces_S256x8_S256 : S256x8.Reduces [1] S256
  shapeCasts_S256_S256x1 : S256.ShapeCasts S256x1
  broadcasts_S256x1_S256x2048 : S256x1.Broadcasts S256x2048
  dot_S256x2048_S1408x2048_S256x1408_1_1_0_0_n_n_wf : DotDims.WF S256x2048 S1408x2048 S256x1408 [1] [1] [0] [0] [] []
  dot_S256x1408_S2048x1408_S256x2048_1_1_0_0_n_n_wf : DotDims.WF S256x1408 S2048x1408 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .bf16 = 32 ∨ (Rect.block (s := S2048x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1408x2048.size a ≤ S8x2816x2048.size a
  hwx0_1 : ∀ i : grid0.Coords, EltTy.bits .bf16 = 32 ∨ (Rect.block (s := S8x2816x2048) S1x1408x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1408x2048.size a ≤ S8x2816x2048.size a
  hwx0_2 : ∀ i : grid0.Coords, EltTy.bits .bf16 = 32 ∨ (Rect.block (s := S8x2816x2048) S1x1408x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1408.size a ≤ S8x2048x2816.size a
  hwx0_3 : ∀ i : grid0.Coords, EltTy.bits .bf16 = 32 ∨ (Rect.block (s := S8x2048x2816) S1x2048x1408.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S2048x8.size a
  hwx0_4 : ∀ i : grid0.Coords, EltTy.bits .f32 = 32 ∨ (Rect.block (s := S2048x8) S256x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)

variable [Facts₀]

def dot_S256x2048_S1408x2048_S256x1408_1_1_0_0_n_n : DotDims S256x2048 S1408x2048 S256x1408 where
  lhsContracting := [1]
  rhsContracting := [1]
  lhsNonContracting := [0]
  rhsNonContracting := [0]
  lhsBatch := []
  rhsBatch := []
  wf := dot_S256x2048_S1408x2048_S256x1408_1_1_0_0_n_n_wf
def dot_S256x1408_S2048x1408_S256x2048_1_1_0_0_n_n : DotDims S256x1408 S2048x1408 S256x2048 where
  lhsContracting := [1]
  rhsContracting := [1]
  lhsNonContracting := [0]
  rhsNonContracting := [0]
  lhsBatch := []
  rhsBatch := []
  wf := dot_S256x1408_S2048x1408_S256x2048_1_1_0_0_n_n_wf

abbrev win0_0 : Pipeline.Window sig grid0 :=
  Pipeline.Window.ofSpec (Memref.whole main_v11) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1408x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1408x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x2048x1408.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S2048x2048 : Shape := ⟨2, ![2048, 2048]⟩
abbrev S8x5632x2048 : Shape := ⟨3, ![8, 5632, 2048]⟩
abbrev S8x2048x2816 : Shape := ⟨3, ![8, 2048, 2816]⟩
abbrev S2048x2 : Shape := ⟨2, ![2048, 2]⟩
abbrev S2048x1x2048 : Shape := ⟨3, ![2048, 1, 2048]⟩
abbrev S2048x2x2048 : Shape := ⟨3, ![2048, 2, 2048]⟩
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x5632x2048 : Shape := ⟨3, ![1, 5632, 2048]⟩
abbrev S5632x2048 : Shape := ⟨2, ![5632, 2048]⟩
abbrev S2048x5632 : Shape := ⟨2, ![2048, 5632]⟩
abbrev S4096x5632 : Shape := ⟨2, ![4096, 5632]⟩
abbrev S4096x2816 : Shape := ⟨2, ![4096, 2816]⟩
abbrev S1x2048x2816 : Shape := ⟨3, ![1, 2048, 2816]⟩
abbrev S2048x2816 : Shape := ⟨2, ![2048, 2816]⟩
abbrev S2816x2048 : Shape := ⟨2, ![2816, 2048]⟩
abbrev S2048x2x1 : Shape := ⟨3, ![2048, 2, 1]⟩

abbrev nBuf : Space → Nat
  | .hbm => 257
  | .vmem => 0
  | .smem => 0
  | _ => 0

abbrev hbmTy0_0 (i : Nat) : BufTy := match i % 128 with
  | 0 => ⟨S2048x2048, .f32⟩
  | 1 => ⟨S8x5632x2048, .f32⟩
  | 2 => ⟨S8x2048x2816, .f32⟩
  | 3 => ⟨S2048x2, .f32⟩
  | 4 => ⟨S2048x2, .i32⟩
  | 5 => ⟨S2048x1x2048, .f32⟩
  | 6 => ⟨S2048x2x2048, .f32⟩
  | 7 => ⟨S4096x2048, .f32⟩
  | 8 => ⟨S4096, .i32⟩
  | 9 => ⟨S_, .f32⟩
  | 10 => ⟨S4096x2048, .f32⟩
  | 11 => ⟨S_, .i32⟩
  | 12 => ⟨S4096, .i32⟩
  | 13 => ⟨S4096, .i1⟩
  | 14 => ⟨S4096x1, .i1⟩
  | 15 => ⟨S_, .f32⟩
  | 16 => ⟨S_, .f32⟩
  | 17 => ⟨S4096x2048, .i1⟩
  | 18 => ⟨S4096x2048, .f32⟩
  | 19 => ⟨S4096x2048, .f32⟩
  | 20 => ⟨S1x5632x2048, .f32⟩
  | 21 => ⟨S5632x2048, .f32⟩
  | 22 => ⟨S2048x5632, .f32⟩
  | 23 => ⟨S4096x5632, .f32⟩
  | 24 => ⟨S4096x2816, .f32⟩
  | 25 => ⟨S4096x2816, .f32⟩
  | 26 => ⟨S4096x2816, .f32⟩
  | 27 => ⟨S4096x2816, .f32⟩
  | 28 => ⟨S_, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S4096x2816, .f32⟩
  | 35 => ⟨S4096x2816, .f32⟩
  | 36 => ⟨S1x2048x2816, .f32⟩
  | 37 => ⟨S2048x2816, .f32⟩
  | 38 => ⟨S2816x2048, .f32⟩
  | 39 => ⟨S4096x2048, .f32⟩
  | 40 => ⟨S4096x2048, .f32⟩
  | 41 => ⟨S_, .i32⟩
  | 42 => ⟨S4096, .i32⟩
  | 43 => ⟨S4096, .i1⟩
  | 44 => ⟨S4096x1, .i1⟩
  | 45 => ⟨S_, .f32⟩
  | 46 => ⟨S_, .f32⟩
  | 47 => ⟨S4096x2048, .i1⟩
  | 48 => ⟨S4096x2048, .f32⟩
  | 49 => ⟨S4096x2048, .f32⟩
  | 50 => ⟨S1x5632x2048, .f32⟩
  | 51 => ⟨S5632x2048, .f32⟩
  | 52 => ⟨S2048x5632, .f32⟩
  | 53 => ⟨S4096x5632, .f32⟩
  | 54 => ⟨S4096x2816, .f32⟩
  | 55 => ⟨S4096x2816, .f32⟩
  | 56 => ⟨S4096x2816, .f32⟩
  | 57 => ⟨S4096x2816, .f32⟩
  | 58 => ⟨S_, .f32⟩
  | 59 => ⟨S4096x2816, .f32⟩
  | 60 => ⟨S4096x2816, .f32⟩
  | 61 => ⟨S_, .f32⟩
  | 62 => ⟨S4096x2816, .f32⟩
  | 63 => ⟨S4096x2816, .f32⟩
  | 64 => ⟨S4096x2816, .f32⟩
  | 65 => ⟨S4096x2816, .f32⟩
  | 66 => ⟨S1x2048x2816, .f32⟩
  | 67 => ⟨S2048x2816, .f32⟩
  | 68 => ⟨S2816x2048, .f32⟩
  | 69 => ⟨S4096x2048, .f32⟩
  | 70 => ⟨S4096x2048, .f32⟩
  | 71 => ⟨S_, .i32⟩
  | 72 => ⟨S4096, .i32⟩
  | 73 => ⟨S4096, .i1⟩
  | 74 => ⟨S4096x1, .i1⟩
  | 75 => ⟨S_, .f32⟩
  | 76 => ⟨S_, .f32⟩
  | 77 => ⟨S4096x2048, .i1⟩
  | 78 => ⟨S4096x2048, .f32⟩
  | 79 => ⟨S4096x2048, .f32⟩
  | 80 => ⟨S1x5632x2048, .f32⟩
  | 81 => ⟨S5632x2048, .f32⟩
  | 82 => ⟨S2048x5632, .f32⟩
  | 83 => ⟨S4096x5632, .f32⟩
  | 84 => ⟨S4096x2816, .f32⟩
  | 85 => ⟨S4096x2816, .f32⟩
  | 86 => ⟨S4096x2816, .f32⟩
  | 87 => ⟨S4096x2816, .f32⟩
  | 88 => ⟨S_, .f32⟩
  | 89 => ⟨S4096x2816, .f32⟩
  | 90 => ⟨S4096x2816, .f32⟩
  | 91 => ⟨S_, .f32⟩
  | 92 => ⟨S4096x2816, .f32⟩
  | 93 => ⟨S4096x2816, .f32⟩
  | 94 => ⟨S4096x2816, .f32⟩
  | 95 => ⟨S4096x2816, .f32⟩
  | 96 => ⟨S1x2048x2816, .f32⟩
  | 97 => ⟨S2048x2816, .f32⟩
  | 98 => ⟨S2816x2048, .f32⟩
  | 99 => ⟨S4096x2048, .f32⟩
  | 100 => ⟨S4096x2048, .f32⟩
  | 101 => ⟨S_, .i32⟩
  | 102 => ⟨S4096, .i32⟩
  | 103 => ⟨S4096, .i1⟩
  | 104 => ⟨S4096x1, .i1⟩
  | 105 => ⟨S_, .f32⟩
  | 106 => ⟨S_, .f32⟩
  | 107 => ⟨S4096x2048, .i1⟩
  | 108 => ⟨S4096x2048, .f32⟩
  | 109 => ⟨S4096x2048, .f32⟩
  | 110 => ⟨S1x5632x2048, .f32⟩
  | 111 => ⟨S5632x2048, .f32⟩
  | 112 => ⟨S2048x5632, .f32⟩
  | 113 => ⟨S4096x5632, .f32⟩
  | 114 => ⟨S4096x2816, .f32⟩
  | 115 => ⟨S4096x2816, .f32⟩
  | 116 => ⟨S4096x2816, .f32⟩
  | 117 => ⟨S4096x2816, .f32⟩
  | 118 => ⟨S_, .f32⟩
  | 119 => ⟨S4096x2816, .f32⟩
  | 120 => ⟨S4096x2816, .f32⟩
  | 121 => ⟨S_, .f32⟩
  | 122 => ⟨S4096x2816, .f32⟩
  | 123 => ⟨S4096x2816, .f32⟩
  | 124 => ⟨S4096x2816, .f32⟩
  | 125 => ⟨S4096x2816, .f32⟩
  | 126 => ⟨S1x2048x2816, .f32⟩
  | 127 => ⟨S2048x2816, .f32⟩
  | _ => ⟨S2048x2048, .f32⟩

abbrev hbmTy0_1 (i : Nat) : BufTy := match i % 128 with
  | 0 => ⟨S2816x2048, .f32⟩
  | 1 => ⟨S4096x2048, .f32⟩
  | 2 => ⟨S4096x2048, .f32⟩
  | 3 => ⟨S_, .i32⟩
  | 4 => ⟨S4096, .i32⟩
  | 5 => ⟨S4096, .i1⟩
  | 6 => ⟨S4096x1, .i1⟩
  | 7 => ⟨S_, .f32⟩
  | 8 => ⟨S_, .f32⟩
  | 9 => ⟨S4096x2048, .i1⟩
  | 10 => ⟨S4096x2048, .f32⟩
  | 11 => ⟨S4096x2048, .f32⟩
  | 12 => ⟨S1x5632x2048, .f32⟩
  | 13 => ⟨S5632x2048, .f32⟩
  | 14 => ⟨S2048x5632, .f32⟩
  | 15 => ⟨S4096x5632, .f32⟩
  | 16 => ⟨S4096x2816, .f32⟩
  | 17 => ⟨S4096x2816, .f32⟩
  | 18 => ⟨S4096x2816, .f32⟩
  | 19 => ⟨S4096x2816, .f32⟩
  | 20 => ⟨S_, .f32⟩
  | 21 => ⟨S4096x2816, .f32⟩
  | 22 => ⟨S4096x2816, .f32⟩
  | 23 => ⟨S_, .f32⟩
  | 24 => ⟨S4096x2816, .f32⟩
  | 25 => ⟨S4096x2816, .f32⟩
  | 26 => ⟨S4096x2816, .f32⟩
  | 27 => ⟨S4096x2816, .f32⟩
  | 28 => ⟨S1x2048x2816, .f32⟩
  | 29 => ⟨S2048x2816, .f32⟩
  | 30 => ⟨S2816x2048, .f32⟩
  | 31 => ⟨S4096x2048, .f32⟩
  | 32 => ⟨S4096x2048, .f32⟩
  | 33 => ⟨S_, .i32⟩
  | 34 => ⟨S4096, .i32⟩
  | 35 => ⟨S4096, .i1⟩
  | 36 => ⟨S4096x1, .i1⟩
  | 37 => ⟨S_, .f32⟩
  | 38 => ⟨S_, .f32⟩
  | 39 => ⟨S4096x2048, .i1⟩
  | 40 => ⟨S4096x2048, .f32⟩
  | 41 => ⟨S4096x2048, .f32⟩
  | 42 => ⟨S1x5632x2048, .f32⟩
  | 43 => ⟨S5632x2048, .f32⟩
  | 44 => ⟨S2048x5632, .f32⟩
  | 45 => ⟨S4096x5632, .f32⟩
  | 46 => ⟨S4096x2816, .f32⟩
  | 47 => ⟨S4096x2816, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S4096x2816, .f32⟩
  | 57 => ⟨S4096x2816, .f32⟩
  | 58 => ⟨S1x2048x2816, .f32⟩
  | 59 => ⟨S2048x2816, .f32⟩
  | 60 => ⟨S2816x2048, .f32⟩
  | 61 => ⟨S4096x2048, .f32⟩
  | 62 => ⟨S4096x2048, .f32⟩
  | 63 => ⟨S_, .i32⟩
  | 64 => ⟨S4096, .i32⟩
  | 65 => ⟨S4096, .i1⟩
  | 66 => ⟨S4096x1, .i1⟩
  | 67 => ⟨S_, .f32⟩
  | 68 => ⟨S_, .f32⟩
  | 69 => ⟨S4096x2048, .i1⟩
  | 70 => ⟨S4096x2048, .f32⟩
  | 71 => ⟨S4096x2048, .f32⟩
  | 72 => ⟨S1x5632x2048, .f32⟩
  | 73 => ⟨S5632x2048, .f32⟩
  | 74 => ⟨S2048x5632, .f32⟩
  | 75 => ⟨S4096x5632, .f32⟩
  | 76 => ⟨S4096x2816, .f32⟩
  | 77 => ⟨S4096x2816, .f32⟩
  | 78 => ⟨S4096x2816, .f32⟩
  | 79 => ⟨S4096x2816, .f32⟩
  | 80 => ⟨S_, .f32⟩
  | 81 => ⟨S4096x2816, .f32⟩
  | 82 => ⟨S4096x2816, .f32⟩
  | 83 => ⟨S_, .f32⟩
  | 84 => ⟨S4096x2816, .f32⟩
  | 85 => ⟨S4096x2816, .f32⟩
  | 86 => ⟨S4096x2816, .f32⟩
  | 87 => ⟨S4096x2816, .f32⟩
  | 88 => ⟨S1x2048x2816, .f32⟩
  | 89 => ⟨S2048x2816, .f32⟩
  | 90 => ⟨S2816x2048, .f32⟩
  | 91 => ⟨S4096x2048, .f32⟩
  | 92 => ⟨S4096x2048, .f32⟩
  | 93 => ⟨S_, .i32⟩
  | 94 => ⟨S4096, .i32⟩
  | 95 => ⟨S4096, .i1⟩
  | 96 => ⟨S4096x1, .i1⟩
  | 97 => ⟨S_, .f32⟩
  | 98 => ⟨S_, .f32⟩
  | 99 => ⟨S4096x2048, .i1⟩
  | 100 => ⟨S4096x2048, .f32⟩
  | 101 => ⟨S4096x2048, .f32⟩
  | 102 => ⟨S1x5632x2048, .f32⟩
  | 103 => ⟨S5632x2048, .f32⟩
  | 104 => ⟨S2048x5632, .f32⟩
  | 105 => ⟨S4096x5632, .f32⟩
  | 106 => ⟨S4096x2816, .f32⟩
  | 107 => ⟨S4096x2816, .f32⟩
  | 108 => ⟨S4096x2816, .f32⟩
  | 109 => ⟨S4096x2816, .f32⟩
  | 110 => ⟨S_, .f32⟩
  | 111 => ⟨S4096x2816, .f32⟩
  | 112 => ⟨S4096x2816, .f32⟩
  | 113 => ⟨S_, .f32⟩
  | 114 => ⟨S4096x2816, .f32⟩
  | 115 => ⟨S4096x2816, .f32⟩
  | 116 => ⟨S4096x2816, .f32⟩
  | 117 => ⟨S4096x2816, .f32⟩
  | 118 => ⟨S1x2048x2816, .f32⟩
  | 119 => ⟨S2048x2816, .f32⟩
  | 120 => ⟨S2816x2048, .f32⟩
  | 121 => ⟨S4096x2048, .f32⟩
  | 122 => ⟨S4096x2048, .f32⟩
  | 123 => ⟨S2048x2x2048, .f32⟩
  | 124 => ⟨S2048x2x1, .f32⟩
  | 125 => ⟨S2048x2x2048, .f32⟩
  | 126 => ⟨S2048x2x2048, .f32⟩
  | 127 => ⟨S_, .f32⟩
  | _ => ⟨S2048x2048, .f32⟩

abbrev hbmTy0_2 (i : Nat) : BufTy := match i % 128 with
  | 0 => ⟨S2048x2048, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_3 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_4 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call5_v0 : Ref sig .tc := ⟨.hbm, 86, rfl⟩
abbrev main_call5_v1 : Ref sig .tc := ⟨.hbm, 87, rfl⟩
abbrev main_call5_cst : Ref sig .tc := ⟨.hbm, 88, rfl⟩
abbrev main_call5_v2 : Ref sig .tc := ⟨.hbm, 89, rfl⟩
abbrev main_call5_v3 : Ref sig .tc := ⟨.hbm, 90, rfl⟩
abbrev main_call5_cst_0 : Ref sig .tc := ⟨.hbm, 91, rfl⟩
abbrev main_call5_v4 : Ref sig .tc := ⟨.hbm, 92, rfl⟩
abbrev main_call5_v5 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_5 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_6 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_call7_v0 : Ref sig .tc := ⟨.hbm, 116, rfl⟩
abbrev main_call7_v1 : Ref sig .tc := ⟨.hbm, 117, rfl⟩
abbrev main_call7_cst : Ref sig .tc := ⟨.hbm, 118, rfl⟩
abbrev main_call7_v2 : Ref sig .tc := ⟨.hbm, 119, rfl⟩
abbrev main_call7_v3 : Ref sig .tc := ⟨.hbm, 120, rfl⟩
abbrev main_call7_cst_0 : Ref sig .tc := ⟨.hbm, 121, rfl⟩
abbrev main_call7_v4 : Ref sig .tc := ⟨.hbm, 122, rfl⟩
abbrev main_call7_v5 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_c_7 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_8 : Ref sig .tc := ⟨.hbm, 135, rfl⟩
abbrev main_call8_v0 : Ref sig .tc := ⟨.hbm, 136, rfl⟩
abbrev main_call8_v1 : Ref sig .tc := ⟨.hbm, 137, rfl⟩
abbrev main_call8_v2 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_call9_v0 : Ref sig .tc := ⟨.hbm, 146, rfl⟩
abbrev main_call9_v1 : Ref sig .tc := ⟨.hbm, 147, rfl⟩
abbrev main_call9_cst : Ref sig .tc := ⟨.hbm, 148, rfl⟩
abbrev main_call9_v2 : Ref sig .tc := ⟨.hbm, 149, rfl⟩
abbrev main_call9_v3 : Ref sig .tc := ⟨.hbm, 150, rfl⟩
abbrev main_call9_cst_0 : Ref sig .tc := ⟨.hbm, 151, rfl⟩
abbrev main_call9_v4 : Ref sig .tc := ⟨.hbm, 152, rfl⟩
abbrev main_call9_v5 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_c_9 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_cst_10 : Ref sig .tc := ⟨.hbm, 165, rfl⟩
abbrev main_call10_v0 : Ref sig .tc := ⟨.hbm, 166, rfl⟩
abbrev main_call10_v1 : Ref sig .tc := ⟨.hbm, 167, rfl⟩
abbrev main_call10_v2 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_call11_v0 : Ref sig .tc := ⟨.hbm, 176, rfl⟩
abbrev main_call11_v1 : Ref sig .tc := ⟨.hbm, 177, rfl⟩
abbrev main_call11_cst : Ref sig .tc := ⟨.hbm, 178, rfl⟩
abbrev main_call11_v2 : Ref sig .tc := ⟨.hbm, 179, rfl⟩
abbrev main_call11_v3 : Ref sig .tc := ⟨.hbm, 180, rfl⟩
abbrev main_call11_cst_0 : Ref sig .tc := ⟨.hbm, 181, rfl⟩
abbrev main_call11_v4 : Ref sig .tc := ⟨.hbm, 182, rfl⟩
abbrev main_call11_v5 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_c_11 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_cst_12 : Ref sig .tc := ⟨.hbm, 195, rfl⟩
abbrev main_call12_v0 : Ref sig .tc := ⟨.hbm, 196, rfl⟩
abbrev main_call12_v1 : Ref sig .tc := ⟨.hbm, 197, rfl⟩
abbrev main_call12_v2 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_call13_v0 : Ref sig .tc := ⟨.hbm, 206, rfl⟩
abbrev main_call13_v1 : Ref sig .tc := ⟨.hbm, 207, rfl⟩
abbrev main_call13_cst : Ref sig .tc := ⟨.hbm, 208, rfl⟩
abbrev main_call13_v2 : Ref sig .tc := ⟨.hbm, 209, rfl⟩
abbrev main_call13_v3 : Ref sig .tc := ⟨.hbm, 210, rfl⟩
abbrev main_call13_cst_0 : Ref sig .tc := ⟨.hbm, 211, rfl⟩
abbrev main_call13_v4 : Ref sig .tc := ⟨.hbm, 212, rfl⟩
abbrev main_call13_v5 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_c_13 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_cst_14 : Ref sig .tc := ⟨.hbm, 225, rfl⟩
abbrev main_call14_v0 : Ref sig .tc := ⟨.hbm, 226, rfl⟩
abbrev main_call14_v1 : Ref sig .tc := ⟨.hbm, 227, rfl⟩
abbrev main_call14_v2 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_call15_v0 : Ref sig .tc := ⟨.hbm, 236, rfl⟩
abbrev main_call15_v1 : Ref sig .tc := ⟨.hbm, 237, rfl⟩
abbrev main_call15_cst : Ref sig .tc := ⟨.hbm, 238, rfl⟩
abbrev main_call15_v2 : Ref sig .tc := ⟨.hbm, 239, rfl⟩
abbrev main_call15_v3 : Ref sig .tc := ⟨.hbm, 240, rfl⟩
abbrev main_call15_cst_0 : Ref sig .tc := ⟨.hbm, 241, rfl⟩
abbrev main_call15_v4 : Ref sig .tc := ⟨.hbm, 242, rfl⟩
abbrev main_call15_v5 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_cst_15 : Ref sig .tc := ⟨.hbm, 255, rfl⟩
abbrev main_v145 : Ref sig .tc := ⟨.hbm, 256, rfl⟩

abbrev nD : Nat := 1
abbrev τ : Topo := Topo.v7x

variable {F : FTy → Type} [FloatOps F]

class Facts₀ : Prop where
  bcast_S2048x2048_S2048x1x2048_0_2 : S2048x2048.BroadcastsInDim S2048x1x2048 (![0, 2] : Fin 2 → Fin S2048x1x2048.rank)
  bcast_S2048x1x2048_S2048x2x2048_0_1_2 : S2048x1x2048.BroadcastsInDim S2048x2x2048 (![0, 1, 2] : Fin 3 → Fin S2048x2x2048.rank)
  shapeCasts_S2048x2x2048_S4096x2048 : S2048x2x2048.ShapeCasts S4096x2048
  shapeCasts_S2048x2_S4096 : S2048x2.ShapeCasts S4096
  bcast_S_S4096x2048 : S_.BroadcastsInDim S4096x2048 (![] : Fin 0 → Fin S4096x2048.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  slices_S8x5632x2048_S1x5632x2048_0_0_0 : S8x5632x2048.Slices ![0, 0, 0] S1x5632x2048
  shapeCasts_S1x5632x2048_S5632x2048 : S1x5632x2048.ShapeCasts S5632x2048
  transposes_S5632x2048_S2048x5632_1_0 : S5632x2048.Transposes [1, 0] S2048x5632
  slices_S4096x5632_S4096x2816_0_0 : S4096x5632.Slices ![0, 0] S4096x2816
  slices_S4096x5632_S4096x2816_0_2816 : S4096x5632.Slices ![0, 2816] S4096x2816
  bcast_S_S4096x2816 : S_.BroadcastsInDim S4096x2816 (![] : Fin 0 → Fin S4096x2816.rank)
  slices_S8x2048x2816_S1x2048x2816_0_0_0 : S8x2048x2816.Slices ![0, 0, 0] S1x2048x2816
  shapeCasts_S1x2048x2816_S2048x2816 : S1x2048x2816.ShapeCasts S2048x2816
  transposes_S2048x2816_S2816x2048_1_0 : S2048x2816.Transposes [1, 0] S2816x2048
  slices_S8x5632x2048_S1x5632x2048_1_0_0 : S8x5632x2048.Slices ![1, 0, 0] S1x5632x2048
  slices_S8x2048x2816_S1x2048x2816_1_0_0 : S8x2048x2816.Slices ![1, 0, 0] S1x2048x2816
  slices_S8x5632x2048_S1x5632x2048_2_0_0 : S8x5632x2048.Slices ![2, 0, 0] S1x5632x2048
  slices_S8x2048x2816_S1x2048x2816_2_0_0 : S8x2048x2816.Slices ![2, 0, 0] S1x2048x2816
  slices_S8x5632x2048_S1x5632x2048_3_0_0 : S8x5632x2048.Slices ![3, 0, 0] S1x5632x2048
  slices_S8x2048x2816_S1x2048x2816_3_0_0 : S8x2048x2816.Slices ![3, 0, 0] S1x2048x2816
  slices_S8x5632x2048_S1x5632x2048_4_0_0 : S8x5632x2048.Slices ![4, 0, 0] S1x5632x2048
  slices_S8x2048x2816_S1x2048x2816_4_0_0 : S8x2048x2816.Slices ![4, 0, 0] S1x2048x2816
  slices_S8x5632x2048_S1x5632x2048_5_0_0 : S8x5632x2048.Slices ![5, 0, 0] S1x5632x2048
  slices_S8x2048x2816_S1x2048x2816_5_0_0 : S8x2048x2816.Slices ![5, 0, 0] S1x2048x2816
  slices_S8x5632x2048_S1x5632x2048_6_0_0 : S8x5632x2048.Slices ![6, 0, 0] S1x5632x2048
  slices_S8x2048x2816_S1x2048x2816_6_0_0 : S8x2048x2816.Slices ![6, 0, 0] S1x2048x2816
  slices_S8x5632x2048_S1x5632x2048_7_0_0 : S8x5632x2048.Slices ![7, 0, 0] S1x5632x2048
  slices_S8x2048x2816_S1x2048x2816_7_0_0 : S8x2048x2816.Slices ![7, 0, 0] S1x2048x2816
  shapeCasts_S4096x2048_S2048x2x2048 : S4096x2048.ShapeCasts S2048x2x2048
  bcast_S2048x2_S2048x2x1_0_1 : S2048x2.BroadcastsInDim S2048x2x1 (![0, 1] : Fin 2 → Fin S2048x2x1.rank)
  bcast_S2048x2x1_S2048x2x2048_0_1_2 : S2048x2x1.BroadcastsInDim S2048x2x2048 (![0, 1, 2] : Fin 3 → Fin S2048x2x2048.rank)
  reducesTo_S2048x2x2048_S2048x2048_d1 : S2048x2x2048.ReducesTo [1] S2048x2048
  h_S_ : 0 < S_.numel
  dot_S4096x2048_S2048x5632_S4096x5632_1_0_0_1_n_n_wf : DotDims.WF S4096x2048 S2048x5632 S4096x5632 [1] [0] [0] [1] [] []
  dot_S4096x2816_S2816x2048_S4096x2048_1_0_0_1_n_n_wf : DotDims.WF S4096x2816 S2816x2048 S4096x2048 [1] [0] [0] [1] [] []

variable [Facts₀]

def dot_S4096x2048_S2048x5632_S4096x5632_1_0_0_1_n_n : DotDims S4096x2048 S2048x5632 S4096x5632 where
  lhsContracting := [1]
  rhsContracting := [0]
  lhsNonContracting := [0]
  rhsNonContracting := [1]
  lhsBatch := []
  rhsBatch := []
  wf := dot_S4096x2048_S2048x5632_S4096x5632_1_0_0_1_n_n_wf
def dot_S4096x2816_S2816x2048_S4096x2048_1_0_0_1_n_n : DotDims S4096x2816 S2816x2048 S4096x2048 where
  lhsContracting := [1]
  rhsContracting := [0]
  lhsNonContracting := [0]
  rhsNonContracting := [1]
  lhsBatch := []
  rhsBatch := []
  wf := dot_S4096x2816_S2816x2048_S4096x2048_1_0_0_1_n_n_wf

class Facts : Prop extends Facts₀ where

variable [Facts]
-- ==== Proof.Pieces.lean ====
/-
  What each control case of the tile body leaves in its two carried tiles, as the body's own arithmetic.

  The body keeps two [256, 2048] tiles between grid points: the expert tile (the down-projection of the current
  expert accumulated over the two halves of the hidden axis) and the output tile (the combine-weighted sum over the
  experts done so far). Four control cases occur:
    first half of the first expert : both tiles are zeroed, then the expert tile receives this half's partial product;
    first half of a later expert   : the expert tile is zeroed and receives this half's partial product, the output
                                     tile is left as the point before left it;
    second half of an expert       : the expert tile receives this half's partial product on top of what the point
                                     before left, and the output tile receives (combine weight) · (expert tile);
    second half of the last expert : the same, and the output tile is copied to the result block.
  Each lemma reads the stores a case makes back as one value: a tile stored whole and then loaded whole is the value
  stored, and the last whole store is what the tile holds.
-/
import proofs.«124578_j81028853006988_2_alg».proof.Proof.Gen.KernelIdeal.Frame
import Idealize.ShloMosaic.Lib.Pipeline.Value
import Idealize.ShloMosaic.Lib.Tactic

set_option maxRecDepth 16384

noncomputable section

namespace Cert.MoE.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- First half of the first expert: the expert tile holds zero plus this half's partial product. -/
theorem first_expert_tile (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : cond0_0 i) (hc1 : cond0_1 i) (hc2 : ¬cond0_2 i) (hc3 : ¬cond0_3 i)
    (x0 : Vec F S256x2048 .bf16) (x1 : Vec F S1x1408x2048 .bf16) (x2 : Vec F S1x1408x2048 .bf16) (x3 : Vec F S1x2048x1408 .bf16) (x4 : Vec F S256x8 .f32) :
    sout0_A_0 c i a3 h3 a4 h4 a5 h5 a6 h6 a7 h7 a8 h8 a9 h9 a10 h10 hc0 hc1 hc2 hc3 x0 x1 x2 x3 x4 = k0_pay4 x0 x1 x2 x3 k0_pay3 := by
  unfold sout0_A_0
  rw [View.read_writes_eq_canon _ _ _ (scover0_A_0 c i a3 h3 a4 h4 a5 h5 a6 h6 a7 h7 a8 h8 a9 h9 a10 h10 hc0 hc1 hc2 hc3 x0 x1 x2 x3 x4)]
  unfold kernelRun0_A
  dsimp only
  try sl_unfold_words
  rw [View.canon_cons_unit_zero (S := S256x2048) hz, View.readCov_unit_zero (S := S256x2048) _ hz]
  simp only [View.readAt_eq_ld, h3.read_unread, h4.read_unread, h5.read_unread, h6.read_unread, h7.read_unread, h9.read_unread, h10.read_unread,
    View.ld_unit_zero (S := S256x2048) hz, View.ld_unit_zero (S := S1x1408x2048) hz3, View.ld_unit_zero (S := S1x2048x1408) hz3,
    View.ld_unit_zero (S := S256x8) hz]

/-- First half of the first expert: the output tile holds zeros. -/
theorem first_output_tile (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : cond0_0 i) (hc1 : cond0_1 i) (hc2 : ¬cond0_2 i) (hc3 : ¬cond0_3 i)
    (x0 : Vec F S256x2048 .bf16) (x1 : Vec F S1x1408x2048 .bf16) (x2 : Vec F S1x1408x2048 .bf16) (x3 : Vec F S1x2048x1408 .bf16) (x4 : Vec F S256x8 .f32) :
    sout0_A_1 c i a3 h3 a4 h4 a5 h5 a6 h6 a7 h7 a8 h8 a9 h9 a10 h10 hc0 hc1 hc2 hc3 x0 x1 x2 x3 x4 = k0_pay2 := by
  unfold sout0_A_1
  rw [View.read_writes_eq_canon _ _ _ (scover0_A_1 c i a3 h3 a4 h4 a5 h5 a6 h6 a7 h7 a8 h8 a9 h9 a10 h10 hc0 hc1 hc2 hc3 x0 x1 x2 x3 x4)]
  unfold kernelRun0_A
  dsimp only
  try sl_unfold_words
  rw [View.canon_unit_zero hz]

/-- First half of a later expert: the expert tile holds zero plus this half's partial product. -/
theorem later_expert_tile (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : ¬cond0_0 i) (hc1 : cond0_1 i) (hc2 : ¬cond0_2 i) (hc3 : ¬cond0_3 i)
    (x0 : Vec F S256x2048 .bf16) (x1 : Vec F S1x1408x2048 .bf16) (x2 : Vec F S1x1408x2048 .bf16) (x3 : Vec F S1x2048x1408 .bf16) (x4 : Vec F S256x8 .f32) (xs1 : Vec F S256x2048 .f32) :
    sout0_C_0 c i a3 h3 a4 h4 a5 h5 a6 h6 a7 h7 a8 h8 a9 h9 a10 h10 hc0 hc1 hc2 hc3 x0 x1 x2 x3 x4 xs1 = k0_pay4 x0 x1 x2 x3 k0_pay3 := by
  unfold sout0_C_0
  rw [View.read_writes_eq_canon _ _ _ (scover0_C_0 c i a3 h3 a4 h4 a5 h5 a6 h6 a7 h7 a8 h8 a9 h9 a10 h10 hc0 hc1 hc2 hc3 x0 x1 x2 x3 x4 xs1)]
  unfold kernelRun0_C
  dsimp only
  try sl_unfold_words
  rw [View.canon_cons_unit_zero (S := S256x2048) hz, View.readCov_unit_zero (S := S256x2048) _ hz]
  simp only [View.readAt_eq_ld, h3.read_unread, h4.read_unread, h5.read_unread, h6.read_unread, h7.read_unread, h9.read_unread, h10.read_unread,
    View.ld_unit_zero (S := S256x2048) hz, View.ld_unit_zero (S := S1x1408x2048) hz3, View.ld_unit_zero (S := S1x2048x1408) hz3,
    View.ld_unit_zero (S := S256x8) hz]

/-- Second half of an expert: the expert tile holds what the point before left plus this half's partial product. -/
theorem second_expert_tile (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : ¬cond0_0 i) (hc1 : ¬cond0_1 i) (hc2 : cond0_2 i) (hc3 : ¬cond0_3 i)
    (x0 : Vec F S256x2048 .bf16) (x1 : Vec F S1x1408x2048 .bf16) (x2 : Vec F S1x1408x2048 .bf16) (x3 : Vec F S1x2048x1408 .bf16) (x4 : Vec F S256x8 .f32) (xs0 xs1 : Vec F S256x2048 .f32) :
    sout0_B_0 c i a3 h3 a4 h4 a5 h5 a6 h6 a7 h7 a8 h8 a9 h9 a10 h10 hc0 hc1 hc2 hc3 x0 x1 x2 x3 x4 xs0 xs1 = k0_pay4 x0 x1 x2 x3 xs0 := by
  unfold sout0_B_0
  rw [View.read_writes_eq_canon _ _ _ (scover0_B_0 c i a3 h3 a4 h4 a5 h5 a6 h6 a7 h7 a8 h8 a9 h9 a10 h10 hc0 hc1 hc2 hc3 x0 x1 x2 x3 x4 xs0 xs1)]
  unfold kernelRun0_B
  dsimp only
  try sl_unfold_words
  rw [View.canon_unit_zero hz]
  simp only [View.readAt_eq_ld, h3.read_unread, h4.read_unread, h5.read_unread, h6.read_unread, h7.read_unread, h9.read_unread, h10.read_unread,
    View.ld_unit_zero (S := S256x2048) hz, View.ld_unit_zero (S := S1x1408x2048) hz3, View.ld_unit_zero (S := S1x2048x1408) hz3,
    View.ld_unit_zero (S := S256x8) hz]

/-- Second half of an expert: the output tile holds what it held plus (combine weight) · (the finished expert tile). -/
theorem second_output_tile (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : ¬cond0_0 i) (hc1 : ¬cond0_1 i) (hc2 : cond0_2 i) (hc3 : ¬cond0_3 i)
    (x0 : Vec F S256x2048 .bf16) (x1 : Vec F S1x1408x2048 .bf16) (x2 : Vec F S1x1408x2048 .bf16) (x3 : Vec F S1x2048x1408 .bf16) (x4 : Vec F S256x8 .f32) (xs0 xs1 : Vec F S256x2048 .f32) :
    sout0_B_1 c i a3 h3 a4 h4 a5 h5 a6 h6 a7 h7 a8 h8 a9 h9 a10 h10 hc0 hc1 hc2 hc3 x0 x1 x2 x3 x4 xs0 xs1 = k0_pay1 (BitVec.ofNat 32 (i 1).val) x4 xs1 (k0_pay4 x0 x1 x2 x3 xs0) := by
  unfold sout0_B_1
  rw [View.read_writes_eq_canon _ _ _ (scover0_B_1 c i a3 h3 a4 h4 a5 h5 a6 h6 a7 h7 a8 h8 a9 h9 a10 h10 hc0 hc1 hc2 hc3 x0 x1 x2 x3 x4 xs0 xs1)]
  unfold kernelRun0_B
  dsimp only
  try sl_unfold_words
  rw [View.canon_unit_zero hz, View.readCov_unit_zero (S := S256x2048) _ hz]
  simp only [View.readAt_eq_ld, h3.read_unread, h4.read_unread, h5.read_unread, h6.read_unread, h7.read_unread, h9.read_unread, h10.read_unread,
    View.ld_unit_zero (S := S256x2048) hz, View.ld_unit_zero (S := S1x1408x2048) hz3, View.ld_unit_zero (S := S1x2048x1408) hz3,
    View.ld_unit_zero (S := S256x8) hz]

/-- Second half of the last expert: the expert tile, as in the case before. -/
theorem last_expert_tile (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : ¬cond0_0 i) (hc1 : ¬cond0_1 i) (hc2 : cond0_2 i) (hc3 : cond0_3 i)
    (x0 : Vec F S256x2048 .bf16) (x1 : Vec F S1x1408x2048 .bf16) (x2 : Vec F S1x1408x2048 .bf16) (x3 : Vec F S1x2048x1408 .bf16) (x4 : Vec F S256x8 .f32) (xs0 xs1 : Vec F S256x2048 .f32) :
    sout0_D_0 c i a3 h3 a4 h4 a5 h5 a6 h6 a7 h7 a8 h8 a9 h9 a10 h10 hc0 hc1 hc2 hc3 x0 x1 x2 x3 x4 xs0 xs1 = k0_pay4 x0 x1 x2 x3 xs0 := by
  unfold sout0_D_0
  rw [View.read_writes_eq_canon _ _ _ (scover0_D_0 c i a3 h3 a4 h4 a5 h5 a6 h6 a7 h7 a8 h8 a9 h9 a10 h10 hc0 hc1 hc2 hc3 x0 x1 x2 x3 x4 xs0 xs1)]
  unfold kernelRun0_D
  dsimp only
  try sl_unfold_words
  rw [View.canon_unit_zero hz]
  simp only [View.readAt_eq_ld, h3.read_unread, h4.read_unread, h5.read_unread, h6.read_unread, h7.read_unread, h9.read_unread, h10.read_unread,
    View.ld_unit_zero (S := S256x2048) hz, View.ld_unit_zero (S := S1x1408x2048) hz3, View.ld_unit_zero (S := S1x2048x1408) hz3,
    View.ld_unit_zero (S := S256x8) hz]

/-- Second half of the last expert: the output tile, as in the case before. -/
theorem last_output_tile (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : ¬cond0_0 i) (hc1 : ¬cond0_1 i) (hc2 : cond0_2 i) (hc3 : cond0_3 i)
    (x0 : Vec F S256x2048 .bf16) (x1 : Vec F S1x1408x2048 .bf16) (x2 : Vec F S1x1408x2048 .bf16) (x3 : Vec F S1x2048x1408 .bf16) (x4 : Vec F S256x8 .f32) (xs0 xs1 : Vec F S256x2048 .f32) :
    sout0_D_1 c i a3 h3 a4 h4 a5 h5 a6 h6 a7 h7 a8 h8 a9 h9 a10 h10 hc0 hc1 hc2 hc3 x0 x1 x2 x3 x4 xs0 xs1 = k0_pay1 (BitVec.ofNat 32 (i 1).val) x4 xs1 (k0_pay4 x0 x1 x2 x3 xs0) := by
  unfold sout0_D_1
  rw [View.read_writes_eq_canon _ _ _ (scover0_D_1 c i a3 h3 a4 h4 a5 h5 a6 h6 a7 h7 a8 h8 a9 h9 a10 h10 hc0 hc1 hc2 hc3 x0 x1 x2 x3 x4 xs0 xs1)]
  unfold kernelRun0_D
  dsimp only
  try sl_unfold_words
  rw [View.canon_unit_zero hz, View.readCov_unit_zero (S := S256x2048) _ hz]
  simp only [View.readAt_eq_ld, h3.read_unread, h4.read_unread, h5.read_unread, h6.read_unread, h7.read_unread, h9.read_unread, h10.read_unread,
    View.ld_unit_zero (S := S256x2048) hz, View.ld_unit_zero (S := S1x1408x2048) hz3, View.ld_unit_zero (S := S1x2048x1408) hz3,
    View.ld_unit_zero (S := S256x8) hz]

/-- Second half of the last expert: the result block receives the output tile just stored. -/
theorem last_result_block (c : Dev nD) (i : grid0.Coords) (a3 : Memref sig .tc .vmem S256x2048 .bf16) (h3 : a3.IsWhole) (a4 : Memref sig .tc .vmem S1x1408x2048 .bf16) (h4 : a4.IsWhole) (a5 : Memref sig .tc .vmem S1x1408x2048 .bf16) (h5 : a5.IsWhole) (a6 : Memref sig .tc .vmem S1x2048x1408 .bf16) (h6 : a6.IsWhole) (a7 : Memref sig .tc .vmem S256x8 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hc0 : ¬cond0_0 i) (hc1 : ¬cond0_1 i) (hc2 : cond0_2 i) (hc3 : cond0_3 i)
    (x0 : Vec F S256x2048 .bf16) (x1 : Vec F S1x1408x2048 .bf16) (x2 : Vec F S1x1408x2048 .bf16) (x3 : Vec F S1x2048x1408 .bf16) (x4 : Vec F S256x8 .f32) (xs0 xs1 : Vec F S256x2048 .f32) :
    out0_D_5 c i a3 h3 a4 h4 a5 h5 a6 h6 a7 h7 a8 h8 a9 h9 a10 h10 hc0 hc1 hc2 hc3 x0 x1 x2 x3 x4 xs0 xs1 = k0_pay1 (BitVec.ofNat 32 (i 1).val) x4 xs1 (k0_pay4 x0 x1 x2 x3 xs0) := by
  unfold out0_D_5
  rw [View.read_writes_eq_canon _ _ _ (cover0_D_5 c i a3 h3 a4 h4 a5 h5 a6 h6 a7 h7 a8 h8 a9 h9 a10 h10 hc0 hc1 hc2 hc3 x0 x1 x2 x3 x4 xs0 xs1)]
  unfold kernelRun0_D
  dsimp only
  try sl_unfold_words
  rw [View.canon_unit_zero hz, View.readCov_unit_zero (S := S256x2048) _ hz, View.readCov_unit_zero (S := S256x2048) _ hz]
  simp only [View.readAt_eq_ld, h3.read_unread, h4.read_unread, h5.read_unread, h6.read_unread, h7.read_unread, h9.read_unread, h10.read_unread,
    View.ld_unit_zero (S := S256x2048) hz, View.ld_unit_zero (S := S1x1408x2048) hz3, View.ld_unit_zero (S := S1x2048x1408) hz3,
    View.ld_unit_zero (S := S256x8) hz]

end Cert.MoE.Pieces

end
-- ==== Proof.Tile.lean ====
/-
  The two carried tiles after every grid point, by induction on the point.

  Grid points are numbered n = 16·i + 2·e + j (token tile i < 8, expert e < 8, hidden half j < 2) and visited in order.
  With B(n) the five input blocks at point n and  partial B acc  the body's partial down-projection store
  (acc + this half's product):
    half n = partial B(n) 0                      what the expert tile holds after a first half
    full n = partial B(n) (half (n - 1))         what it holds after a second half: both halves, in order
    carried n                                    the output tile after point n:  zeros at n ≡ 0 (mod 16), unchanged at the
                                                 other even points, and at an odd point the tile before plus
                                                 (combine weight of expert e) · full n
  The result block written at the last point of a token tile (n ≡ 15 mod 16) is the output tile after that point.
-/
import proofs.«124578_j81028853006988_2_alg».proof.Proof.Pieces
import Idealize.ShloMosaic.PureOps.Ideal

set_option maxRecDepth 16384

noncomputable section

namespace Cert.MoE.Tile

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The blocks of the five input windows at point n (zeros past the grid, never read). -/
def X0 (n : ℕ) : Vec Ideal S256x2048 .bf16 := if h : n < cfg0.N then iblk m c 0 ⟨n, h⟩ else fun _ => (0 : EReal)
def X1 (n : ℕ) : Vec Ideal S1x1408x2048 .bf16 := if h : n < cfg0.N then iblk m c 1 ⟨n, h⟩ else fun _ => (0 : EReal)
def X2 (n : ℕ) : Vec Ideal S1x1408x2048 .bf16 := if h : n < cfg0.N then iblk m c 2 ⟨n, h⟩ else fun _ => (0 : EReal)
def X3 (n : ℕ) : Vec Ideal S1x2048x1408 .bf16 := if h : n < cfg0.N then iblk m c 3 ⟨n, h⟩ else fun _ => (0 : EReal)
def X4 (n : ℕ) : Vec Ideal S256x8 .f32 := if h : n < cfg0.N then iblk m c 4 ⟨n, h⟩ else fun _ => (0 : EReal)

theorem X0_eq (n : ℕ) (h : n < cfg0.N) : X0 m c n = iblk m c 0 ⟨n, h⟩ := dif_pos h
theorem X1_eq (n : ℕ) (h : n < cfg0.N) : X1 m c n = iblk m c 1 ⟨n, h⟩ := dif_pos h
theorem X2_eq (n : ℕ) (h : n < cfg0.N) : X2 m c n = iblk m c 2 ⟨n, h⟩ := dif_pos h
theorem X3_eq (n : ℕ) (h : n < cfg0.N) : X3 m c n = iblk m c 3 ⟨n, h⟩ := dif_pos h
theorem X4_eq (n : ℕ) (h : n < cfg0.N) : X4 m c n = iblk m c 4 ⟨n, h⟩ := dif_pos h

/-- The expert tile after a first half. -/
def half (n : ℕ) : Vec Ideal S256x2048 .f32 := k0_pay4 (X0 m c n) (X1 m c n) (X2 m c n) (X3 m c n) (k0_pay3 (F := Ideal))
/-- The expert tile after a second half. -/
def full (n : ℕ) : Vec Ideal S256x2048 .f32 := k0_pay4 (X0 m c n) (X1 m c n) (X2 m c n) (X3 m c n) (half m c (n - 1))
/-- The expert tile after point n. -/
def expertTile (n : ℕ) : Vec Ideal S256x2048 .f32 := if n % 2 = 0 then half m c n else full m c n

/-- The output tile after point n. -/
def carried : ℕ → Vec Ideal S256x2048 .f32
  | 0 => k0_pay2 (F := Ideal)
  | k + 1 => if (k + 1) % 16 = 0 then k0_pay2 (F := Ideal) else if (k + 1) % 2 = 0 then carried k
      else k0_pay1 (BitVec.ofNat 32 (((k + 1) / 2) % 8)) (X4 m c (k + 1)) (carried k) (full m c (k + 1))

theorem carried_reset (n : ℕ) (h0 : n % 16 = 0) : carried m c n = k0_pay2 (F := Ideal) := by
  cases n with
  | zero => rfl
  | succ k => rw [carried, if_pos h0]
theorem carried_keep (k : ℕ) (h0 : ¬(k + 1) % 16 = 0) (h1 : (k + 1) % 2 = 0) : carried m c (k + 1) = carried m c k := by
  rw [carried, if_neg h0, if_pos h1]
theorem carried_step (k : ℕ) (h0 : ¬(k + 1) % 16 = 0) (h1 : ¬(k + 1) % 2 = 0) :
    carried m c (k + 1) = k0_pay1 (BitVec.ofNat 32 (((k + 1) / 2) % 8)) (X4 m c (k + 1)) (carried m c k) (full m c (k + 1)) := by
  rw [carried, if_neg h0, if_neg h1]

/-- The expert coordinate of point t is (t / 2) mod 8. -/
theorem expert_coord : ∀ t : Fin cfg0.N, ((grid0.coords t) 1).val = (t.val / 2) % 8 :=
  (by decide +kernel : ∀ t : Fin grid0.N, ((grid0.coords t) 1).val = (t.val / 2) % 8)

/-- What is claimed of point n. -/
def Holds (n : ℕ) (h : n < cfg0.N) : Prop :=
  (outsAt0 m c n h).2.1 = expertTile m c n ∧ (outsAt0 m c n h).2.2 = carried m c n
    ∧ (n % 16 = 15 → (outsAt0 m c n h).1 = carried m c n)

/-- A first half of the first expert (n ≡ 0 mod 16). -/
theorem holds_first (n : ℕ) (h : n < cfg0.N) (h0 : n % 16 = 0) : Holds m c n h := by
  have hN : n < 128 := lt_of_lt_of_eq h N_0
  have h1 : n % 2 = 0 := by omega
  have h2 : ¬n % 2 = 1 := by omega
  have h3 : ¬n % 16 = 15 := by omega
  unfold Holds
  rw [outsAt0_A m c (⟨n, h⟩ : Fin cfg0.N) h0 h1 h2 h3]
  dsimp only
  refine ⟨?_, ?_, fun h15 => absurd h15 h3⟩
  · refine (Pieces.first_expert_tile (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) ((hcond0_0 (⟨n, h⟩ : Fin cfg0.N)).mpr h0) ((hcond0_1 (⟨n, h⟩ : Fin cfg0.N)).mpr h1) (fun hh => h2 ((hcond0_2 (⟨n, h⟩ : Fin cfg0.N)).mp hh)) (fun hh => h3 ((hcond0_3 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N))).trans ?_
    unfold expertTile half
    rw [if_pos h1, X0_eq m c n h, X1_eq m c n h, X2_eq m c n h, X3_eq m c n h]
  · refine (Pieces.first_output_tile (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) ((hcond0_0 (⟨n, h⟩ : Fin cfg0.N)).mpr h0) ((hcond0_1 (⟨n, h⟩ : Fin cfg0.N)).mpr h1) (fun hh => h2 ((hcond0_2 (⟨n, h⟩ : Fin cfg0.N)).mp hh)) (fun hh => h3 ((hcond0_3 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N))).trans ?_
    rw [carried_reset m c n h0]

/-- Every point, by induction. -/
theorem holds : ∀ (n : ℕ) (h : n < cfg0.N), Holds m c n h
  | 0, h => holds_first m c 0 h rfl
  | k + 1, h => by
    have ih := holds k (Nat.lt_of_succ_lt h)
    have hN : k + 1 < 128 := lt_of_lt_of_eq h N_0
    by_cases h0 : (k + 1) % 16 = 0
    · exact holds_first m c (k + 1) h h0
    · by_cases h1 : (k + 1) % 2 = 0
      · -- a first half of a later expert
        have h2 : ¬(k + 1) % 2 = 1 := by omega
        have h3 : ¬(k + 1) % 16 = 15 := by omega
        unfold Holds
        rw [outsAt0_C m c (⟨k + 1, h⟩ : Fin cfg0.N) h0 h1 h2 h3]
        dsimp only
        refine ⟨?_, ?_, fun h15 => absurd h15 h3⟩
        · refine (Pieces.later_expert_tile (F := Ideal) c (grid0.coords (⟨k + 1, h⟩ : Fin cfg0.N)) (ms0_0 (⟨k + 1, h⟩ : Fin cfg0.N)) (hs0_0 (⟨k + 1, h⟩ : Fin cfg0.N)) (ms0_1 (⟨k + 1, h⟩ : Fin cfg0.N)) (hs0_1 (⟨k + 1, h⟩ : Fin cfg0.N)) (ms0_2 (⟨k + 1, h⟩ : Fin cfg0.N)) (hs0_2 (⟨k + 1, h⟩ : Fin cfg0.N)) (ms0_3 (⟨k + 1, h⟩ : Fin cfg0.N)) (hs0_3 (⟨k + 1, h⟩ : Fin cfg0.N)) (ms0_4 (⟨k + 1, h⟩ : Fin cfg0.N)) (hs0_4 (⟨k + 1, h⟩ : Fin cfg0.N)) (ms0_5 (⟨k + 1, h⟩ : Fin cfg0.N)) (hs0_5 (⟨k + 1, h⟩ : Fin cfg0.N)) scM0_0 (Memref.isWhole_whole _) scM0_1 (Memref.isWhole_whole _) (fun hh => h0 ((hcond0_0 (⟨k + 1, h⟩ : Fin cfg0.N)).mp hh)) ((hcond0_1 (⟨k + 1, h⟩ : Fin cfg0.N)).mpr h1) (fun hh => h2 ((hcond0_2 (⟨k + 1, h⟩ : Fin cfg0.N)).mp hh)) (fun hh => h3 ((hcond0_3 (⟨k + 1, h⟩ : Fin cfg0.N)).mp hh)) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c k (Nat.lt_of_succ_lt h)).2.2).trans ?_
          unfold expertTile half
          rw [if_pos h1, X0_eq m c (k + 1) h, X1_eq m c (k + 1) h, X2_eq m c (k + 1) h, X3_eq m c (k + 1) h]
        · show (outsAt0 m c k (Nat.lt_of_succ_lt h)).2.2 = _
          rw [ih.2.1, carried_keep m c k h0 h1]
      · have h2 : (k + 1) % 2 = 1 := by omega
        have hk : k % 2 = 0 := by omega
        have e1 : (outsAt0 m c k (Nat.lt_of_succ_lt h)).2.1 = half m c k := by rw [ih.1]; unfold expertTile; rw [if_pos hk]
        have e2 : (outsAt0 m c k (Nat.lt_of_succ_lt h)).2.2 = carried m c k := ih.2.1
        have ec : BitVec.ofNat 32 ((grid0.coords (⟨k + 1, h⟩ : Fin cfg0.N)) 1).val = BitVec.ofNat 32 (((k + 1) / 2) % 8) := by
          rw [expert_coord (⟨k + 1, h⟩ : Fin cfg0.N)]
        have efull : k0_pay4 (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (outsAt0 m c k (Nat.lt_of_succ_lt h)).2.1 = full m c (k + 1) := by
          unfold full
          rw [X0_eq m c (k + 1) h, X1_eq m c (k + 1) h, X2_eq m c (k + 1) h, X3_eq m c (k + 1) h, e1]
          rfl
        have estep : k0_pay1 (BitVec.ofNat 32 ((grid0.coords (⟨k + 1, h⟩ : Fin cfg0.N)) 1).val) (iblk m c 4 (⟨k + 1, h⟩ : Fin cfg0.N)) (outsAt0 m c k (Nat.lt_of_succ_lt h)).2.2
            (k0_pay4 (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (outsAt0 m c k (Nat.lt_of_succ_lt h)).2.1) = carried m c (k + 1) := by
          rw [carried_step m c k h0 h1, efull, ec, e2, X4_eq m c (k + 1) h]
        by_cases h3 : (k + 1) % 16 = 15
        · -- the second half of the last expert
          unfold Holds
          rw [outsAt0_D m c (⟨k + 1, h⟩ : Fin cfg0.N) h0 h1 h2 h3]
          dsimp only
          refine ⟨?_, ?_, fun _ => ?_⟩
          · refine (Pieces.last_expert_tile (F := Ideal) c (grid0.coords (⟨k + 1, h⟩ : Fin cfg0.N)) (ms0_0 (⟨k + 1, h⟩ : Fin cfg0.N)) (hs0_0 (⟨k + 1, h⟩ : Fin cfg0.N)) (ms0_1 (⟨k + 1, h⟩ : Fin cfg0.N)) (hs0_1 (⟨k + 1, h⟩ : Fin cfg0.N)) (ms0_2 (⟨k + 1, h⟩ : Fin cfg0.N)) (hs0_2 (⟨k + 1, h⟩ : Fin cfg0.N)) (ms0_3 (⟨k + 1, h⟩ : Fin cfg0.N)) (hs0_3 (⟨k + 1, h⟩ : Fin cfg0.N)) (ms0_4 (⟨k + 1, h⟩ : Fin cfg0.N)) (hs0_4 (⟨k + 1, h⟩ : Fin cfg0.N)) (ms0_5 (⟨k + 1, h⟩ : Fin cfg0.N)) (hs0_5 (⟨k + 1, h⟩ : Fin cfg0.N)) scM0_0 (Memref.isWhole_whole _) scM0_1 (Memref.isWhole_whole _) (fun hh => h0 ((hcond0_0 (⟨k + 1, h⟩ : Fin cfg0.N)).mp hh)) (fun hh => h1 ((hcond0_1 (⟨k + 1, h⟩ : Fin cfg0.N)).mp hh)) ((hcond0_2 (⟨k + 1, h⟩ : Fin cfg0.N)).mpr h2) ((hcond0_3 (⟨k + 1, h⟩ : Fin cfg0.N)).mpr h3) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c k (Nat.lt_of_succ_lt h)).2.1 (outsAt0 m c k (Nat.lt_of_succ_lt h)).2.2).trans ?_
            unfold expertTile
            rw [if_neg h1]
            exact efull
          · exact (Pieces.last_output_tile (F := Ideal) c (grid0.coords (⟨k + 1, h⟩ : Fin cfg0.N)) (ms0_0 (⟨k + 1, h⟩ : Fin cfg0.N)) (hs0_0 (⟨k + 1, h⟩ : Fin cfg0.N)) (ms0_1 (⟨k + 1, h⟩ : Fin cfg0.N)) (hs0_1 (⟨k + 1, h⟩ : Fin cfg0.N)) (ms0_2 (⟨k + 1, h⟩ : Fin cfg0.N)) (hs0_2 (⟨k + 1, h⟩ : Fin cfg0.N)) (ms0_3 (⟨k + 1, h⟩ : Fin cfg0.N)) (hs0_3 (⟨k + 1, h⟩ : Fin cfg0.N)) (ms0_4 (⟨k + 1, h⟩ : Fin cfg0.N)) (hs0_4 (⟨k + 1, h⟩ : Fin cfg0.N)) (ms0_5 (⟨k + 1, h⟩ : Fin cfg0.N)) (hs0_5 (⟨k + 1, h⟩ : Fin cfg0.N)) scM0_0 (Memref.isWhole_whole _) scM0_1 (Memref.isWhole_whole _) (fun hh => h0 ((hcond0_0 (⟨k + 1, h⟩ : Fin cfg0.N)).mp hh)) (fun hh => h1 ((hcond0_1 (⟨k + 1, h⟩ : Fin cfg0.N)).mp hh)) ((hcond0_2 (⟨k + 1, h⟩ : Fin cfg0.N)).mpr h2) ((hcond0_3 (⟨k + 1, h⟩ : Fin cfg0.N)).mpr h3) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c k (Nat.lt_of_succ_lt h)).2.1 (outsAt0 m c k (Nat.lt_of_succ_lt h)).2.2).trans estep
          · exact (Pieces.last_result_block (F := Ideal) c (grid0.coords (⟨k + 1, h⟩ : Fin cfg0.N)) (ms0_0 (⟨k + 1, h⟩ : Fin cfg0.N)) (hs0_0 (⟨k + 1, h⟩ : Fin cfg0.N)) (ms0_1 (⟨k + 1, h⟩ : Fin cfg0.N)) (hs0_1 (⟨k + 1, h⟩ : Fin cfg0.N)) (ms0_2 (⟨k + 1, h⟩ : Fin cfg0.N)) (hs0_2 (⟨k + 1, h⟩ : Fin cfg0.N)) (ms0_3 (⟨k + 1, h⟩ : Fin cfg0.N)) (hs0_3 (⟨k + 1, h⟩ : Fin cfg0.N)) (ms0_4 (⟨k + 1, h⟩ : Fin cfg0.N)) (hs0_4 (⟨k + 1, h⟩ : Fin cfg0.N)) (ms0_5 (⟨k + 1, h⟩ : Fin cfg0.N)) (hs0_5 (⟨k + 1, h⟩ : Fin cfg0.N)) scM0_0 (Memref.isWhole_whole _) scM0_1 (Memref.isWhole_whole _) (fun hh => h0 ((hcond0_0 (⟨k + 1, h⟩ : Fin cfg0.N)).mp hh)) (fun hh => h1 ((hcond0_1 (⟨k + 1, h⟩ : Fin cfg0.N)).mp hh)) ((hcond0_2 (⟨k + 1, h⟩ : Fin cfg0.N)).mpr h2) ((hcond0_3 (⟨k + 1, h⟩ : Fin cfg0.N)).mpr h3) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c k (Nat.lt_of_succ_lt h)).2.1 (outsAt0 m c k (Nat.lt_of_succ_lt h)).2.2).trans estep
        · -- the second half of an earlier expert
          unfold Holds
          rw [outsAt0_B m c (⟨k + 1, h⟩ : Fin cfg0.N) h0 h1 h2 h3]
          dsimp only
          refine ⟨?_, ?_, fun h15 => absurd h15 h3⟩
          · refine (Pieces.second_expert_tile (F := Ideal) c (grid0.coords (⟨k + 1, h⟩ : Fin cfg0.N)) (ms0_0 (⟨k + 1, h⟩ : Fin cfg0.N)) (hs0_0 (⟨k + 1, h⟩ : Fin cfg0.N)) (ms0_1 (⟨k + 1, h⟩ : Fin cfg0.N)) (hs0_1 (⟨k + 1, h⟩ : Fin cfg0.N)) (ms0_2 (⟨k + 1, h⟩ : Fin cfg0.N)) (hs0_2 (⟨k + 1, h⟩ : Fin cfg0.N)) (ms0_3 (⟨k + 1, h⟩ : Fin cfg0.N)) (hs0_3 (⟨k + 1, h⟩ : Fin cfg0.N)) (ms0_4 (⟨k + 1, h⟩ : Fin cfg0.N)) (hs0_4 (⟨k + 1, h⟩ : Fin cfg0.N)) (ms0_5 (⟨k + 1, h⟩ : Fin cfg0.N)) (hs0_5 (⟨k + 1, h⟩ : Fin cfg0.N)) scM0_0 (Memref.isWhole_whole _) scM0_1 (Memref.isWhole_whole _) (fun hh => h0 ((hcond0_0 (⟨k + 1, h⟩ : Fin cfg0.N)).mp hh)) (fun hh => h1 ((hcond0_1 (⟨k + 1, h⟩ : Fin cfg0.N)).mp hh)) ((hcond0_2 (⟨k + 1, h⟩ : Fin cfg0.N)).mpr h2) (fun hh => h3 ((hcond0_3 (⟨k + 1, h⟩ : Fin cfg0.N)).mp hh)) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c k (Nat.lt_of_succ_lt h)).2.1 (outsAt0 m c k (Nat.lt_of_succ_lt h)).2.2).trans ?_
            unfold expertTile
            rw [if_neg h1]
            exact efull
          · exact (Pieces.second_output_tile (F := Ideal) c (grid0.coords (⟨k + 1, h⟩ : Fin cfg0.N)) (ms0_0 (⟨k + 1, h⟩ : Fin cfg0.N)) (hs0_0 (⟨k + 1, h⟩ : Fin cfg0.N)) (ms0_1 (⟨k + 1, h⟩ : Fin cfg0.N)) (hs0_1 (⟨k + 1, h⟩ : Fin cfg0.N)) (ms0_2 (⟨k + 1, h⟩ : Fin cfg0.N)) (hs0_2 (⟨k + 1, h⟩ : Fin cfg0.N)) (ms0_3 (⟨k + 1, h⟩ : Fin cfg0.N)) (hs0_3 (⟨k + 1, h⟩ : Fin cfg0.N)) (ms0_4 (⟨k + 1, h⟩ : Fin cfg0.N)) (hs0_4 (⟨k + 1, h⟩ : Fin cfg0.N)) (ms0_5 (⟨k + 1, h⟩ : Fin cfg0.N)) (hs0_5 (⟨k + 1, h⟩ : Fin cfg0.N)) scM0_0 (Memref.isWhole_whole _) scM0_1 (Memref.isWhole_whole _) (fun hh => h0 ((hcond0_0 (⟨k + 1, h⟩ : Fin cfg0.N)).mp hh)) (fun hh => h1 ((hcond0_1 (⟨k + 1, h⟩ : Fin cfg0.N)).mp hh)) ((hcond0_2 (⟨k + 1, h⟩ : Fin cfg0.N)).mpr h2) (fun hh => h3 ((hcond0_3 (⟨k + 1, h⟩ : Fin cfg0.N)).mp hh)) (iblk m c 0 (⟨k + 1, h⟩ : Fin cfg0.N)) (iblk m c 1 (⟨k + 1, h⟩ : Fin cfg0.N)) (iblk m c 2 (⟨k + 1, h⟩ : Fin cfg0.N)) (iblk m c 3 (⟨k + 1, h⟩ : Fin cfg0.N)) (iblk m c 4 (⟨k + 1, h⟩ : Fin cfg0.N)) (outsAt0 m c k (Nat.lt_of_succ_lt h)).2.1 (outsAt0 m c k (Nat.lt_of_succ_lt h)).2.2).trans estep

end Cert.MoE.Tile

end
-- ==== Proof.Blocks.lean ====
/-
  The input blocks at a grid point, read at an entry of the arrays they are cut from.

  Point t = 16·i + 2·e + j of the grid (token tile i, expert e, hidden half j) is handed
    rows 256·i … of the tokens and of the combine weights,
    rows 1408·j … of expert e's gate and up weights (all 2048 input features), and
    columns 1408·j … of expert e's down weights (all 2048 output features):
  a block's entry y is the array's entry (block index × block size + y) on every axis.
-/
import proofs.«124578_j81028853006988_2_alg».proof.Proof.Gen.KernelIdeal.Frame
import Idealize.ShloMosaic.Lib.Pipeline.Value
import Idealize.ShloMosaic.Lib.ValueIdx

set_option maxRecDepth 16384

noncomputable section

namespace Cert.MoE.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ) (c : Dev nD)

/-- The printed index maps over the grid, in the point's number. -/
theorem idx_facts : ∀ t : Fin cfg0.N,
    win0_0.index t (0 : Fin 2) = t.val / 16 ∧ win0_0.index t (1 : Fin 2) = 0
    ∧ win0_1.index t (0 : Fin 3) = (t.val / 2) % 8 ∧ win0_1.index t (1 : Fin 3) = t.val % 2 ∧ win0_1.index t (2 : Fin 3) = 0
    ∧ win0_2.index t (0 : Fin 3) = (t.val / 2) % 8 ∧ win0_2.index t (1 : Fin 3) = t.val % 2 ∧ win0_2.index t (2 : Fin 3) = 0
    ∧ win0_3.index t (0 : Fin 3) = (t.val / 2) % 8 ∧ win0_3.index t (1 : Fin 3) = 0 ∧ win0_3.index t (2 : Fin 3) = t.val % 2
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

/-- The token block: row r of the block is row 256·(t/16) + r of the tokens. -/
theorem tokens_apply (t : Fin cfg0.N) (r : Fin 256) (k : Fin 2048) (R : Fin 2048) (hR : R.val = 256 * (t.val / 16) + r.val) :
    (iblk m c 0 t : Vec F S256x2048 .bf16) (ix2 r k) = V m c main_v11 (ix2 R k) := by
  obtain ⟨e0, e1, -⟩ := idx_facts t
  unfold iblk
  rw [View.read_apply]
  show V m c main_v11 _ = V m c main_v11 _
  congr 1
  funext a
  apply Fin.ext
  match a with
  | ⟨0, _⟩ => show win0_0.index t (0 : Fin 2) * 256 + 1 * r.val = R.val; rw [e0, hR]; omega
  | ⟨1, _⟩ => show win0_0.index t (1 : Fin 2) * 2048 + 1 * k.val = k.val; rw [e1]; omega

/-- The combine-weight block: row r of the block is row 256·(t/16) + r of the weights. -/
theorem weights_apply (t : Fin cfg0.N) (r : Fin 256) (k : Fin 8) (R : Fin 2048) (hR : R.val = 256 * (t.val / 16) + r.val) :
    (iblk m c 4 t : Vec F S256x8 .f32) (ix2 r k) = V m c main_v10 (ix2 R k) := by
  obtain ⟨-, -, -, -, -, -, -, -, -, -, -, e0, e1, -⟩ := idx_facts t
  unfold iblk
  rw [View.read_apply]
  show V m c main_v10 _ = V m c main_v10 _
  congr 1
  funext a
  apply Fin.ext
  match a with
  | ⟨0, _⟩ => show win0_4.index t (0 : Fin 2) * 256 + 1 * r.val = R.val; rw [e0, hR]; omega
  | ⟨1, _⟩ => show win0_4.index t (1 : Fin 2) * 8 + 1 * k.val = k.val; rw [e1]; omega

/-- The gate-weight block: hidden row l of the block is row 1408·(t mod 2) + l of expert (t/2) mod 8. -/
theorem gate_apply (t : Fin cfg0.N) (l : Fin 1408) (k : Fin 2048) (E : Fin 8) (L : Fin 2816)
    (hE : E.val = (t.val / 2) % 8) (hL : L.val = 1408 * (t.val % 2) + l.val) :
    (iblk m c 1 t : Vec F S1x1408x2048 .bf16) (ix3 (0 : Fin 1) l k) = V m c main_v14 (ix3 E L k) := by
  obtain ⟨-, -, e0, e1, e2, -⟩ := idx_facts t
  unfold iblk
  rw [View.read_apply]
  show V m c main_v14 _ = V m c main_v14 _
  congr 1
  funext a
  apply Fin.ext
  match a with
  | ⟨0, _⟩ => show win0_1.index t (0 : Fin 3) * 1 + 1 * 0 = E.val; rw [e0, hE]; omega
  | ⟨1, _⟩ => show win0_1.index t (1 : Fin 3) * 1408 + 1 * l.val = L.val; rw [e1, hL]; omega
  | ⟨2, _⟩ => show win0_1.index t (2 : Fin 3) * 2048 + 1 * k.val = k.val; rw [e2]; omega

/-- The up-weight block, likewise. -/
theorem up_apply (t : Fin cfg0.N) (l : Fin 1408) (k : Fin 2048) (E : Fin 8) (L : Fin 2816)
    (hE : E.val = (t.val / 2) % 8) (hL : L.val = 1408 * (t.val % 2) + l.val) :
    (iblk m c 2 t : Vec F S1x1408x2048 .bf16) (ix3 (0 : Fin 1) l k) = V m c main_v15 (ix3 E L k) := by
  obtain ⟨-, -, -, -, -, e0, e1, e2, -⟩ := idx_facts t
  unfold iblk
  rw [View.read_apply]
  show V m c main_v15 _ = V m c main_v15 _
  congr 1
  funext a
  apply Fin.ext
  match a with
  | ⟨0, _⟩ => show win0_2.index t (0 : Fin 3) * 1 + 1 * 0 = E.val; rw [e0, hE]; omega
  | ⟨1, _⟩ => show win0_2.index t (1 : Fin 3) * 1408 + 1 * l.val = L.val; rw [e1, hL]; omega
  | ⟨2, _⟩ => show win0_2.index t (2 : Fin 3) * 2048 + 1 * k.val = k.val; rw [e2]; omega

/-- The down-weight block: hidden column l of the block is column 1408·(t mod 2) + l of expert (t/2) mod 8. -/
theorem down_apply (t : Fin cfg0.N) (q : Fin 2048) (l : Fin 1408) (E : Fin 8) (L : Fin 2816)
    (hE : E.val = (t.val / 2) % 8) (hL : L.val = 1408 * (t.val % 2) + l.val) :
    (iblk m c 3 t : Vec F S1x2048x1408 .bf16) (ix3 (0 : Fin 1) q l) = V m c main_v13 (ix3 E q L) := by
  obtain ⟨-, -, -, -, -, -, -, -, e0, e1, e2, -⟩ := idx_facts t
  unfold iblk
  rw [View.read_apply]
  show V m c main_v13 _ = V m c main_v13 _
  congr 1
  funext a
  apply Fin.ext
  match a with
  | ⟨0, _⟩ => show win0_3.index t (0 : Fin 3) * 1 + 1 * 0 = E.val; rw [e0, hE]; omega
  | ⟨1, _⟩ => show win0_3.index t (1 : Fin 3) * 2048 + 1 * q.val = q.val; rw [e1]; omega
  | ⟨2, _⟩ => show win0_3.index t (2 : Fin 3) * 1408 + 1 * l.val = L.val; rw [e2, hL]; omega

end Cert.MoE.Blocks

end
-- ==== Proof.LibProductAtT.lean ====
/-
  A matrix product whose right factor is used transposed, read at an index.

  Dimension numbers of a product [A, K] × [B, K] → [A, B] that contract axis 1 of BOTH factors, with no batch axis, index
  the two factors at the result index (p, q) and the contraction index k by (p, k) and (q, k). So any sum over the
  contraction index — a tile product into an accumulator, a host dot_general — is the sum over k < K of
  l (p, k) · r (q, k): it reads row p of the left factor and ROW q of the right one (x · Wᵀ with W stored [out, in]).
  General: nothing here depends on a particular program. An instance supplies the two kept coordinates (hl0, hr0: each
  is "unfold DotDims.lhsIdx; rw [dif_neg …, dif_pos …]; rfl" for literal dimension numbers) and rfl four times.
-/
import Idealize.ShloMosaic.Lib.ValueIdx
import Idealize.ShloMosaic.PureOps.Ideal.Laws

noncomputable section

namespace Cert.LibProductAtT

open Idealize.ShloMosaic Idealize.ShloMosaic.ValueIdx

/-- THE SUM, RE-INDEXED. Dimension numbers that contract axis 1 of both factors and keep axis 0 of the left factor as
    the result's rows and axis 0 of the right factor as its columns (hl0, hr0): the sum over the contraction index is
    the sum over k < K of l (p, k) · r (q, k) at the result index (p, q). -/
theorem product_sum_eq {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    ∑ c : d.contr.Idx, l (d.lhsIdx (ix2 p q) c) * r (d.rhsIdx (ix2 p q) c) = ∑ k : Fin K, l (ix2 p k) * r (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 _ _
      | ⟨1, _⟩ => exact (d.lhsIdx_val_of_single hlc _ _).trans hk)
  have er : d.rhsIdx (ix2 p q) ((contrEquiv1 d K hr hs).symm k) = ix2 q k :=
    funext fun a => Fin.ext (by
      match a with
      | ⟨0, _⟩ => exact hr0 _ _
      | ⟨1, _⟩ => exact (d.rhsIdx_val_of_single hrc _ _).trans hk)
  rw [el, er]

/-- A tile product into an accumulator, at (p, q): acc (p, q) + Σ_k l (p, k) · r (q, k). -/
theorem matmul_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂)
    (acc : FVec Ideal (⟨2, ![A, B]⟩ : Shape) .f32) (p : Fin A) (q : Fin B) :
    FloatOps.matmul d prec l r acc (ix2 p q) = acc (ix2 p q) + ∑ k : Fin K, l (ix2 p k) * r (ix2 q k) := by
  rw [Ideal.matmul_apply, product_sum_eq d hr hs hlc hrc hl0 hr0]

/-- A tile product into the zero accumulator, at (p, q): Σ_k l (p, k) · r (q, k). -/
theorem matmul_zero_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, product_sum_eq d hr hs hlc hrc hl0 hr0]

/-- A host dot_general with these dimension numbers, at (p, q): Σ_k l (p, k) · r (q, k). -/
theorem dotGeneral_apply {A B K : Nat} {φ₁ φ₂ : FTy}
    (d : DotDims (⟨2, ![A, K]⟩ : Shape) (⟨2, ![B, K]⟩ : Shape) (⟨2, ![A, B]⟩ : Shape)) (prec : Option ContractPrecision)
    (sched : HostSchedule)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.dotGeneral d prec sched l r (ix2 p q) = ∑ k : Fin K, l (ix2 p k) * r (ix2 q k) := by
  rw [Ideal.dotGeneral_apply, product_sum_eq d hr hs hlc hrc hl0 hr0]

end Cert.LibProductAtT

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The two arithmetic stores of the tile body, read at one entry on the extended reals.

  The partial down-projection store: for a tile of 256 token rows x, gate and up weight slices wg, wu [1408 hidden
  units, 2048 features] of one expert and its down slice wd [2048 output features, 1408 hidden units], the store adds
  to the running tile, at (row r, output feature c),
      Σ_l ((g_l · logistic g_l) · u_l) · wd(c, l),   g_l = Σ_k x(r,k) · wg(l,k),  u_l = Σ_k x(r,k) · wu(l,k)
  — both products contract the LAST axis of both factors (the weights are stored [out, in]); the change of float
  format before the second product is the identity on extended reals.

  The combine store: with the 8 combine weights of each row, the store adds to the running output tile, at (r, c),
      (Σ_{e' < 8} [e' = e] · weight(r, e')) · tile(r, c)
  — the expert's column is selected by comparing a lane index with the expert's number, the other lanes replaced by
  zero, and the eight lanes summed; the sum is laid out as a column and repeated along the row.
-/
import proofs.«124578_j81028853006988_2_alg».proof.Proof.Gen.KernelIdeal.Skeleton
import proofs.«124578_j81028853006988_2_alg».proof.Proof.LibProductAtT
import proofs.«124578_j81028853006988_2_alg».proof.Proof.LibColumn
import proofs.«124578_j81028853006988_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.MoE.Payload

open Idealize.ShloMosaic Idealize.ShloMosaic.ValueIdx
open Cert.KernelIdeal Cert.KernelIdeal.Gen

/-! ### The two products' dimension numbers keep the rows of the left factor and the rows of the right factor -/

theorem up_l0 (j : S256x1408.Idx) (q : dot_S256x2048_S1408x2048_S256x1408_1_1_0_0_n_n.contr.Idx) : (dot_S256x2048_S1408x2048_S256x1408_1_1_0_0_n_n.lhsIdx j q 0).val = (j 0).val := by
  unfold DotDims.lhsIdx
  rw [dif_neg (show ¬(0 : Fin S256x2048.rank) ∈ dot_S256x2048_S1408x2048_S256x1408_1_1_0_0_n_n.lhsBatch by decide), dif_pos (show (0 : Fin S256x2048.rank) ∈ dot_S256x2048_S1408x2048_S256x1408_1_1_0_0_n_n.lhsNonContracting by decide)]
  rfl
theorem up_r0 (j : S256x1408.Idx) (q : dot_S256x2048_S1408x2048_S256x1408_1_1_0_0_n_n.contr.Idx) : (dot_S256x2048_S1408x2048_S256x1408_1_1_0_0_n_n.rhsIdx j q 0).val = (j 1).val := by
  unfold DotDims.rhsIdx
  rw [dif_neg (show ¬(0 : Fin S1408x2048.rank) ∈ dot_S256x2048_S1408x2048_S256x1408_1_1_0_0_n_n.rhsBatch by decide), dif_pos (show (0 : Fin S1408x2048.rank) ∈ dot_S256x2048_S1408x2048_S256x1408_1_1_0_0_n_n.rhsNonContracting by decide)]
  rfl
theorem down_l0 (j : S256x2048.Idx) (q : dot_S256x1408_S2048x1408_S256x2048_1_1_0_0_n_n.contr.Idx) : (dot_S256x1408_S2048x1408_S256x2048_1_1_0_0_n_n.lhsIdx j q 0).val = (j 0).val := by
  unfold DotDims.lhsIdx
  rw [dif_neg (show ¬(0 : Fin S256x1408.rank) ∈ dot_S256x1408_S2048x1408_S256x2048_1_1_0_0_n_n.lhsBatch by decide), dif_pos (show (0 : Fin S256x1408.rank) ∈ dot_S256x1408_S2048x1408_S256x2048_1_1_0_0_n_n.lhsNonContracting by decide)]
  rfl
theorem down_r0 (j : S256x2048.Idx) (q : dot_S256x1408_S2048x1408_S256x2048_1_1_0_0_n_n.contr.Idx) : (dot_S256x1408_S2048x1408_S256x2048_1_1_0_0_n_n.rhsIdx j q 0).val = (j 1).val := by
  unfold DotDims.rhsIdx
  rw [dif_neg (show ¬(0 : Fin S2048x1408.rank) ∈ dot_S256x1408_S2048x1408_S256x2048_1_1_0_0_n_n.rhsBatch by decide), dif_pos (show (0 : Fin S2048x1408.rank) ∈ dot_S256x1408_S2048x1408_S256x2048_1_1_0_0_n_n.rhsNonContracting by decide)]
  rfl

/-- One pre-activation of the tile: row r of the tokens against row l of a weight slice [1, 1408, 2048]. -/
theorem preact_apply (x0 : FVec Ideal S256x2048 .bf16) (w : FVec Ideal S1x1408x2048 .bf16) (r : Fin 256) (l : Fin 1408) :
    matmul dot_S256x2048_S1408x2048_S256x1408_1_1_0_0_n_n none x0 (shapeCast S1408x2048 w shapeCasts_S1x1408x2048_S1408x2048) (constant (F := Ideal) S256x1408 .f32 0x00000000#32) (ix2 r l)
      = ∑ k : Fin 2048, x0 (ix2 r k) * w (ix3 (0 : Fin 1) l k) := by
  refine (Cert.LibProductAtT.matmul_zero_apply dot_S256x2048_S1408x2048_S256x1408_1_1_0_0_n_n none rfl rfl rfl rfl up_l0 up_r0 x0 _ r l).trans ?_
  refine Finset.sum_congr rfl fun k _ => ?_
  rw [shapeCast_1ab_ab_apply]

/-- The partial down-projection store at (r, c). -/
theorem partial_apply (x0 : FVec Ideal S256x2048 .bf16) (x1 x2 : FVec Ideal S1x1408x2048 .bf16) (x3 : FVec Ideal S1x2048x1408 .bf16)
    (acc : FVec Ideal S256x2048 .f32) (r : Fin 256) (c : Fin 2048) :
    k0_pay4 (F := Ideal) x0 x1 x2 x3 acc (ix2 r c)
      = acc (ix2 r c) + ∑ l : Fin 1408,
          (((∑ k : Fin 2048, x0 (ix2 r k) * x1 (ix3 (0 : Fin 1) l k)) * Ideal.logistic (∑ k : Fin 2048, x0 (ix2 r k) * x1 (ix3 (0 : Fin 1) l k)))
            * (∑ k : Fin 2048, x0 (ix2 r k) * x2 (ix3 (0 : Fin 1) l k))) * x3 (ix3 (0 : Fin 1) c l) := by
  unfold k0_pay4
  simp only [shapeCast_self]
  refine (addf_apply _ _ _).trans ?_
  congr 1
  refine (Cert.LibProductAtT.matmul_zero_apply dot_S256x1408_S2048x1408_S256x2048_1_1_0_0_n_n none rfl rfl rfl rfl down_l0 down_r0 _ _ r c).trans ?_
  refine Finset.sum_congr rfl fun l _ => ?_
  rw [shapeCast_1ab_ab_apply]
  congr 1
  refine Eq.trans (truncf_apply (ψ := .bf16) _ bitsLt_bf16_f32 (ix2 r l)) ?_
  refine (mulf_apply _ _ _).trans ?_
  rw [preact_apply x0 x2 r l]
  congr 1
  refine (mulf_apply _ _ _).trans ?_
  show _ * FloatOps.logistic _ = _
  rw [preact_apply x0 x1 r l]
  rfl

/-- The lane sum's index at row r, lane k. -/
theorem lane_idx (r : Fin 256) (k : Fin 8) : reduces_S256x8_S256.lift (ix1 r) k = ix2 r k :=
  funext fun a => Fin.ext (by match a with | ⟨0, _⟩ => rfl | ⟨1, _⟩ => rfl)

/-- The combine store at (r, c): the running output plus (the selected combine weight) times the expert's tile. -/
theorem combine_apply (e : BitVec 32) (x4 : FVec Ideal S256x8 .f32) (acc o : FVec Ideal S256x2048 .f32) (r : Fin 256) (c : Fin 2048) :
    k0_pay1 (F := Ideal) e x4 acc o (ix2 r c)
      = acc (ix2 r c) + (∑ k : Fin 8, Scalar.select (IntOp.cmpi .eq (BitVec.ofNat 32 k.val) e) (x4 (ix2 r k)) (Ideal.ofBits .f32 0x00000000#32))
          * o (ix2 r c) := by
  unfold k0_pay1
  simp only [shapeCast_self]
  refine (addf_apply _ _ _).trans ?_
  congr 1
  refine (mulf_apply _ _ _).trans ?_
  congr 1
  refine (broadcastTo_a1_ab_apply _ _ r c).trans ?_
  refine (shapeCast_a_a1_apply _ _ r 0).trans ?_
  refine (Ideal.multiReduction_add_single _ 0x00000000#32 reduces_S256x8_S256 (.inl rfl) rfl (ix1 r)).trans ?_
  show ∑ k : Fin 8, _ = _
  refine Finset.sum_congr rfl fun k _ => ?_
  rw [lane_idx r k]
  refine (select_apply _ _ _ _).trans ?_
  congr 1
  show IntOp.cmpi .eq (iota .tc S256x8 32 [1] iota_S256x8_d1_w32 (ix2 r k)) e = _
  rw [iota_single_apply]

end Cert.MoE.Payload

end
-- ==== Proof.HostSide.lean ====
/-
  The arrays the kernel's launch finds, as functions of the program's arguments, read at an entry.

  Before the launch the program prepares five arrays: the tokens and the down weights with their float format
  changed (the identity on extended reals); the gate half and the up half of the fused weights, cut out at row
  offsets 0 and 2816 of every expert; and the combine weights
      weight(m, e) = 0 + Σ_s [ids(m, s) = e] · tw(m, s),
  computed as a comparison of the ids, broadcast along a new expert axis, with the expert numbers 0..7 broadcast
  along the token and slot axes, converted to 0 / 1, multiplied by the broadcast routing weights and summed over
  the slot axis.
-/
import proofs.«124578_j81028853006988_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.MoE.HostSide

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (c : Dev nD)

/-- The per-slot terms [ids(m, s) = e] · tw(m, s) as the program lays them out over (token, slot, expert). -/
def slotTerms (tw : FVec Ideal S2048x2 .f32) (ids : IVec S2048x2 32) : FVec Ideal S2048x2x8 .f32 :=
  mulf
    (uitofp .f32 (cmpi .eq
      (broadcastInDim S2048x2x8 ![0, 1, 2] bcast_S2048x2x1_S2048x2x8_0_1_2 (broadcastInDim S2048x2x1 ![0, 1] bcast_S2048x2_S2048x2x1_0_1 ids))
      (broadcastInDim S2048x2x8 ![0, 1, 2] bcast_S1x1x8_S2048x2x8_0_1_2 (broadcastInDim S1x1x8 ![2] bcast_S8_S1x1x8_2 (iotaInDim S8 32 0)))))
    (broadcastInDim S2048x2x8 ![0, 1, 2] bcast_S2048x2x1_S2048x2x8_0_1_2 (broadcastInDim S2048x2x1 ![0, 1] bcast_S2048x2_S2048x2x1_0_1 tw))

/-- The combine weights as the program computes them from the routing weights and the ids. -/
def weightArr (tw : FVec Ideal S2048x2 .f32) (ids : IVec S2048x2 32) : FVec Ideal S2048x8 .f32 :=
  Host.reduceAdd (slotTerms tw ids) (constant (F := Ideal) S_ .f32 0x00000000#32) reducesTo_S2048x2x8_S2048x8_d1 h_S_

/-- The tokens, the down weights, and the two halves of the fused weights, as the launch finds them. -/
def tokArr (x : FVec Ideal S2048x2048 .f32) : FVec Ideal S2048x2048 .bf16 := truncf .bf16 x bitsLt_bf16_f32
def downArr (w : FVec Ideal S8x2048x2816 .f32) : FVec Ideal S8x2048x2816 .bf16 := truncf .bf16 w bitsLt_bf16_f32
def gateArr (w : FVec Ideal S8x5632x2048 .f32) : FVec Ideal S8x2816x2048 .bf16 :=
  extractStridedSlice S8x2816x2048 ![0, 0, 0] (truncf .bf16 w bitsLt_bf16_f32 : FVec Ideal S8x5632x2048 .bf16) slices_S8x5632x2048_S8x2816x2048_0_0_0
def upArr (w : FVec Ideal S8x5632x2048 .f32) : FVec Ideal S8x2816x2048 .bf16 :=
  extractStridedSlice S8x2816x2048 ![0, 2816, 0] (truncf .bf16 w bitsLt_bf16_f32 : FVec Ideal S8x5632x2048 .bf16) slices_S8x5632x2048_S8x2816x2048_0_2816_0

theorem tokens_eq : V m c main_v11 = tokArr (m ((c : Thread nD τ).loc main_arg0)) := by
  dsimp only [Gen.V, Gen.hostOps0]; after_results; rfl
theorem down_eq : V m c main_v13 = downArr (m ((c : Thread nD τ).loc main_arg2)) := by
  dsimp only [Gen.V, Gen.hostOps0]; after_results; rfl
theorem gate_eq : V m c main_v14 = gateArr (m ((c : Thread nD τ).loc main_arg1)) := by
  dsimp only [Gen.V, Gen.hostOps0]; after_results; rfl
theorem up_eq : V m c main_v15 = upArr (m ((c : Thread nD τ).loc main_arg1)) := by
  dsimp only [Gen.V, Gen.hostOps0]; after_results; rfl

theorem weights_eq : V m c main_v10
    = weightArr (m ((c : Thread nD τ).loc main_arg3)) (m ((c : Thread nD τ).loc main_arg4)) := by
  dsimp only [Gen.V, Gen.hostOps0]; after_results; rfl

/-! ### Read at an entry -/

theorem tokens_at (x : FVec Ideal S2048x2048 .f32) (R k : Fin 2048) : tokArr x (ix2 R k) = x (ix2 R k) := rfl
theorem down_at (w : FVec Ideal S8x2048x2816 .f32) (E : Fin 8) (q : Fin 2048) (L : Fin 2816) : downArr w (ix3 E q L) = w (ix3 E q L) := rfl

/-- The gate half: row L of the half is row L of the fused weight. -/
theorem gate_at (w : FVec Ideal S8x5632x2048 .f32) (E : Fin 8) (L : Fin 2816) (k : Fin 2048) (L' : Fin 5632) (hL : L'.val = L.val) :
    gateArr w (ix3 E L k) = w (ix3 E L' k) := by
  unfold gateArr
  refine (extractStridedSlice_apply _ _ _ (ix3 E L k) (ix3 E L' k) (fun a => ?_)).trans rfl
  match a with
  | ⟨0, _⟩ => show E.val = 0 + E.val; omega
  | ⟨1, _⟩ => show L'.val = 0 + L.val; omega
  | ⟨2, _⟩ => show k.val = 0 + k.val; omega

/-- The up half: row L of the half is row 2816 + L of the fused weight. -/
theorem up_at (w : FVec Ideal S8x5632x2048 .f32) (E : Fin 8) (L : Fin 2816) (k : Fin 2048) (L' : Fin 5632) (hL : L'.val = 2816 + L.val) :
    upArr w (ix3 E L k) = w (ix3 E L' k) := by
  unfold upArr
  refine (extractStridedSlice_apply _ _ _ (ix3 E L k) (ix3 E L' k) (fun a => ?_)).trans rfl
  match a with
  | ⟨0, _⟩ => show E.val = 0 + E.val; omega
  | ⟨1, _⟩ => show L'.val = 2816 + L.val; omega
  | ⟨2, _⟩ => show k.val = 0 + k.val; omega

/-- A (token, slot) array spread along a new expert axis reads its (token, slot) entry. -/
theorem slot_bcast {α : Type} (x : S2048x2.Idx → α) (R : Fin 2048) (s : Fin 2) (e : Fin 8) :
    broadcastInDim S2048x2x8 ![0, 1, 2] bcast_S2048x2x1_S2048x2x8_0_1_2 (broadcastInDim S2048x2x1 ![0, 1] bcast_S2048x2_S2048x2x1_0_1 x) (ix3 R s e)
      = x (ix2 R s) := by
  refine (broadcastInDim_apply _ _ _ (ix3 R s e) (ix3 R s (0 : Fin 1)) (fun a => ?_)).trans ?_
  · match a with
    | ⟨0, _⟩ => show R.val = if (2048 : Nat) = 1 then 0 else R.val; rw [if_neg (by decide)]
    | ⟨1, _⟩ => show s.val = if (2 : Nat) = 1 then 0 else s.val; rw [if_neg (by decide)]
    | ⟨2, _⟩ => show 0 = if (1 : Nat) = 1 then 0 else e.val; rw [if_pos rfl]
  · refine broadcastInDim_apply _ _ _ (ix3 R s (0 : Fin 1)) (ix2 R s) (fun a => ?_)
    match a with
    | ⟨0, _⟩ => show R.val = if (2048 : Nat) = 1 then 0 else R.val; rw [if_neg (by decide)]
    | ⟨1, _⟩ => show s.val = if (2 : Nat) = 1 then 0 else s.val; rw [if_neg (by decide)]

/-- The expert numbers spread along the token and slot axes read the expert coordinate. -/
theorem expert_bcast (R : Fin 2048) (s : Fin 2) (e : Fin 8) :
    broadcastInDim S2048x2x8 ![0, 1, 2] bcast_S1x1x8_S2048x2x8_0_1_2 (broadcastInDim S1x1x8 ![2] bcast_S8_S1x1x8_2 (iotaInDim S8 32 0)) (ix3 R s e)
      = BitVec.ofNat 32 e.val := by
  refine (broadcastInDim_apply _ _ _ (ix3 R s e) (ix3 (0 : Fin 1) (0 : Fin 1) e) (fun a => ?_)).trans ?_
  · match a with
    | ⟨0, _⟩ => show 0 = if (1 : Nat) = 1 then 0 else R.val; rw [if_pos rfl]
    | ⟨1, _⟩ => show 0 = if (1 : Nat) = 1 then 0 else s.val; rw [if_pos rfl]
    | ⟨2, _⟩ => show e.val = if (8 : Nat) = 1 then 0 else e.val; rw [if_neg (by decide)]
  · refine (broadcastInDim_apply _ _ _ (ix3 (0 : Fin 1) (0 : Fin 1) e) (ix1 e) (fun a => ?_)).trans rfl
    match a with
    | ⟨0, _⟩ => show e.val = if (8 : Nat) = 1 then 0 else e.val; rw [if_neg (by decide)]

/-- One per-slot term. -/
theorem slotTerms_at (tw : FVec Ideal S2048x2 .f32) (ids : IVec S2048x2 32) (R : Fin 2048) (s : Fin 2) (e : Fin 8) :
    slotTerms tw ids (ix3 R s e)
      = FloatOps.uitofp (F := Ideal) .f32 (IntOp.cmpi .eq (ids (ix2 R s)) (BitVec.ofNat 32 e.val)) * tw (ix2 R s) := by
  unfold slotTerms
  refine (mulf_apply _ _ _).trans ?_
  rw [slot_bcast tw R s e]
  congr 1
  show FloatOps.uitofp (F := Ideal) .f32 (IntOp.cmpi .eq (broadcastInDim S2048x2x8 ![0, 1, 2] bcast_S2048x2x1_S2048x2x8_0_1_2 (broadcastInDim S2048x2x1 ![0, 1] bcast_S2048x2_S2048x2x1_0_1 ids) (ix3 R s e))
    (broadcastInDim S2048x2x8 ![0, 1, 2] bcast_S1x1x8_S2048x2x8_0_1_2 (broadcastInDim S1x1x8 ![2] bcast_S8_S1x1x8_2 (iotaInDim S8 32 0)) (ix3 R s e))) = _
  rw [slot_bcast ids R s e, expert_bcast R s e]

/-- One combine weight: the zero the sum starts from plus the two slots' terms. -/
theorem weight_at (tw : FVec Ideal S2048x2 .f32) (ids : IVec S2048x2 32) (R : Fin 2048) (e : Fin 8) :
    weightArr tw ids (ix2 R e)
      = Ideal.ofBits .f32 0x00000000#32
        + ∑ s : Fin 2, FloatOps.uitofp (F := Ideal) .f32 (IntOp.cmpi .eq (ids (ix2 R s)) (BitVec.ofNat 32 e.val)) * tw (ix2 R s) := by
  unfold weightArr
  have hy : ∀ s : Fin 2, slotTerms tw ids (ix3 R s e) = _ := fun s => slotTerms_at tw ids R s e
  generalize slotTerms tw ids = y at hy ⊢
  simp only [Host.reduceAdd, Ideal.hostReduceAdd_def]
  rw [Ideal.hostReduceAdd_single reducesTo_S2048x2x8_S2048x8_d1 (by decide)]
  refine congrArg₂ (· + ·) rfl (Finset.sum_congr rfl fun s _ => ?_)
  rw [← hy s]
  exact congrArg y (funext fun a => Fin.ext (by match a with | ⟨0, _⟩ => rfl | ⟨1, _⟩ => rfl | ⟨2, _⟩ => rfl))

end Cert.MoE.HostSide

end
-- ==== Proof.Spec.lean ====
/-
  The mixture-of-experts feed-forward layer as one function of its five arguments, index by index, on the extended reals.

  Arguments: tokens x [2048, 2048]; per expert e < 8 a fused gate/up weight w1[e] [5632, 2048] (rows 0..2815 the gate
  half, rows 2816..5631 the up half) and a down weight w2[e] [2048, 2816]; per token two routing weights tw [2048, 2]
  and two routed expert ids [2048, 2] (32-bit words; a word that names no expert routes nowhere).

  For a token row r (a function of the feature index) and an expert e:
    proj r e n   = Σ_k r k · w1[e, n, k]                                  (one pre-activation)
    hid  r e i   = (g · logistic g) · proj r e (2816 + i),  g = proj r e i  (the gated hidden unit: silu(gate) · up)
    ffn  r e c   = Σ_i hid r e i · w2[e, c, i]                            (the expert's output feature c)

  Two arrangements of the layer's output at (token m, feature c):
    * routed rows first: each of the token's two slots s sends the token's row through EVERY expert with the row
      replaced by zeros unless the slot's id is that expert, sums over the experts, and scales by the slot's
      weight:      Σ_s (Σ_e ffn (row m masked by [ids(m,s) = e]) e c) · tw(m,s)                     (routedSum)
    * combine weights first: every expert sees the token's row itself, and its output is scaled by the sum of the
      weights of the slots routed to it:   Σ_e (Σ_s [ids(m,s) = e] · tw(m,s)) · ffn (row m) e c      (combinedSum)
  A row of zeros gives proj = 0, hid = (0 · logistic 0) · 0 = 0, ffn = 0 on all extended reals, so masking the row
  is masking the expert's output; the two arrangements then differ by distributing a product over a finite sum and
  exchanging two finite sums, which holds when every entry is a real number (Algebra.lean).
-/
import Idealize.ShloMosaic.PureOps.Ideal
import Idealize.ShloMosaic.Lib.ValueIdx

noncomputable section

namespace Cert.MoE

open Idealize.ShloMosaic Idealize.ShloMosaic.ValueIdx

abbrev SX : Shape := ⟨2, ![2048, 2048]⟩
abbrev SW1 : Shape := ⟨3, ![8, 5632, 2048]⟩
abbrev SW2 : Shape := ⟨3, ![8, 2048, 2816]⟩
abbrev ST : Shape := ⟨2, ![2048, 2]⟩

/-- Row i of the gate half of a fused gate/up weight. -/
abbrev gateRow (i : Fin 2816) : Fin 5632 := ⟨i.val, by have := i.isLt; omega⟩
/-- Row i of the up half of a fused gate/up weight: row 2816 + i. -/
abbrev upRow (i : Fin 2816) : Fin 5632 := ⟨2816 + i.val, by have := i.isLt; omega⟩

/-- The 32-bit word that names expert e. -/
abbrev expertWord (e : Fin 8) : BitVec 32 := BitVec.ofNat 32 e.val

/-- One pre-activation: the row against row n of expert e's fused weight. -/
def proj (r : Fin 2048 → EReal) (w1 : FVec Ideal SW1 .f32) (e : Fin 8) (n : Fin 5632) : EReal :=
  ∑ k : Fin 2048, r k * w1 (ix3 e n k)

/-- The gated hidden unit i of expert e: silu(gate) · up. -/
def hid (r : Fin 2048 → EReal) (w1 : FVec Ideal SW1 .f32) (e : Fin 8) (i : Fin 2816) : EReal :=
  (proj r w1 e (gateRow i) * Ideal.logistic (proj r w1 e (gateRow i))) * proj r w1 e (upRow i)

/-- Expert e's output feature c for the row. -/
def ffn (r : Fin 2048 → EReal) (w1 : FVec Ideal SW1 .f32) (w2 : FVec Ideal SW2 .f32) (e : Fin 8) (c : Fin 2048) : EReal :=
  ∑ i : Fin 2816, hid r w1 e i * w2 (ix3 e c i)

/-- Token m's row. -/
def row (x : FVec Ideal SX .f32) (m : Fin 2048) : Fin 2048 → EReal := fun k => x (ix2 m k)

/-- Token m's row as slot s hands it to expert e: the row if the slot's id is e, zeros otherwise. -/
def maskedRow (x : FVec Ideal SX .f32) (ids : IVec ST 32) (e : Fin 8) (m : Fin 2048) (s : Fin 2) : Fin 2048 → EReal :=
  fun k => if ids (ix2 m s) = expertWord e then x (ix2 m k) else 0

/-- Routed rows first. -/
def routedSum (x : FVec Ideal SX .f32) (w1 : FVec Ideal SW1 .f32) (w2 : FVec Ideal SW2 .f32) (tw : FVec Ideal ST .f32)
    (ids : IVec ST 32) (m c : Fin 2048) : EReal :=
  ∑ s : Fin 2, (∑ e : Fin 8, ffn (maskedRow x ids e m s) w1 w2 e c) * tw (ix2 m s)

/-- The combine weight of token m for expert e: the weights of the slots routed to e, summed. -/
def combineWeight (tw : FVec Ideal ST .f32) (ids : IVec ST 32) (m : Fin 2048) (e : Fin 8) : EReal :=
  ∑ s : Fin 2, (if ids (ix2 m s) = expertWord e then (1 : EReal) else 0) * tw (ix2 m s)

/-- Combine weights first. -/
def combinedSum (x : FVec Ideal SX .f32) (w1 : FVec Ideal SW1 .f32) (w2 : FVec Ideal SW2 .f32) (tw : FVec Ideal ST .f32)
    (ids : IVec ST 32) (m c : Fin 2048) : EReal :=
  ∑ e : Fin 8, combineWeight tw ids m e * ffn (row x m) w1 w2 e c

end Cert.MoE

end
-- ==== Proof.KernelValue.lean ====
/-
  The kernel's result array is the "combine weights first" arrangement of the layer, entry by entry.

  For token row M = 256·i + r and output feature q, at the grid points 16·i + 2·e + j of token tile i:
    * the expert tile after expert e's second half holds (0 + Σ_{l<1408} h_l · w2[e, q, l]) + Σ_{l<1408} h_{1408+l} · w2[e, q, 1408+l],
      h the gated hidden units of row M — the expert's output feature with its hidden sum cut in two (expertOut);
    * the output tile after expert e's second half holds what it held after expert e − 1 (zero before expert 0) plus
      (Σ_{e'<8} [e' = e] · weight(M, e')) · expertOut — the lane selection picks the expert's combine weight.
  After the last expert the tile is 0 + Σ_e weight(M, e) · ffn(row M, e, q) = combinedSum, and that tile is the block of
  rows 256·i … of the result array; the eight token tiles cover the array.
-/
import proofs.«124578_j81028853006988_2_alg».proof.Proof.Tile
import proofs.«124578_j81028853006988_2_alg».proof.Proof.Blocks
import proofs.«124578_j81028853006988_2_alg».proof.Proof.Payload
import proofs.«124578_j81028853006988_2_alg».proof.Proof.HostSide
import proofs.«124578_j81028853006988_2_alg».proof.Proof.Spec
import proofs.«124578_j81028853006988_2_alg».proof.Proof.Gen.KernelIdeal.Value
import Idealize.ShloMosaic.Lib.Affine
import Mathlib.Algebra.BigOperators.Fin

set_option maxRecDepth 16384

noncomputable section

namespace Cert.MoE.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.MoE

variable (m : (ℓ : Loc nD τ sig) → Buf (Elt Ideal) ℓ) (c : Dev nD)

/-- The five arguments. -/
abbrev ax : FVec Ideal SX .f32 := m ((c : Thread nD τ).loc main_arg0)
abbrev aw1 : FVec Ideal SW1 .f32 := m ((c : Thread nD τ).loc main_arg1)
abbrev aw2 : FVec Ideal SW2 .f32 := m ((c : Thread nD τ).loc main_arg2)
abbrev atw : FVec Ideal ST .f32 := m ((c : Thread nD τ).loc main_arg3)
abbrev aids : IVec ST 32 := m ((c : Thread nD τ).loc main_arg4)

theorem lt_N {n : ℕ} (h : n < 128) : n < cfg0.N := lt_of_lt_of_eq h N_0.symm

/-! ### The blocks at point n, entry by entry, in the arguments -/

theorem tok_entry (n : ℕ) (hn : n < cfg0.N) (r : Fin 256) (k : Fin 2048) (M : Fin 2048) (hM : M.val = 256 * (n / 16) + r.val) :
    Tile.X0 m c n (ix2 r k) = ax m c (ix2 M k) := by
  rw [Tile.X0_eq m c n hn]
  refine (Blocks.tokens_apply m c ⟨n, hn⟩ r k M hM).trans ?_
  rw [HostSide.tokens_eq]
  rfl

theorem gate_entry (n : ℕ) (hn : n < cfg0.N) (l : Fin 1408) (k : Fin 2048) (E : Fin 8) (L : Fin 2816)
    (hE : E.val = (n / 2) % 8) (hL : L.val = 1408 * (n % 2) + l.val) :
    Tile.X1 m c n (ix3 (0 : Fin 1) l k) = aw1 m c (ix3 E (gateRow L) k) := by
  rw [Tile.X1_eq m c n hn]
  refine (Blocks.gate_apply m c ⟨n, hn⟩ l k E L hE hL).trans ?_
  rw [HostSide.gate_eq]
  exact HostSide.gate_at _ E L k (gateRow L) rfl

theorem up_entry (n : ℕ) (hn : n < cfg0.N) (l : Fin 1408) (k : Fin 2048) (E : Fin 8) (L : Fin 2816)
    (hE : E.val = (n / 2) % 8) (hL : L.val = 1408 * (n % 2) + l.val) :
    Tile.X2 m c n (ix3 (0 : Fin 1) l k) = aw1 m c (ix3 E (upRow L) k) := by
  rw [Tile.X2_eq m c n hn]
  refine (Blocks.up_apply m c ⟨n, hn⟩ l k E L hE hL).trans ?_
  rw [HostSide.up_eq]
  exact HostSide.up_at _ E L k (upRow L) rfl

theorem down_entry (n : ℕ) (hn : n < cfg0.N) (q : Fin 2048) (l : Fin 1408) (E : Fin 8) (L : Fin 2816)
    (hE : E.val = (n / 2) % 8) (hL : L.val = 1408 * (n % 2) + l.val) :
    Tile.X3 m c n (ix3 (0 : Fin 1) q l) = aw2 m c (ix3 E q L) := by
  rw [Tile.X3_eq m c n hn]
  refine (Blocks.down_apply m c ⟨n, hn⟩ q l E L hE hL).trans ?_
  rw [HostSide.down_eq]
  rfl

theorem weight_entry (n : ℕ) (hn : n < cfg0.N) (r : Fin 256) (k : Fin 8) (M : Fin 2048) (hM : M.val = 256 * (n / 16) + r.val) :
    Tile.X4 m c n (ix2 r k) = HostSide.weightArr (atw m c) (aids m c) (ix2 M k) := by
  rw [Tile.X4_eq m c n hn]
  refine (Blocks.weights_apply m c ⟨n, hn⟩ r k M hM).trans ?_
  rw [HostSide.weights_eq]

/-- The partial down-projection store at point n, in the arguments: the hidden units Lf l of expert E for row M. -/
theorem part_at (n : ℕ) (hn : n < cfg0.N) (acc : FVec Ideal S256x2048 .f32) (r : Fin 256) (q : Fin 2048) (M : Fin 2048) (E : Fin 8)
    (Lf : Fin 1408 → Fin 2816) (hM : M.val = 256 * (n / 16) + r.val) (hE : E.val = (n / 2) % 8)
    (hL : ∀ l : Fin 1408, (Lf l).val = 1408 * (n % 2) + l.val) :
    k0_pay4 (F := Ideal) (Tile.X0 m c n) (Tile.X1 m c n) (Tile.X2 m c n) (Tile.X3 m c n) acc (ix2 r q)
      = acc (ix2 r q) + ∑ l : Fin 1408, hid (row (ax m c) M) (aw1 m c) E (Lf l) * aw2 m c (ix3 E q (Lf l)) := by
  rw [Payload.partial_apply]
  congr 1
  refine Finset.sum_congr rfl fun l _ => ?_
  rw [down_entry m c n hn q l E (Lf l) hE (hL l)]
  congr 1
  have hg : ∑ k : Fin 2048, Tile.X0 m c n (ix2 r k) * Tile.X1 m c n (ix3 (0 : Fin 1) l k)
      = proj (row (ax m c) M) (aw1 m c) E (gateRow (Lf l)) := by
    unfold proj row
    exact Finset.sum_congr rfl fun k _ => by rw [tok_entry m c n hn r k M hM, gate_entry m c n hn l k E (Lf l) hE (hL l)]
  have hu : ∑ k : Fin 2048, Tile.X0 m c n (ix2 r k) * Tile.X2 m c n (ix3 (0 : Fin 1) l k)
      = proj (row (ax m c) M) (aw1 m c) E (upRow (Lf l)) := by
    unfold proj row
    exact Finset.sum_congr rfl fun k _ => by rw [tok_entry m c n hn r k M hM, up_entry m c n hn l k E (Lf l) hE (hL l)]
  rw [hg, hu]
  rfl

/-! ### The expert tile after a second half -/

/-- The zero both tiles are reset to. -/
abbrev Z : EReal := Ideal.ofBits .f32 0x00000000#32

theorem zero_tile (r : Fin 256) (q : Fin 2048) : k0_pay3 (F := Ideal) (ix2 r q) = Z := by
  unfold k0_pay3
  simp only [shapeCast_self]
  rfl
theorem zero_tile' (r : Fin 256) (q : Fin 2048) : k0_pay2 (F := Ideal) (ix2 r q) = Z := by
  unfold k0_pay2
  simp only [shapeCast_self]
  rfl

/-- Hidden unit l of the first half, and of the second half. -/
def hidLo (l : Fin 1408) : Fin 2816 := ⟨l.val, by have := l.isLt; omega⟩
def hidHi (l : Fin 1408) : Fin 2816 := ⟨1408 + l.val, by have := l.isLt; omega⟩

/-- Expert E's output feature q for row M, its hidden sum cut in two and accumulated from zero. -/
def expertOut (M : Fin 2048) (E : Fin 8) (q : Fin 2048) : EReal :=
  (Z + ∑ l : Fin 1408, hid (row (ax m c) M) (aw1 m c) E (hidLo l) * aw2 m c (ix3 E q (hidLo l)))
    + ∑ l : Fin 1408, hid (row (ax m c) M) (aw1 m c) E (hidHi l) * aw2 m c (ix3 E q (hidHi l))

theorem full_at (i e : Fin 8) (r : Fin 256) (q : Fin 2048) (M : Fin 2048) (hM : M.val = 256 * i.val + r.val) :
    Tile.full m c (16 * i.val + 2 * e.val + 1) (ix2 r q) = expertOut m c M e q := by
  have hi := i.isLt
  have he := e.isLt
  have hr := r.isLt
  have hn1 : 16 * i.val + 2 * e.val + 1 < cfg0.N := lt_N (by omega)
  have hn0 : 16 * i.val + 2 * e.val < cfg0.N := lt_N (by omega)
  unfold Tile.full expertOut
  rw [part_at m c (16 * i.val + 2 * e.val + 1) hn1 _ r q M e hidHi (by omega) (by omega) (fun l => by show 1408 + l.val = _; omega)]
  congr 1
  show Tile.half m c (16 * i.val + 2 * e.val) (ix2 r q) = _
  unfold Tile.half
  rw [part_at m c (16 * i.val + 2 * e.val) hn0 _ r q M e hidLo (by omega) (by omega) (fun l => by show l.val = _; omega), zero_tile]

/-! ### The output tile over the experts of one token tile -/

/-- The lane selection's sum for expert number k. -/
def wSel (M : Fin 2048) (k : ℕ) : EReal :=
  ∑ e' : Fin 8, Scalar.select (IntOp.cmpi .eq (BitVec.ofNat 32 e'.val) (BitVec.ofNat 32 k))
    (HostSide.weightArr (atw m c) (aids m c) (ix2 M e')) Z

/-- Expert number k's output (k read modulo 8, so that the definition is total). -/
def expertOutN (M : Fin 2048) (k : ℕ) (q : Fin 2048) : EReal := expertOut m c M ⟨k % 8, Nat.mod_lt _ (by decide)⟩ q

/-- The output tile's entry after k experts. -/
def accK (M : Fin 2048) (q : Fin 2048) : ℕ → EReal
  | 0 => Z
  | k + 1 => accK M q k + wSel m c M k * expertOutN m c M k q

theorem step_at (i e : Fin 8) (r : Fin 256) (q : Fin 2048) (M : Fin 2048) (hM : M.val = 256 * i.val + r.val) :
    Tile.carried m c (16 * i.val + 2 * e.val + 1) (ix2 r q)
      = Tile.carried m c (16 * i.val + 2 * e.val) (ix2 r q) + wSel m c M e.val * expertOutN m c M e.val q := by
  have hi := i.isLt
  have he := e.isLt
  have hr := r.isLt
  have hn1 : 16 * i.val + 2 * e.val + 1 < cfg0.N := lt_N (by omega)
  rw [Tile.carried_step m c (16 * i.val + 2 * e.val) (by omega) (by omega), Payload.combine_apply, full_at m c i e r q M hM]
  congr 1
  congr 1
  · unfold wSel
    refine Finset.sum_congr rfl fun k _ => ?_
    rw [weight_entry m c _ hn1 r k M (by omega), show ((16 * i.val + 2 * e.val + 1) / 2) % 8 = e.val from by omega]
  · unfold expertOutN
    congr 1
    exact Fin.ext (Nat.mod_eq_of_lt he).symm

theorem chain (i : Fin 8) (r : Fin 256) (q : Fin 2048) (M : Fin 2048) (hM : M.val = 256 * i.val + r.val) :
    ∀ (k : ℕ) (hk : k < 8), Tile.carried m c (16 * i.val + 2 * k + 1) (ix2 r q) = accK m c M q (k + 1)
  | 0, hk => by
    have hi := i.isLt
    refine (step_at m c i ⟨0, hk⟩ r q M hM).trans ?_
    show _ = accK m c M q 0 + wSel m c M 0 * expertOutN m c M 0 q
    congr 1
    show Tile.carried m c (16 * i.val + 2 * 0) (ix2 r q) = Z
    rw [Tile.carried_reset m c _ (by omega)]
    exact zero_tile' r q
  | k + 1, hk => by
    have hi := i.isLt
    refine (step_at m c i ⟨k + 1, hk⟩ r q M hM).trans ?_
    show _ = accK m c M q (k + 1) + wSel m c M (k + 1) * expertOutN m c M (k + 1) q
    congr 1
    show Tile.carried m c (16 * i.val + 2 * (k + 1)) (ix2 r q) = _
    rw [show 16 * i.val + 2 * (k + 1) = (16 * i.val + 2 * k + 1) + 1 from by omega,
      Tile.carried_keep m c _ (by omega) (by omega)]
    exact chain i r q M hM k (by omega)

/-! ### After the eight experts: the "combine weights first" arrangement -/

theorem accK_eight (M : Fin 2048) (q : Fin 2048) :
    accK m c M q 8 = Z + ∑ e : Fin 8, wSel m c M e.val * expertOutN m c M e.val q := by
  rw [Fin.sum_univ_eight]
  show ((((((((Z + _) + _) + _) + _) + _) + _) + _) + _) = _
  simp only [add_assoc]
  rfl

/-- Two expert numbers below 8 with the same 32-bit word are equal. -/
theorem word_inj (a b : ℕ) (ha : a < 8) (hb : b < 8) (h : BitVec.ofNat 32 a = BitVec.ofNat 32 b) : a = b := by
  have h' := congrArg BitVec.toNat h
  rw [BitVec.toNat_ofNat, BitVec.toNat_ofNat, Nat.mod_eq_of_lt (by omega), Nat.mod_eq_of_lt (by omega)] at h'
  exact h'

/-- The lane selection picks expert e's combine weight: the other lanes contribute zero. -/
theorem wSel_eq (M : Fin 2048) (e : Fin 8) :
    wSel m c M e.val = HostSide.weightArr (atw m c) (aids m c) (ix2 M e) := by
  unfold wSel
  rw [Finset.sum_eq_single e]
  · unfold Scalar.select
    rw [if_pos (show IntOp.cmpi .eq (BitVec.ofNat 32 e.val) (BitVec.ofNat 32 e.val) = (1 : BitVec 1) from IntOp.cmpi_eq.mpr rfl)]
  · intro e' _ hne
    have hc : ¬IntOp.cmpi .eq (BitVec.ofNat 32 e'.val) (BitVec.ofNat 32 e.val) = (1 : BitVec 1) := fun h =>
      hne (Fin.ext (word_inj _ _ e'.isLt e.isLt (IntOp.cmpi_eq.mp h)))
    unfold Scalar.select
    rw [if_neg hc]
    exact Ideal.ofBits_zero_f32
  · intro h
    exact absurd (Finset.mem_univ e) h

/-- The program's combine weight is the sum of the weights of the slots routed to the expert. -/
theorem weight_eq (M : Fin 2048) (e : Fin 8) :
    HostSide.weightArr (atw m c) (aids m c) (ix2 M e) = combineWeight (atw m c) (aids m c) M e := by
  rw [HostSide.weight_at, Ideal.ofBits_zero_f32, zero_add]
  unfold combineWeight
  refine Finset.sum_congr rfl fun s _ => ?_
  congr 1
  show ((((IntOp.cmpi .eq (aids m c (ix2 M s)) (BitVec.ofNat 32 e.val)).toNat : ℝ)) : EReal) = _
  by_cases h : aids m c (ix2 M s) = expertWord e
  · rw [if_pos h, IntOp.cmpi_eq.mpr h]
    simp
  · rw [if_neg h, ValueIdx.eq_zero_of_ne_one (fun h' => h (IntOp.cmpi_eq.mp h'))]
    simp

/-- The hidden sum cut in two halves is the whole hidden sum. -/
theorem expertOut_eq (M : Fin 2048) (e : Fin 8) (q : Fin 2048) :
    expertOut m c M e q = ffn (row (ax m c) M) (aw1 m c) (aw2 m c) e q := by
  unfold expertOut ffn
  rw [show (Z : EReal) = 0 from Ideal.ofBits_zero_f32, zero_add]
  exact (Fin.sum_univ_add (a := 1408) (b := 1408)
    (fun i : Fin (1408 + 1408) => hid (row (ax m c) M) (aw1 m c) e i * aw2 m c (ix3 e q i))).symm

/-- The output tile after the last expert of token tile i, at (r, q): the layer's output for token 256·i + r. -/
theorem carried_last (i : Fin 8) (r : Fin 256) (q : Fin 2048) (M : Fin 2048) (hM : M.val = 256 * i.val + r.val) :
    Tile.carried m c (16 * i.val + 15) (ix2 r q)
      = combinedSum (ax m c) (aw1 m c) (aw2 m c) (atw m c) (aids m c) M q := by
  have h := chain m c i r q M hM 7 (by decide)
  rw [show 16 * i.val + 15 = 16 * i.val + 2 * 7 + 1 from by omega]
  refine h.trans ((accK_eight m c M q).trans ?_)
  rw [show (Z : EReal) = 0 from Ideal.ofBits_zero_f32, zero_add]
  unfold combinedSum
  refine Finset.sum_congr rfl fun e _ => ?_
  rw [wSel_eq, weight_eq]
  congr 1
  unfold expertOutN
  rw [expertOut_eq]
  congr 1
  exact Fin.ext (Nat.mod_eq_of_lt e.isLt)

/-! ### From the blocks to the array -/

/-- The result array: the layer's output, "combine weights first". -/
def result : Buf (Elt Ideal) ((c : Thread nD τ).loc main_v16) :=
  fun y => combinedSum (ax m c) (aw1 m c) (aw2 m c) (atw m c) (aids m c) (y 0) (y 1)

/-- What the last point of a token tile writes back is that tile's block of the result. -/
theorem flushed_eq (t : Fin cfg0.N) (hf : (cfg0.win 5).flush t = true) :
    (dats m 0 c).flushed 5 t = ((cfg0.win 5).blk t).view.read (Elt Ideal) (result m c) := by
  have h15 : t.val % 16 = 15 := (flush0_5 t).mp hf
  have hN : t.val < 128 := lt_of_lt_of_eq t.isLt N_0
  rw [Cert.KernelIdeal.Value.flushed5, (Tile.holds m c t.val t.isLt).2.2 h15]
  refine funext fun (y : S256x2048.Idx) => ?_
  obtain ⟨r, q, rfl⟩ : ∃ (r : Fin 256) (q : Fin 2048), y = ix2 r q := ⟨y 0, y 1, eq_ix2 y⟩
  rw [View.read_apply]
  have hr := r.isLt
  obtain ⟨M, hM'⟩ : ∃ M : Fin 2048, M.val = 256 * (t.val / 16) + r.val := ⟨⟨256 * (t.val / 16) + r.val, by omega⟩, rfl⟩
  have hemb : ((cfg0.win 5).blk t).view.emb (ix2 r q) = ix2 M q := by
    obtain ⟨-, -, -, -, -, -, -, -, -, -, -, -, -, e0, e1⟩ := Blocks.idx_facts t
    funext a
    apply Fin.ext
    match a with
    | ⟨0, _⟩ => show win0_5.index t (0 : Fin 2) * 256 + 1 * r.val = M.val; rw [e0, hM']; omega
    | ⟨1, _⟩ => show win0_5.index t (1 : Fin 2) * 2048 + 1 * q.val = q.val; rw [e1]; omega
  obtain ⟨i, hi⟩ : ∃ i : Fin 8, t.val = 16 * i.val + 15 := ⟨⟨t.val / 16, by omega⟩, by show t.val = 16 * (t.val / 16) + 15; omega⟩
  have hM : M.val = 256 * i.val + r.val := by rw [hM']; omega
  show Tile.carried m c t.val (ix2 r q) = result m c (((cfg0.win 5).blk t).view.emb (ix2 r q))
  rw [hemb, hi]
  exact carried_last m c i r q M hM

/-- Every entry of the result array is in the block of the last point of its token tile. -/
theorem cover (y : S2048x2048.Idx) :
    ∃ t : Fin cfg0.N, (cfg0.win 5).flush t = true ∧ y ∈ ((cfg0.win 5).blk t).view.set := by
  have h0 : (y 0).val < 2048 := (y 0).isLt
  have h1 : (y 1).val < 2048 := (y 1).isLt
  obtain ⟨T, hT⟩ : ∃ T : Fin cfg0.N, T.val = 16 * ((y 0).val / 256) + 15 := ⟨⟨16 * ((y 0).val / 256) + 15, lt_N (by omega)⟩, rfl⟩
  refine ⟨T, (flush0_5 T).mpr (by omega), ?_⟩
  obtain ⟨-, -, -, -, -, -, -, -, -, -, -, -, -, e0, e1⟩ := Blocks.idx_facts T
  show y ∈ ((View.whole main_v16).slice (win0_5.rect T)).set
  rw [View.set_slice_whole, Rect.mem_set_unit]
  intro a
  match a with
  | ⟨0, _⟩ =>
    show win0_5.index T (0 : Fin 2) * 256 ≤ (y 0).val ∧ (y 0).val < win0_5.index T (0 : Fin 2) * 256 + 256
    rw [e0, hT]; omega
  | ⟨1, _⟩ =>
    show win0_5.index T (1 : Fin 2) * 2048 ≤ (y 1).val ∧ (y 1).val < win0_5.index T (1 : Fin 2) * 2048 + 2048
    rw [e1]; omega

/-- The result array after the run. -/
theorem final : (dats m 0 c).arrAt 5 cfg0.N = result m c :=
  (dats m 0 c).arrAt_eq_of_cover 5 (result m c) (flushed_eq m c) (cover)

end Cert.MoE.KernelValue

namespace Cert.MoE.KernelValue

open Idealize.ShloMosaic Idealize.ShloMosaic.TcCoe Idealize.SL.Sem
open Cert.KernelIdeal Cert.KernelIdeal.Gen

/-- The kernel's run: the result array at the layer's output, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.MoE.KernelValue

end
-- ==== Proof.RefScalar.lean ====
/-
  Scalar facts for reading one expert pass of the reference at an index.

  * A select whose condition is the equality test of two 32-bit words is the if-then-else on that equality.
  * The f32 pattern 0x3F800000 denotes the extended real 1.
  * The expansion g · (1 / (1 + exp (−g))) that the program spells for silu is g · logistic g: logistic is by
    definition 1 / (1 + exp (−x)) with the division's and the exponential's corner values, so the two agree on
    every extended real.
-/
import Idealize.ShloMosaic.PureOps.Ideal
import Idealize.ShloMosaic.PureOps.Ideal.Laws
import Idealize.ShloMosaic.Lib.ValueIdx

noncomputable section

namespace Cert.MoE.Ref

open Idealize.ShloMosaic Idealize.ShloMosaic.ValueIdx

/-- A select on "word a equals word b" is the if-then-else on a = b: the comparison's bit is 1 exactly when the
    words are equal. -/
theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := by simpa using h
    simp [hb, h]

/-- The f32 pattern 0x3F800000 (sign 0, biased exponent 127, fraction 0) denotes 1. -/
theorem ofBits_one_f32 : Ideal.ofBits .f32 0x3F800000#32 = 1 := by
  simp [Ideal.ofBits, Ideal.ieee, -EReal.coe_mul]; norm_num

/-- silu as the program spells it — g times the quotient of 1 by 1 plus the exponential of −g, both ones given by
    their f32 pattern — is g · logistic g, since logistic x is defined as that quotient. -/
theorem silu_eq (g : Ideal .f32) :
    FloatOps.mulf g (FloatOps.hostDivf (FloatOps.ofBits (F := Ideal) .f32 0x3F800000#32)
      (FloatOps.addf (FloatOps.ofBits (F := Ideal) .f32 0x3F800000#32) (FloatOps.hostUnary .exp (FloatOps.hostNegf g))))
      = g * Ideal.logistic g := by
  rw [Ideal.ofBits_def, ofBits_one_f32]
  rfl

end Cert.MoE.Ref

end
-- ==== Proof.RefRows.lean ====
/-
  The parts of the reference shared by its eight expert passes, read at one element.

  The program replicates each of the 2048 token rows once per slot and flattens (token m, slot s) to row 2m + s of a
  [4096, 2048] array; it flattens the routed ids the same way, and it starts the accumulator from a zero array.
  Row-major flattening of [2048, 2, 2048] to [4096, 2048] sends (m, s, k) to flat position (2m + s) · 2048 + k,
  so row 2m + s, column k of the replicated array is the token array at (m, k); and position 2m + s of the
  flattened ids is the id at (m, s).
-/
import proofs.«124578_j81028853006988_2_alg».proof.Proof.RefRead
import proofs.«124578_j81028853006988_2_alg».proof.Proof.Spec
import proofs.«124578_j81028853006988_2_alg».proof.Proof.RefScalar

noncomputable section

namespace Cert.MoE.Ref

open Idealize.ShloMosaic Idealize.ShloMosaic.ValueIdx Cert.ReferenceIdeal Cert.ReferenceIdeal.ReadP

/-- Row 2m + s of the 4096 replicated rows: token m as handed to slot s. -/
abbrev slotRow (m : Fin 2048) (s : Fin 2) : Fin 4096 :=
  ⟨2 * m.val + s.val, by have := m.isLt; have := s.isLt; omega⟩

/-- The replicated rows at (2m + s, k) are the tokens at (m, k): the flat position (2m + s) · 2048 + k has quotient
    m by 4096 and remainder k by 2048, and the two broadcasts drop the slot coordinate. -/
theorem row_at (x0 : FVec Ideal SX .f32) (m : Fin 2048) (s : Fin 2) (k : Fin 2048) :
    val_main_v2 (F := Ideal) x0 (ix2 (slotRow m s) k) = x0 (ix2 m k) := by
  have hm := m.isLt; have hs := s.isLt; have hk := k.isLt
  rw [val_main_v2_apply, val_main_v1_apply, val_main_v0_apply]
  refine congrArg x0 (funext fun a => Fin.ext ?_)
  match a with
  | ⟨0, _⟩ => show ((2 * m.val + s.val) * 2048 + k.val) / 4096 = m.val; omega
  | ⟨1, _⟩ => show ((2 * m.val + s.val) * 2048 + k.val) % 2048 = k.val; omega

/-- The flattened ids at position 2m + s are the ids at (m, s): quotient m and remainder s by 2. -/
theorem ids_at (x4 : IVec ST 32) (m : Fin 2048) (s : Fin 2) :
    val_main_v3 (F := Ideal) x4 (ix1 (slotRow m s)) = x4 (ix2 m s) := by
  have hm := m.isLt; have hs := s.isLt
  rw [val_main_v3_apply]
  refine congrArg x4 (funext fun a => Fin.ext ?_)
  match a with
  | ⟨0, _⟩ => show (2 * m.val + s.val) / 2 = m.val; omega
  | ⟨1, _⟩ => show (2 * m.val + s.val) % 2 = s.val; omega

/-- The accumulator's initial array is zero everywhere: a broadcast of the f32 pattern of 0. -/
theorem zero_at (j : S4096x2048.Idx) : val_main_v4 (F := Ideal) j = 0 := by
  rw [val_main_v4_apply, val_main_cst_apply, Ideal.ofBits_def, Ideal.ofBits_zero_f32]

end Cert.MoE.Ref

end
-- ==== Proof.RefExpert0.lean ====
/-
  Expert 0's pass of the reference, read at one element of its output.

  For token m, slot s and output feature c, the pass's second product at row 2m + s, column c is the feed-forward
  value ffn of expert 0 on the row of token m masked by "the id routed at (m, s) is 0":
    * the masked array at (2m + s, k) selects, on the equality of the flattened id at 2m + s with the word 0,
      between the replicated row entry (the token entry (m, k)) and zero: this is maskedRow;
    * the sliced, reshaped and transposed first weight at (k, n) is w1 at (0, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (0, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E0

open Idealize.ShloMosaic Idealize.ShloMosaic.ValueIdx Cert.ReferenceIdeal Cert.ReferenceIdeal.ReadP

/-- The masked array at (2m + s, k) is the masked row of the specification: the condition read at that element is
    the equality test of the id at (m, s) with the word 0, the selected operand the token entry (m, k), the other
    operand the pattern of zero. -/
theorem masked_at (x0 : FVec Ideal SX .f32) (x4 : IVec ST 32) (m : Fin 2048) (s : Fin 2) (k : Fin 2048) :
    val_main_v8 (F := Ideal) x0 x4 (ix2 (slotRow m s) k) = maskedRow x0 x4 0 m s k := by
  have e1 : idx_main_v7 (idx_main_call0_v1 (ix2 (slotRow m s) k)) = ix1 (slotRow m s) :=
    funext fun a => Fin.ext (by match a with | ⟨0, _⟩ => rfl)
  rw [val_main_v8_apply, val_main_call0_v1_apply, val_main_v7_apply, val_main_v6_apply, e1, ids_at, val_main_v5_apply,
    val_main_c_apply, row_at, val_main_call0_v2_apply, val_main_call0_v0_apply, val_main_cst_0_apply,
    select_cmpi_eq, Ideal.ofBits_def, Ideal.ofBits_zero_f32]
  rfl

/-- The first weight as the product reads it: slicing expert 0, dropping the unit axis and transposing sends
    (k, n) to w1 at (0, n, k); the flat position n · 2048 + k has quotient n and remainder k by 2048. -/
theorem w1_at (x1 : FVec Ideal SW1 .f32) (k : Fin 2048) (n : Fin 5632) :
    val_main_v11 (F := Ideal) x1 (ix2 k n) = x1 (ix3 (0 : Fin 8) n k) := by
  have hk := k.isLt; have hn := n.isLt
  rw [val_main_v11_apply, val_main_v10_apply, val_main_v9_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[0]. -/
theorem proj_at (x0 : FVec Ideal SX .f32) (x1 : FVec Ideal SW1 .f32) (x4 : IVec ST 32) (m : Fin 2048) (s : Fin 2)
    (n : Fin 5632) :
    val_main_v12 (F := Ideal) x0 x1 x4 (ix2 (slotRow m s) n) = proj (maskedRow x0 x4 0 m s) x1 0 n := by
  rw [val_main_v12_apply]
  unfold proj
  refine Finset.sum_congr rfl fun k _ => ?_
  have el : lidx_main_v12 (ix2 (slotRow m s) n) k = ix2 (slotRow m s) k :=
    funext fun a => Fin.ext (by match a with | ⟨0, _⟩ => rfl | ⟨1, _⟩ => rfl)
  have er : ridx_main_v12 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v16 (F := Ideal) x0 x1 x4 (ix2 (slotRow m s) i) = hid (maskedRow x0 x4 0 m s) x1 0 i := by
  have eg : idx_main_v13 (ix2 (slotRow m s) i) = ix2 (slotRow m s) (gateRow i) :=
    funext fun a => Fin.ext (by match a with | ⟨0, _⟩ => rfl | ⟨1, _⟩ => rfl)
  have eu : idx_main_v14 (ix2 (slotRow m s) i) = ix2 (slotRow m s) (upRow i) :=
    funext fun a => Fin.ext (by match a with | ⟨0, _⟩ => rfl | ⟨1, _⟩ => rfl)
  rw [val_main_v16_apply, val_main_v15_apply, val_main_call1_v5_apply, val_main_call1_v4_apply, val_main_call1_cst_0_apply,
    val_main_call1_v3_apply, val_main_call1_v2_apply, val_main_call1_cst_apply, val_main_call1_v1_apply,
    val_main_call1_v0_apply, val_main_v13_apply, val_main_v14_apply, eg, eu, proj_at, proj_at, silu_eq]
  rfl

/-- The second weight as the product reads it: (i, c) goes to w2 at (0, c, i); the flat position c · 2816 + i has
    quotient c and remainder i by 2816. -/
theorem w2_at (x2 : FVec Ideal SW2 .f32) (i : Fin 2816) (c : Fin 2048) :
    val_main_v19 (F := Ideal) x2 (ix2 i c) = x2 (ix3 (0 : Fin 8) c i) := by
  have hi := i.isLt; have hc := c.isLt
  rw [val_main_v19_apply, val_main_v18_apply, val_main_v17_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 0's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v20 (F := Ideal) x0 x1 x2 x4 (ix2 (slotRow m s) c) = ffn (maskedRow x0 x4 0 m s) x1 x2 0 c := by
  rw [val_main_v20_apply]
  unfold ffn
  refine Finset.sum_congr rfl fun i _ => ?_
  have el : lidx_main_v20 (ix2 (slotRow m s) c) i = ix2 (slotRow m s) i :=
    funext fun a => Fin.ext (by match a with | ⟨0, _⟩ => rfl | ⟨1, _⟩ => rfl)
  have er : ridx_main_v20 (ix2 (slotRow m s) c) i = ix2 i c :=
    funext fun a => Fin.ext (by match a with | ⟨0, _⟩ => rfl | ⟨1, _⟩ => rfl)
  rw [el, er, hid_at, w2_at]

end Cert.MoE.Ref.E0

end
-- ==== Proof.RefExpert1.lean ====
/-
  Expert 1's pass of the reference, read at one element of its output.

  For token m, slot s and output feature c, the pass's second product at row 2m + s, column c is the feed-forward
  value ffn of expert 1 on the row of token m masked by "the id routed at (m, s) is 1":
    * the masked array at (2m + s, k) selects, on the equality of the flattened id at 2m + s with the word 1,
      between the replicated row entry (the token entry (m, k)) and zero: this is maskedRow;
    * the sliced, reshaped and transposed first weight at (k, n) is w1 at (1, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (1, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E1

open Idealize.ShloMosaic Idealize.ShloMosaic.ValueIdx Cert.ReferenceIdeal Cert.ReferenceIdeal.ReadP

/-- The masked array at (2m + s, k) is the masked row of the specification: the condition read at that element is
    the equality test of the id at (m, s) with the word 1, the selected operand the token entry (m, k), the other
    operand the pattern of zero. -/
theorem masked_at (x0 : FVec Ideal SX .f32) (x4 : IVec ST 32) (m : Fin 2048) (s : Fin 2) (k : Fin 2048) :
    val_main_v25 (F := Ideal) x0 x4 (ix2 (slotRow m s) k) = maskedRow x0 x4 1 m s k := by
  have e1 : idx_main_v24 (idx_main_call2_v1 (ix2 (slotRow m s) k)) = ix1 (slotRow m s) :=
    funext fun a => Fin.ext (by match a with | ⟨0, _⟩ => rfl)
  rw [val_main_v25_apply, val_main_call2_v1_apply, val_main_v24_apply, val_main_v23_apply, e1, ids_at, val_main_v22_apply,
    val_main_c_1_apply, row_at, val_main_call2_v2_apply, val_main_call2_v0_apply, val_main_cst_2_apply,
    select_cmpi_eq, Ideal.ofBits_def, Ideal.ofBits_zero_f32]
  rfl

/-- The first weight as the product reads it: slicing expert 1, dropping the unit axis and transposing sends
    (k, n) to w1 at (1, n, k); the flat position n · 2048 + k has quotient n and remainder k by 2048. -/
theorem w1_at (x1 : FVec Ideal SW1 .f32) (k : Fin 2048) (n : Fin 5632) :
    val_main_v28 (F := Ideal) x1 (ix2 k n) = x1 (ix3 (1 : Fin 8) n k) := by
  have hk := k.isLt; have hn := n.isLt
  rw [val_main_v28_apply, val_main_v27_apply, val_main_v26_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[1]. -/
theorem proj_at (x0 : FVec Ideal SX .f32) (x1 : FVec Ideal SW1 .f32) (x4 : IVec ST 32) (m : Fin 2048) (s : Fin 2)
    (n : Fin 5632) :
    val_main_v29 (F := Ideal) x0 x1 x4 (ix2 (slotRow m s) n) = proj (maskedRow x0 x4 1 m s) x1 1 n := by
  rw [val_main_v29_apply]
  unfold proj
  refine Finset.sum_congr rfl fun k _ => ?_
  have el : lidx_main_v29 (ix2 (slotRow m s) n) k = ix2 (slotRow m s) k :=
    funext fun a => Fin.ext (by match a with | ⟨0, _⟩ => rfl | ⟨1, _⟩ => rfl)
  have er : ridx_main_v29 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v33 (F := Ideal) x0 x1 x4 (ix2 (slotRow m s) i) = hid (maskedRow x0 x4 1 m s) x1 1 i := by
  have eg : idx_main_v30 (ix2 (slotRow m s) i) = ix2 (slotRow m s) (gateRow i) :=
    funext fun a => Fin.ext (by match a with | ⟨0, _⟩ => rfl | ⟨1, _⟩ => rfl)
  have eu : idx_main_v31 (ix2 (slotRow m s) i) = ix2 (slotRow m s) (upRow i) :=
    funext fun a => Fin.ext (by match a with | ⟨0, _⟩ => rfl | ⟨1, _⟩ => rfl)
  rw [val_main_v33_apply, val_main_v32_apply, val_main_call3_v5_apply, val_main_call3_v4_apply, val_main_call3_cst_0_apply,
    val_main_call3_v3_apply, val_main_call3_v2_apply, val_main_call3_cst_apply, val_main_call3_v1_apply,
    val_main_call3_v0_apply, val_main_v30_apply, val_main_v31_apply, eg, eu, proj_at, proj_at, silu_eq]
  rfl

/-- The second weight as the product reads it: (i, c) goes to w2 at (1, c, i); the flat position c · 2816 + i has
    quotient c and remainder i by 2816. -/
theorem w2_at (x2 : FVec Ideal SW2 .f32) (i : Fin 2816) (c : Fin 2048) :
    val_main_v36 (F := Ideal) x2 (ix2 i c) = x2 (ix3 (1 : Fin 8) c i) := by
  have hi := i.isLt; have hc := c.isLt
  rw [val_main_v36_apply, val_main_v35_apply, val_main_v34_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 1's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v37 (F := Ideal) x0 x1 x2 x4 (ix2 (slotRow m s) c) = ffn (maskedRow x0 x4 1 m s) x1 x2 1 c := by
  rw [val_main_v37_apply]
  unfold ffn
  refine Finset.sum_congr rfl fun i _ => ?_
  have el : lidx_main_v37 (ix2 (slotRow m s) c) i = ix2 (slotRow m s) i :=
    funext fun a => Fin.ext (by match a with | ⟨0, _⟩ => rfl | ⟨1, _⟩ => rfl)
  have er : ridx_main_v37 (ix2 (slotRow m s) c) i = ix2 i c :=
    funext fun a => Fin.ext (by match a with | ⟨0, _⟩ => rfl | ⟨1, _⟩ => rfl)
  rw [el, er, hid_at, w2_at]

end Cert.MoE.Ref.E1

end
-- ==== Proof.RefExpert2.lean ====
/-
  Expert 2's pass of the reference, read at one element of its output.

  For token m, slot s and output feature c, the pass's second product at row 2m + s, column c is the feed-forward
  value ffn of expert 2 on the row of token m masked by "the id routed at (m, s) is 2":
    * the masked array at (2m + s, k) selects, on the equality of the flattened id at 2m + s with the word 2,
      between the replicated row entry (the token entry (m, k)) and zero: this is maskedRow;
    * the sliced, reshaped and transposed first weight at (k, n) is w1 at (2, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (2, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E2

open Idealize.ShloMosaic Idealize.ShloMosaic.ValueIdx Cert.ReferenceIdeal Cert.ReferenceIdeal.ReadP

/-- The masked array at (2m + s, k) is the masked row of the specification: the condition read at that element is
    the equality test of the id at (m, s) with the word 2, the selected operand the token entry (m, k), the other
    operand the pattern of zero. -/
theorem masked_at (x0 : FVec Ideal SX .f32) (x4 : IVec ST 32) (m : Fin 2048) (s : Fin 2) (k : Fin 2048) :
    val_main_v42 (F := Ideal) x0 x4 (ix2 (slotRow m s) k) = maskedRow x0 x4 2 m s k := by
  have e1 : idx_main_v41 (idx_main_call4_v1 (ix2 (slotRow m s) k)) = ix1 (slotRow m s) :=
    funext fun a => Fin.ext (by match a with | ⟨0, _⟩ => rfl)
  rw [val_main_v42_apply, val_main_call4_v1_apply, val_main_v41_apply, val_main_v40_apply, e1, ids_at, val_main_v39_apply,
    val_main_c_3_apply, row_at, val_main_call4_v2_apply, val_main_call4_v0_apply, val_main_cst_4_apply,
    select_cmpi_eq, Ideal.ofBits_def, Ideal.ofBits_zero_f32]
  rfl

/-- The first weight as the product reads it: slicing expert 2, dropping the unit axis and transposing sends
    (k, n) to w1 at (2, n, k); the flat position n · 2048 + k has quotient n and remainder k by 2048. -/
theorem w1_at (x1 : FVec Ideal SW1 .f32) (k : Fin 2048) (n : Fin 5632) :
    val_main_v45 (F := Ideal) x1 (ix2 k n) = x1 (ix3 (2 : Fin 8) n k) := by
  have hk := k.isLt; have hn := n.isLt
  rw [val_main_v45_apply, val_main_v44_apply, val_main_v43_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[2]. -/
theorem proj_at (x0 : FVec Ideal SX .f32) (x1 : FVec Ideal SW1 .f32) (x4 : IVec ST 32) (m : Fin 2048) (s : Fin 2)
    (n : Fin 5632) :
    val_main_v46 (F := Ideal) x0 x1 x4 (ix2 (slotRow m s) n) = proj (maskedRow x0 x4 2 m s) x1 2 n := by
  rw [val_main_v46_apply]
  unfold proj
  refine Finset.sum_congr rfl fun k _ => ?_
  have el : lidx_main_v46 (ix2 (slotRow m s) n) k = ix2 (slotRow m s) k :=
    funext fun a => Fin.ext (by match a with | ⟨0, _⟩ => rfl | ⟨1, _⟩ => rfl)
  have er : ridx_main_v46 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v50 (F := Ideal) x0 x1 x4 (ix2 (slotRow m s) i) = hid (maskedRow x0 x4 2 m s) x1 2 i := by
  have eg : idx_main_v47 (ix2 (slotRow m s) i) = ix2 (slotRow m s) (gateRow i) :=
    funext fun a => Fin.ext (by match a with | ⟨0, _⟩ => rfl | ⟨1, _⟩ => rfl)
  have eu : idx_main_v48 (ix2 (slotRow m s) i) = ix2 (slotRow m s) (upRow i) :=
    funext fun a => Fin.ext (by match a with | ⟨0, _⟩ => rfl | ⟨1, _⟩ => rfl)
  rw [val_main_v50_apply, val_main_v49_apply, val_main_call5_v5_apply, val_main_call5_v4_apply, val_main_call5_cst_0_apply,
    val_main_call5_v3_apply, val_main_call5_v2_apply, val_main_call5_cst_apply, val_main_call5_v1_apply,
    val_main_call5_v0_apply, val_main_v47_apply, val_main_v48_apply, eg, eu, proj_at, proj_at, silu_eq]
  rfl

/-- The second weight as the product reads it: (i, c) goes to w2 at (2, c, i); the flat position c · 2816 + i has
    quotient c and remainder i by 2816. -/
theorem w2_at (x2 : FVec Ideal SW2 .f32) (i : Fin 2816) (c : Fin 2048) :
    val_main_v53 (F := Ideal) x2 (ix2 i c) = x2 (ix3 (2 : Fin 8) c i) := by
  have hi := i.isLt; have hc := c.isLt
  rw [val_main_v53_apply, val_main_v52_apply, val_main_v51_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 2's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v54 (F := Ideal) x0 x1 x2 x4 (ix2 (slotRow m s) c) = ffn (maskedRow x0 x4 2 m s) x1 x2 2 c := by
  rw [val_main_v54_apply]
  unfold ffn
  refine Finset.sum_congr rfl fun i _ => ?_
  have el : lidx_main_v54 (ix2 (slotRow m s) c) i = ix2 (slotRow m s) i :=
    funext fun a => Fin.ext (by match a with | ⟨0, _⟩ => rfl | ⟨1, _⟩ => rfl)
  have er : ridx_main_v54 (ix2 (slotRow m s) c) i = ix2 i c :=
    funext fun a => Fin.ext (by match a with | ⟨0, _⟩ => rfl | ⟨1, _⟩ => rfl)
  rw [el, er, hid_at, w2_at]

end Cert.MoE.Ref.E2

end
-- ==== Proof.RefExpert3.lean ====
/-
  Expert 3's pass of the reference, read at one element of its output.

  For token m, slot s and output feature c, the pass's second product at row 2m + s, column c is the feed-forward
  value ffn of expert 3 on the row of token m masked by "the id routed at (m, s) is 3":
    * the masked array at (2m + s, k) selects, on the equality of the flattened id at 2m + s with the word 3,
      between the replicated row entry (the token entry (m, k)) and zero: this is maskedRow;
    * the sliced, reshaped and transposed first weight at (k, n) is w1 at (3, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (3, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E3

open Idealize.ShloMosaic Idealize.ShloMosaic.ValueIdx Cert.ReferenceIdeal Cert.ReferenceIdeal.ReadP

/-- The masked array at (2m + s, k) is the masked row of the specification: the condition read at that element is
    the equality test of the id at (m, s) with the word 3, the selected operand the token entry (m, k), the other
    operand the pattern of zero. -/
theorem masked_at (x0 : FVec Ideal SX .f32) (x4 : IVec ST 32) (m : Fin 2048) (s : Fin 2) (k : Fin 2048) :
    val_main_v59 (F := Ideal) x0 x4 (ix2 (slotRow m s) k) = maskedRow x0 x4 3 m s k := by
  have e1 : idx_main_v58 (idx_main_call6_v1 (ix2 (slotRow m s) k)) = ix1 (slotRow m s) :=
    funext fun a => Fin.ext (by match a with | ⟨0, _⟩ => rfl)
  rw [val_main_v59_apply, val_main_call6_v1_apply, val_main_v58_apply, val_main_v57_apply, e1, ids_at, val_main_v56_apply,
    val_main_c_5_apply, row_at, val_main_call6_v2_apply, val_main_call6_v0_apply, val_main_cst_6_apply,
    select_cmpi_eq, Ideal.ofBits_def, Ideal.ofBits_zero_f32]
  rfl

/-- The first weight as the product reads it: slicing expert 3, dropping the unit axis and transposing sends
    (k, n) to w1 at (3, n, k); the flat position n · 2048 + k has quotient n and remainder k by 2048. -/
theorem w1_at (x1 : FVec Ideal SW1 .f32) (k : Fin 2048) (n : Fin 5632) :
    val_main_v62 (F := Ideal) x1 (ix2 k n) = x1 (ix3 (3 : Fin 8) n k) := by
  have hk := k.isLt; have hn := n.isLt
  rw [val_main_v62_apply, val_main_v61_apply, val_main_v60_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[3]. -/
theorem proj_at (x0 : FVec Ideal SX .f32) (x1 : FVec Ideal SW1 .f32) (x4 : IVec ST 32) (m : Fin 2048) (s : Fin 2)
    (n : Fin 5632) :
    val_main_v63 (F := Ideal) x0 x1 x4 (ix2 (slotRow m s) n) = proj (maskedRow x0 x4 3 m s) x1 3 n := by
  rw [val_main_v63_apply]
  unfold proj
  refine Finset.sum_congr rfl fun k _ => ?_
  have el : lidx_main_v63 (ix2 (slotRow m s) n) k = ix2 (slotRow m s) k :=
    funext fun a => Fin.ext (by match a with | ⟨0, _⟩ => rfl | ⟨1, _⟩ => rfl)
  have er : ridx_main_v63 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v67 (F := Ideal) x0 x1 x4 (ix2 (slotRow m s) i) = hid (maskedRow x0 x4 3 m s) x1 3 i := by
  have eg : idx_main_v64 (ix2 (slotRow m s) i) = ix2 (slotRow m s) (gateRow i) :=
    funext fun a => Fin.ext (by match a with | ⟨0, _⟩ => rfl | ⟨1, _⟩ => rfl)
  have eu : idx_main_v65 (ix2 (slotRow m s) i) = ix2 (slotRow m s) (upRow i) :=
    funext fun a => Fin.ext (by match a with | ⟨0, _⟩ => rfl | ⟨1, _⟩ => rfl)
  rw [val_main_v67_apply, val_main_v66_apply, val_main_call7_v5_apply, val_main_call7_v4_apply, val_main_call7_cst_0_apply,
    val_main_call7_v3_apply, val_main_call7_v2_apply, val_main_call7_cst_apply, val_main_call7_v1_apply,
    val_main_call7_v0_apply, val_main_v64_apply, val_main_v65_apply, eg, eu, proj_at, proj_at, silu_eq]
  rfl

/-- The second weight as the product reads it: (i, c) goes to w2 at (3, c, i); the flat position c · 2816 + i has
    quotient c and remainder i by 2816. -/
theorem w2_at (x2 : FVec Ideal SW2 .f32) (i : Fin 2816) (c : Fin 2048) :
    val_main_v70 (F := Ideal) x2 (ix2 i c) = x2 (ix3 (3 : Fin 8) c i) := by
  have hi := i.isLt; have hc := c.isLt
  rw [val_main_v70_apply, val_main_v69_apply, val_main_v68_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 3's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v71 (F := Ideal) x0 x1 x2 x4 (ix2 (slotRow m s) c) = ffn (maskedRow x0 x4 3 m s) x1 x2 3 c := by
  rw [val_main_v71_apply]
  unfold ffn
  refine Finset.sum_congr rfl fun i _ => ?_
  have el : lidx_main_v71 (ix2 (slotRow m s) c) i = ix2 (slotRow m s) i :=
    funext fun a => Fin.ext (by match a with | ⟨0, _⟩ => rfl | ⟨1, _⟩ => rfl)
  have er : ridx_main_v71 (ix2 (slotRow m s) c) i = ix2 i c :=
    funext fun a => Fin.ext (by match a with | ⟨0, _⟩ => rfl | ⟨1, _⟩ => rfl)
  rw [el, er, hid_at, w2_at]

end Cert.MoE.Ref.E3

end
-- ==== Proof.RefExpert4.lean ====
/-
  Expert 4's pass of the reference, read at one element of its output.

  For token m, slot s and output feature c, the pass's second product at row 2m + s, column c is the feed-forward
  value ffn of expert 4 on the row of token m masked by "the id routed at (m, s) is 4":
    * the masked array at (2m + s, k) selects, on the equality of the flattened id at 2m + s with the word 4,
      between the replicated row entry (the token entry (m, k)) and zero: this is maskedRow;
    * the sliced, reshaped and transposed first weight at (k, n) is w1 at (4, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (4, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E4

open Idealize.ShloMosaic Idealize.ShloMosaic.ValueIdx Cert.ReferenceIdeal Cert.ReferenceIdeal.ReadP

/-- The masked array at (2m + s, k) is the masked row of the specification: the condition read at that element is
    the equality test of the id at (m, s) with the word 4, the selected operand the token entry (m, k), the other
    operand the pattern of zero. -/
theorem masked_at (x0 : FVec Ideal SX .f32) (x4 : IVec ST 32) (m : Fin 2048) (s : Fin 2) (k : Fin 2048) :
    val_main_v76 (F := Ideal) x0 x4 (ix2 (slotRow m s) k) = maskedRow x0 x4 4 m s k := by
  have e1 : idx_main_v75 (idx_main_call8_v1 (ix2 (slotRow m s) k)) = ix1 (slotRow m s) :=
    funext fun a => Fin.ext (by match a with | ⟨0, _⟩ => rfl)
  rw [val_main_v76_apply, val_main_call8_v1_apply, val_main_v75_apply, val_main_v74_apply, e1, ids_at, val_main_v73_apply,
    val_main_c_7_apply, row_at, val_main_call8_v2_apply, val_main_call8_v0_apply, val_main_cst_8_apply,
    select_cmpi_eq, Ideal.ofBits_def, Ideal.ofBits_zero_f32]
  rfl

/-- The first weight as the product reads it: slicing expert 4, dropping the unit axis and transposing sends
    (k, n) to w1 at (4, n, k); the flat position n · 2048 + k has quotient n and remainder k by 2048. -/
theorem w1_at (x1 : FVec Ideal SW1 .f32) (k : Fin 2048) (n : Fin 5632) :
    val_main_v79 (F := Ideal) x1 (ix2 k n) = x1 (ix3 (4 : Fin 8) n k) := by
  have hk := k.isLt; have hn := n.isLt
  rw [val_main_v79_apply, val_main_v78_apply, val_main_v77_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[4]. -/
theorem proj_at (x0 : FVec Ideal SX .f32) (x1 : FVec Ideal SW1 .f32) (x4 : IVec ST 32) (m : Fin 2048) (s : Fin 2)
    (n : Fin 5632) :
    val_main_v80 (F := Ideal) x0 x1 x4 (ix2 (slotRow m s) n) = proj (maskedRow x0 x4 4 m s) x1 4 n := by
  rw [val_main_v80_apply]
  unfold proj
  refine Finset.sum_congr rfl fun k _ => ?_
  have el : lidx_main_v80 (ix2 (slotRow m s) n) k = ix2 (slotRow m s) k :=
    funext fun a => Fin.ext (by match a with | ⟨0, _⟩ => rfl | ⟨1, _⟩ => rfl)
  have er : ridx_main_v80 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v84 (F := Ideal) x0 x1 x4 (ix2 (slotRow m s) i) = hid (maskedRow x0 x4 4 m s) x1 4 i := by
  have eg : idx_main_v81 (ix2 (slotRow m s) i) = ix2 (slotRow m s) (gateRow i) :=
    funext fun a => Fin.ext (by match a with | ⟨0, _⟩ => rfl | ⟨1, _⟩ => rfl)
  have eu : idx_main_v82 (ix2 (slotRow m s) i) = ix2 (slotRow m s) (upRow i) :=
    funext fun a => Fin.ext (by match a with | ⟨0, _⟩ => rfl | ⟨1, _⟩ => rfl)
  rw [val_main_v84_apply, val_main_v83_apply, val_main_call9_v5_apply, val_main_call9_v4_apply, val_main_call9_cst_0_apply,
    val_main_call9_v3_apply, val_main_call9_v2_apply, val_main_call9_cst_apply, val_main_call9_v1_apply,
    val_main_call9_v0_apply, val_main_v81_apply, val_main_v82_apply, eg, eu, proj_at, proj_at, silu_eq]
  rfl

/-- The second weight as the product reads it: (i, c) goes to w2 at (4, c, i); the flat position c · 2816 + i has
    quotient c and remainder i by 2816. -/
theorem w2_at (x2 : FVec Ideal SW2 .f32) (i : Fin 2816) (c : Fin 2048) :
    val_main_v87 (F := Ideal) x2 (ix2 i c) = x2 (ix3 (4 : Fin 8) c i) := by
  have hi := i.isLt; have hc := c.isLt
  rw [val_main_v87_apply, val_main_v86_apply, val_main_v85_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 4's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v88 (F := Ideal) x0 x1 x2 x4 (ix2 (slotRow m s) c) = ffn (maskedRow x0 x4 4 m s) x1 x2 4 c := by
  rw [val_main_v88_apply]
  unfold ffn
  refine Finset.sum_congr rfl fun i _ => ?_
  have el : lidx_main_v88 (ix2 (slotRow m s) c) i = ix2 (slotRow m s) i :=
    funext fun a => Fin.ext (by match a with | ⟨0, _⟩ => rfl | ⟨1, _⟩ => rfl)
  have er : ridx_main_v88 (ix2 (slotRow m s) c) i = ix2 i c :=
    funext fun a => Fin.ext (by match a with | ⟨0, _⟩ => rfl | ⟨1, _⟩ => rfl)
  rw [el, er, hid_at, w2_at]

end Cert.MoE.Ref.E4

end
-- ==== Proof.RefExpert5.lean ====
/-
  Expert 5's pass of the reference, read at one element of its output.

  For token m, slot s and output feature c, the pass's second product at row 2m + s, column c is the feed-forward
  value ffn of expert 5 on the row of token m masked by "the id routed at (m, s) is 5":
    * the masked array at (2m + s, k) selects, on the equality of the flattened id at 2m + s with the word 5,
      between the replicated row entry (the token entry (m, k)) and zero: this is maskedRow;
    * the sliced, reshaped and transposed first weight at (k, n) is w1 at (5, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (5, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E5

open Idealize.ShloMosaic Idealize.ShloMosaic.ValueIdx Cert.ReferenceIdeal Cert.ReferenceIdeal.ReadP

/-- The masked array at (2m + s, k) is the masked row of the specification: the condition read at that element is
    the equality test of the id at (m, s) with the word 5, the selected operand the token entry (m, k), the other
    operand the pattern of zero. -/
theorem masked_at (x0 : FVec Ideal SX .f32) (x4 : IVec ST 32) (m : Fin 2048) (s : Fin 2) (k : Fin 2048) :
    val_main_v93 (F := Ideal) x0 x4 (ix2 (slotRow m s) k) = maskedRow x0 x4 5 m s k := by
  have e1 : idx_main_v92 (idx_main_call10_v1 (ix2 (slotRow m s) k)) = ix1 (slotRow m s) :=
    funext fun a => Fin.ext (by match a with | ⟨0, _⟩ => rfl)
  rw [val_main_v93_apply, val_main_call10_v1_apply, val_main_v92_apply, val_main_v91_apply, e1, ids_at, val_main_v90_apply,
    val_main_c_9_apply, row_at, val_main_call10_v2_apply, val_main_call10_v0_apply, val_main_cst_10_apply,
    select_cmpi_eq, Ideal.ofBits_def, Ideal.ofBits_zero_f32]
  rfl

/-- The first weight as the product reads it: slicing expert 5, dropping the unit axis and transposing sends
    (k, n) to w1 at (5, n, k); the flat position n · 2048 + k has quotient n and remainder k by 2048. -/
theorem w1_at (x1 : FVec Ideal SW1 .f32) (k : Fin 2048) (n : Fin 5632) :
    val_main_v96 (F := Ideal) x1 (ix2 k n) = x1 (ix3 (5 : Fin 8) n k) := by
  have hk := k.isLt; have hn := n.isLt
  rw [val_main_v96_apply, val_main_v95_apply, val_main_v94_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[5]. -/
theorem proj_at (x0 : FVec Ideal SX .f32) (x1 : FVec Ideal SW1 .f32) (x4 : IVec ST 32) (m : Fin 2048) (s : Fin 2)
    (n : Fin 5632) :
    val_main_v97 (F := Ideal) x0 x1 x4 (ix2 (slotRow m s) n) = proj (maskedRow x0 x4 5 m s) x1 5 n := by
  rw [val_main_v97_apply]
  unfold proj
  refine Finset.sum_congr rfl fun k _ => ?_
  have el : lidx_main_v97 (ix2 (slotRow m s) n) k = ix2 (slotRow m s) k :=
    funext fun a => Fin.ext (by match a with | ⟨0, _⟩ => rfl | ⟨1, _⟩ => rfl)
  have er : ridx_main_v97 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v101 (F := Ideal) x0 x1 x4 (ix2 (slotRow m s) i) = hid (maskedRow x0 x4 5 m s) x1 5 i := by
  have eg : idx_main_v98 (ix2 (slotRow m s) i) = ix2 (slotRow m s) (gateRow i) :=
    funext fun a => Fin.ext (by match a with | ⟨0, _⟩ => rfl | ⟨1, _⟩ => rfl)
  have eu : idx_main_v99 (ix2 (slotRow m s) i) = ix2 (slotRow m s) (upRow i) :=
    funext fun a => Fin.ext (by match a with | ⟨0, _⟩ => rfl | ⟨1, _⟩ => rfl)
  rw [val_main_v101_apply, val_main_v100_apply, val_main_call11_v5_apply, val_main_call11_v4_apply, val_main_call11_cst_0_apply,
    val_main_call11_v3_apply, val_main_call11_v2_apply, val_main_call11_cst_apply, val_main_call11_v1_apply,
    val_main_call11_v0_apply, val_main_v98_apply, val_main_v99_apply, eg, eu, proj_at, proj_at, silu_eq]
  rfl

/-- The second weight as the product reads it: (i, c) goes to w2 at (5, c, i); the flat position c · 2816 + i has
    quotient c and remainder i by 2816. -/
theorem w2_at (x2 : FVec Ideal SW2 .f32) (i : Fin 2816) (c : Fin 2048) :
    val_main_v104 (F := Ideal) x2 (ix2 i c) = x2 (ix3 (5 : Fin 8) c i) := by
  have hi := i.isLt; have hc := c.isLt
  rw [val_main_v104_apply, val_main_v103_apply, val_main_v102_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 5's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v105 (F := Ideal) x0 x1 x2 x4 (ix2 (slotRow m s) c) = ffn (maskedRow x0 x4 5 m s) x1 x2 5 c := by
  rw [val_main_v105_apply]
  unfold ffn
  refine Finset.sum_congr rfl fun i _ => ?_
  have el : lidx_main_v105 (ix2 (slotRow m s) c) i = ix2 (slotRow m s) i :=
    funext fun a => Fin.ext (by match a with | ⟨0, _⟩ => rfl | ⟨1, _⟩ => rfl)
  have er : ridx_main_v105 (ix2 (slotRow m s) c) i = ix2 i c :=
    funext fun a => Fin.ext (by match a with | ⟨0, _⟩ => rfl | ⟨1, _⟩ => rfl)
  rw [el, er, hid_at, w2_at]

end Cert.MoE.Ref.E5

end
-- ==== Proof.RefExpert6.lean ====
/-
  Expert 6's pass of the reference, read at one element of its output.

  For token m, slot s and output feature c, the pass's second product at row 2m + s, column c is the feed-forward
  value ffn of expert 6 on the row of token m masked by "the id routed at (m, s) is 6":
    * the masked array at (2m + s, k) selects, on the equality of the flattened id at 2m + s with the word 6,
      between the replicated row entry (the token entry (m, k)) and zero: this is maskedRow;
    * the sliced, reshaped and transposed first weight at (k, n) is w1 at (6, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (6, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E6

open Idealize.ShloMosaic Idealize.ShloMosaic.ValueIdx Cert.ReferenceIdeal Cert.ReferenceIdeal.ReadP

/-- The masked array at (2m + s, k) is the masked row of the specification: the condition read at that element is
    the equality test of the id at (m, s) with the word 6, the selected operand the token entry (m, k), the other
    operand the pattern of zero. -/
theorem masked_at (x0 : FVec Ideal SX .f32) (x4 : IVec ST 32) (m : Fin 2048) (s : Fin 2) (k : Fin 2048) :
    val_main_v110 (F := Ideal) x0 x4 (ix2 (slotRow m s) k) = maskedRow x0 x4 6 m s k := by
  have e1 : idx_main_v109 (idx_main_call12_v1 (ix2 (slotRow m s) k)) = ix1 (slotRow m s) :=
    funext fun a => Fin.ext (by match a with | ⟨0, _⟩ => rfl)
  rw [val_main_v110_apply, val_main_call12_v1_apply, val_main_v109_apply, val_main_v108_apply, e1, ids_at, val_main_v107_apply,
    val_main_c_11_apply, row_at, val_main_call12_v2_apply, val_main_call12_v0_apply, val_main_cst_12_apply,
    select_cmpi_eq, Ideal.ofBits_def, Ideal.ofBits_zero_f32]
  rfl

/-- The first weight as the product reads it: slicing expert 6, dropping the unit axis and transposing sends
    (k, n) to w1 at (6, n, k); the flat position n · 2048 + k has quotient n and remainder k by 2048. -/
theorem w1_at (x1 : FVec Ideal SW1 .f32) (k : Fin 2048) (n : Fin 5632) :
    val_main_v113 (F := Ideal) x1 (ix2 k n) = x1 (ix3 (6 : Fin 8) n k) := by
  have hk := k.isLt; have hn := n.isLt
  rw [val_main_v113_apply, val_main_v112_apply, val_main_v111_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[6]. -/
theorem proj_at (x0 : FVec Ideal SX .f32) (x1 : FVec Ideal SW1 .f32) (x4 : IVec ST 32) (m : Fin 2048) (s : Fin 2)
    (n : Fin 5632) :
    val_main_v114 (F := Ideal) x0 x1 x4 (ix2 (slotRow m s) n) = proj (maskedRow x0 x4 6 m s) x1 6 n := by
  rw [val_main_v114_apply]
  unfold proj
  refine Finset.sum_congr rfl fun k _ => ?_
  have el : lidx_main_v114 (ix2 (slotRow m s) n) k = ix2 (slotRow m s) k :=
    funext fun a => Fin.ext (by match a with | ⟨0, _⟩ => rfl | ⟨1, _⟩ => rfl)
  have er : ridx_main_v114 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v118 (F := Ideal) x0 x1 x4 (ix2 (slotRow m s) i) = hid (maskedRow x0 x4 6 m s) x1 6 i := by
  have eg : idx_main_v115 (ix2 (slotRow m s) i) = ix2 (slotRow m s) (gateRow i) :=
    funext fun a => Fin.ext (by match a with | ⟨0, _⟩ => rfl | ⟨1, _⟩ => rfl)
  have eu : idx_main_v116 (ix2 (slotRow m s) i) = ix2 (slotRow m s) (upRow i) :=
    funext fun a => Fin.ext (by match a with | ⟨0, _⟩ => rfl | ⟨1, _⟩ => rfl)
  rw [val_main_v118_apply, val_main_v117_apply, val_main_call13_v5_apply, val_main_call13_v4_apply, val_main_call13_cst_0_apply,
    val_main_call13_v3_apply, val_main_call13_v2_apply, val_main_call13_cst_apply, val_main_call13_v1_apply,
    val_main_call13_v0_apply, val_main_v115_apply, val_main_v116_apply, eg, eu, proj_at, proj_at, silu_eq]
  rfl

/-- The second weight as the product reads it: (i, c) goes to w2 at (6, c, i); the flat position c · 2816 + i has
    quotient c and remainder i by 2816. -/
theorem w2_at (x2 : FVec Ideal SW2 .f32) (i : Fin 2816) (c : Fin 2048) :
    val_main_v121 (F := Ideal) x2 (ix2 i c) = x2 (ix3 (6 : Fin 8) c i) := by
  have hi := i.isLt; have hc := c.isLt
  rw [val_main_v121_apply, val_main_v120_apply, val_main_v119_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 6's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v122 (F := Ideal) x0 x1 x2 x4 (ix2 (slotRow m s) c) = ffn (maskedRow x0 x4 6 m s) x1 x2 6 c := by
  rw [val_main_v122_apply]
  unfold ffn
  refine Finset.sum_congr rfl fun i _ => ?_
  have el : lidx_main_v122 (ix2 (slotRow m s) c) i = ix2 (slotRow m s) i :=
    funext fun a => Fin.ext (by match a with | ⟨0, _⟩ => rfl | ⟨1, _⟩ => rfl)
  have er : ridx_main_v122 (ix2 (slotRow m s) c) i = ix2 i c :=
    funext fun a => Fin.ext (by match a with | ⟨0, _⟩ => rfl | ⟨1, _⟩ => rfl)
  rw [el, er, hid_at, w2_at]

end Cert.MoE.Ref.E6

end
-- ==== Proof.RefExpert7.lean ====
/-
  Expert 7's pass of the reference, read at one element of its output.

  For token m, slot s and output feature c, the pass's second product at row 2m + s, column c is the feed-forward
  value ffn of expert 7 on the row of token m masked by "the id routed at (m, s) is 7":
    * the masked array at (2m + s, k) selects, on the equality of the flattened id at 2m + s with the word 7,
      between the replicated row entry (the token entry (m, k)) and zero: this is maskedRow;
    * the sliced, reshaped and transposed first weight at (k, n) is w1 at (7, n, k), and the first product at
      (2m + s, n) is the sum over k of the masked row times that entry: this is proj;
    * the two column halves of the product are the gate (columns i) and the up part (columns 2816 + i); the called
      function spells silu as g · (1 / (1 + exp (−g))), which is g · logistic g; multiplied by the up part this is hid;
    * the sliced, reshaped and transposed second weight at (i, c) is w2 at (7, c, i), and the second product at
      (2m + s, c) is the sum over i of hid times that entry: this is ffn.
  Every step is an equation between the same extended-real expressions; no finiteness is used.
-/
import proofs.«124578_j81028853006988_2_alg».proof.Proof.RefRows

noncomputable section

namespace Cert.MoE.Ref.E7

open Idealize.ShloMosaic Idealize.ShloMosaic.ValueIdx Cert.ReferenceIdeal Cert.ReferenceIdeal.ReadP

/-- The masked array at (2m + s, k) is the masked row of the specification: the condition read at that element is
    the equality test of the id at (m, s) with the word 7, the selected operand the token entry (m, k), the other
    operand the pattern of zero. -/
theorem masked_at (x0 : FVec Ideal SX .f32) (x4 : IVec ST 32) (m : Fin 2048) (s : Fin 2) (k : Fin 2048) :
    val_main_v127 (F := Ideal) x0 x4 (ix2 (slotRow m s) k) = maskedRow x0 x4 7 m s k := by
  have e1 : idx_main_v126 (idx_main_call14_v1 (ix2 (slotRow m s) k)) = ix1 (slotRow m s) :=
    funext fun a => Fin.ext (by match a with | ⟨0, _⟩ => rfl)
  rw [val_main_v127_apply, val_main_call14_v1_apply, val_main_v126_apply, val_main_v125_apply, e1, ids_at, val_main_v124_apply,
    val_main_c_13_apply, row_at, val_main_call14_v2_apply, val_main_call14_v0_apply, val_main_cst_14_apply,
    select_cmpi_eq, Ideal.ofBits_def, Ideal.ofBits_zero_f32]
  rfl

/-- The first weight as the product reads it: slicing expert 7, dropping the unit axis and transposing sends
    (k, n) to w1 at (7, n, k); the flat position n · 2048 + k has quotient n and remainder k by 2048. -/
theorem w1_at (x1 : FVec Ideal SW1 .f32) (k : Fin 2048) (n : Fin 5632) :
    val_main_v130 (F := Ideal) x1 (ix2 k n) = x1 (ix3 (7 : Fin 8) n k) := by
  have hk := k.isLt; have hn := n.isLt
  rw [val_main_v130_apply, val_main_v129_apply, val_main_v128_apply]
  refine congrArg x1 (funext fun a => Fin.ext ?_)
  match a with
  | ⟨0, _⟩ => rfl
  | ⟨1, _⟩ => show (n.val * 2048 + k.val) / 2048 % 5632 = n.val; omega
  | ⟨2, _⟩ => show (n.val * 2048 + k.val) % 2048 = k.val; omega

/-- The first product at (2m + s, n) is the pre-activation proj of the masked row against row n of w1[7]. -/
theorem proj_at (x0 : FVec Ideal SX .f32) (x1 : FVec Ideal SW1 .f32) (x4 : IVec ST 32) (m : Fin 2048) (s : Fin 2)
    (n : Fin 5632) :
    val_main_v131 (F := Ideal) x0 x1 x4 (ix2 (slotRow m s) n) = proj (maskedRow x0 x4 7 m s) x1 7 n := by
  rw [val_main_v131_apply]
  unfold proj
  refine Finset.sum_congr rfl fun k _ => ?_
  have el : lidx_main_v131 (ix2 (slotRow m s) n) k = ix2 (slotRow m s) k :=
    funext fun a => Fin.ext (by match a with | ⟨0, _⟩ => rfl | ⟨1, _⟩ => rfl)
  have er : ridx_main_v131 (ix2 (slotRow m s) n) k = ix2 k n :=
    funext fun a => Fin.ext (by match a with | ⟨0, _⟩ => rfl | ⟨1, _⟩ => rfl)
  rw [el, er, masked_at, w1_at]

/-- The gated hidden array at (2m + s, i) is hid: the gate is the product's column i, the up part its column
    2816 + i, and the called function's expansion of silu at the gate is gate · logistic gate. -/
theorem hid_at (x0 : FVec Ideal SX .f32) (x1 : FVec Ideal SW1 .f32) (x4 : IVec ST 32) (m : Fin 2048) (s : Fin 2)
    (i : Fin 2816) :
    val_main_v135 (F := Ideal) x0 x1 x4 (ix2 (slotRow m s) i) = hid (maskedRow x0 x4 7 m s) x1 7 i := by
  have eg : idx_main_v132 (ix2 (slotRow m s) i) = ix2 (slotRow m s) (gateRow i) :=
    funext fun a => Fin.ext (by match a with | ⟨0, _⟩ => rfl | ⟨1, _⟩ => rfl)
  have eu : idx_main_v133 (ix2 (slotRow m s) i) = ix2 (slotRow m s) (upRow i) :=
    funext fun a => Fin.ext (by match a with | ⟨0, _⟩ => rfl | ⟨1, _⟩ => rfl)
  rw [val_main_v135_apply, val_main_v134_apply, val_main_call15_v5_apply, val_main_call15_v4_apply, val_main_call15_cst_0_apply,
    val_main_call15_v3_apply, val_main_call15_v2_apply, val_main_call15_cst_apply, val_main_call15_v1_apply,
    val_main_call15_v0_apply, val_main_v132_apply, val_main_v133_apply, eg, eu, proj_at, proj_at, silu_eq]
  rfl

/-- The second weight as the product reads it: (i, c) goes to w2 at (7, c, i); the flat position c · 2816 + i has
    quotient c and remainder i by 2816. -/
theorem w2_at (x2 : FVec Ideal SW2 .f32) (i : Fin 2816) (c : Fin 2048) :
    val_main_v138 (F := Ideal) x2 (ix2 i c) = x2 (ix3 (7 : Fin 8) c i) := by
  have hi := i.isLt; have hc := c.isLt
  rw [val_main_v138_apply, val_main_v137_apply, val_main_v136_apply]
  refine congrArg x2 (funext fun a => Fin.ext ?_)
  match a with
  | ⟨0, _⟩ => rfl
  | ⟨1, _⟩ => show (c.val * 2816 + i.val) / 2816 % 2048 = c.val; omega
  | ⟨2, _⟩ => show (c.val * 2816 + i.val) % 2816 = i.val; omega

/-- Expert 7's output at row 2m + s, feature c is ffn of the masked row: the sum over the 2816 hidden units of
    hid times the second weight's entry. -/
theorem expert_at (x0 : FVec Ideal SX .f32) (x1 : FVec Ideal SW1 .f32) (x2 : FVec Ideal SW2 .f32) (x4 : IVec ST 32)
    (m : Fin 2048) (s : Fin 2) (c : Fin 2048) :
    val_main_v139 (F := Ideal) x0 x1 x2 x4 (ix2 (slotRow m s) c) = ffn (maskedRow x0 x4 7 m s) x1 x2 7 c := by
  rw [val_main_v139_apply]
  unfold ffn
  refine Finset.sum_congr rfl fun i _ => ?_
  have el : lidx_main_v139 (ix2 (slotRow m s) c) i = ix2 (slotRow m s) i :=
    funext fun a => Fin.ext (by match a with | ⟨0, _⟩ => rfl | ⟨1, _⟩ => rfl)
  have er : ridx_main_v139 (ix2 (slotRow m s) c) i = ix2 i c :=
    funext fun a => Fin.ext (by match a with | ⟨0, _⟩ => rfl | ⟨1, _⟩ => rfl)
  rw [el, er, hid_at, w2_at]

end Cert.MoE.Ref.E7

end
-- ==== Proof.RefValue.lean ====
/-
  The reference's result at (token m, feature c) is routedSum.

  The accumulator starts from the zero array and adds the eight expert passes in order, so at row 2m + s, column c it
  is ((((((((0 + D0) + D1) + D2) + D3) + D4) + D5) + D6) + D7) with De the ffn value of expert e on the row of token m
  masked by "slot s routes to e"; with 0 + D0 = D0 this is, term for term, the sum over the eight experts written out.
  The tail reshapes [4096, 2048] back to [2048, 2, 2048] (row 2m + s goes to (m, s)), multiplies by the routing weight
  of (m, s) broadcast along the features, and sums over the slot axis from the initial value 0: that is
  0 + Σ_s (Σ_e De) · tw(m, s), the specification's routedSum. Only 0 + a = a is used; no product is distributed.
-/
import proofs.«124578_j81028853006988_2_alg».proof.Proof.RefExpert0
import proofs.«124578_j81028853006988_2_alg».proof.Proof.RefExpert1
import proofs.«124578_j81028853006988_2_alg».proof.Proof.RefExpert2
import proofs.«124578_j81028853006988_2_alg».proof.Proof.RefExpert3
import proofs.«124578_j81028853006988_2_alg».proof.Proof.RefExpert4
import proofs.«124578_j81028853006988_2_alg».proof.Proof.RefExpert5
import proofs.«124578_j81028853006988_2_alg».proof.Proof.RefExpert6
import proofs.«124578_j81028853006988_2_alg».proof.Proof.RefExpert7

noncomputable section

namespace Cert.MoE.Ref

open Idealize.ShloMosaic Idealize.ShloMosaic.ValueIdx Cert.ReferenceIdeal Cert.ReferenceIdeal.ReadP

/-- The accumulated array at row 2m + s, column c is the sum over the eight experts of ffn on the masked row: the
    program's left-nested chain of additions from zero is that sum written out. -/
theorem acc_at (x0 : FVec Ideal SX .f32) (x1 : FVec Ideal SW1 .f32) (x2 : FVec Ideal SW2 .f32) (x4 : IVec ST 32)
    (m : Fin 2048) (s : Fin 2) (c : Fin 2048) :
    val_main_v140 (F := Ideal) x0 x1 x2 x4 (ix2 (slotRow m s) c)
      = ∑ e : Fin 8, ffn (maskedRow x0 x4 e m s) x1 x2 e c := by
  rw [val_main_v140_apply, val_main_v123_apply, val_main_v106_apply, val_main_v89_apply, val_main_v72_apply,
    val_main_v55_apply, val_main_v38_apply, val_main_v21_apply, zero_at, E0.expert_at, E1.expert_at, E2.expert_at,
    E3.expert_at, E4.expert_at, E5.expert_at, E6.expert_at, E7.expert_at, Fin.sum_univ_eight]
  simp only [Ideal.addf_def, zero_add]

/-- The result at (m, c): the reduce over the slot axis, from the initial value 0, of the accumulated array at row
    2m + s times the routing weight at (m, s) — the specification's routedSum. -/
theorem result_apply (x0 : FVec Ideal SX .f32) (x1 : FVec Ideal SW1 .f32) (x2 : FVec Ideal SW2 .f32)
    (x3 : FVec Ideal ST .f32) (x4 : IVec ST 32) (m c : Fin 2048) :
    val_main_v145 (F := Ideal) x0 x1 x2 x3 x4 (ix2 m c) = routedSum x0 x1 x2 x3 x4 m c := by
  have hm := m.isLt; have hc := c.isLt
  rw [val_main_v145_apply, val_main_cst_15_apply, Ideal.ofBits_def, Ideal.ofBits_zero_f32, zero_add]
  unfold routedSum
  refine Finset.sum_congr rfl fun s _ => ?_
  have hs := s.isLt
  have e1 : idx_main_v141 (idx_main_v145 (ix2 m c) s) = ix2 (slotRow m s) c :=
    funext fun a => Fin.ext (by
      match a with
      | ⟨0, _⟩ => show ((m.val * 2 + s.val) * 2048 + c.val) / 2048 = 2 * m.val + s.val; omega
      | ⟨1, _⟩ => show ((m.val * 2 + s.val) * 2048 + c.val) % 2048 = c.val; omega)
  have e2 : idx_main_v142 (idx_main_v143 (idx_main_v145 (ix2 m c) s)) = ix2 m s :=
    funext fun a => Fin.ext (by match a with | ⟨0, _⟩ => rfl | ⟨1, _⟩ => rfl)
  rw [val_main_v144_apply, val_main_v141_apply, e1, acc_at, val_main_v143_apply, val_main_v142_apply, e2]
  rfl

end Cert.MoE.Ref

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.Algebra.lean ====
/-
  The two arrangements of the mixture-of-experts layer agree when every entry is a real number.

  On all extended reals a row of zeros gives a zero pre-activation (0 · w = 0 and a sum of zeros), hence a zero hidden
  unit ((0 · logistic 0) · 0) and a zero expert output; so an expert fed a masked row outputs the unmasked output or
  zero:   ffn (masked row) e c = if ids(m,s) = e then ffn (row m) e c else 0.
  With the expert outputs o_e and the routing weights t_s real numbers, both arrangements are sums of the products
  [ids(m,s) = e] · t_s · o_e over (s, e): one distributes the product over the slot sum and exchanges the two finite
  sums — laws of the real numbers, which is where finiteness of the inputs is used.
-/
import proofs.«124578_j81028853006988_2_alg».proof.Proof.Spec
import proofs.«124578_j81028853006988_2_alg».proof.Proof.LibReal
import Mathlib.Tactic.Ring
import Mathlib.Algebra.BigOperators.Ring.Finset

noncomputable section

namespace Cert.MoE

open Idealize.ShloMosaic Idealize.ShloMosaic.ValueIdx LibReal
open scoped BigOperators

theorem proj_zero (w1 : FVec Ideal SW1 .f32) (e : Fin 8) (n : Fin 5632) : proj (fun _ => 0) w1 e n = 0 := by
  unfold proj
  exact Finset.sum_eq_zero fun k _ => zero_mul _

theorem hid_zero (w1 : FVec Ideal SW1 .f32) (e : Fin 8) (i : Fin 2816) : hid (fun _ => 0) w1 e i = 0 := by
  unfold hid
  rw [proj_zero, proj_zero, mul_zero]

theorem ffn_zero (w1 : FVec Ideal SW1 .f32) (w2 : FVec Ideal SW2 .f32) (e : Fin 8) (c : Fin 2048) :
    ffn (fun _ => 0) w1 w2 e c = 0 := by
  unfold ffn
  exact Finset.sum_eq_zero fun i _ => by rw [hid_zero, zero_mul]

/-- An expert fed the masked row outputs the row's output where the slot is routed to it, zero elsewhere. -/
theorem ffn_masked (x : FVec Ideal SX .f32) (w1 : FVec Ideal SW1 .f32) (w2 : FVec Ideal SW2 .f32) (ids : IVec ST 32)
    (e : Fin 8) (m : Fin 2048) (s : Fin 2) (c : Fin 2048) :
    ffn (maskedRow x ids e m s) w1 w2 e c = if ids (ix2 m s) = expertWord e then ffn (row x m) w1 w2 e c else 0 := by
  by_cases h : ids (ix2 m s) = expertWord e
  · rw [if_pos h]
    congr 1
    funext k
    unfold maskedRow row
    rw [if_pos h]
  · rw [if_neg h]
    have : maskedRow x ids e m s = fun _ => 0 := by
      funext k
      unfold maskedRow
      rw [if_neg h]
    rw [this, ffn_zero]

/-! ### Real entries stay real -/

theorem proj_real {r : Fin 2048 → EReal} (hr : ∀ k, ∃ a : ℝ, r k = (a : EReal)) {w1 : FVec Ideal SW1 .f32} (hw : AllReal w1)
    (e : Fin 8) (n : Fin 5632) : ∃ a : ℝ, proj r w1 e n = (a : EReal) :=
  exists_real_sum _ _ fun k _ => by
    obtain ⟨a, ha⟩ := hr k
    obtain ⟨b, hb⟩ := hw (ix3 e n k)
    exact ⟨a * b, by rw [ha, hb, EReal.coe_mul]⟩

theorem hid_real {r : Fin 2048 → EReal} (hr : ∀ k, ∃ a : ℝ, r k = (a : EReal)) {w1 : FVec Ideal SW1 .f32} (hw : AllReal w1)
    (e : Fin 8) (i : Fin 2816) : ∃ a : ℝ, hid r w1 e i = (a : EReal) := by
  obtain ⟨g, hg⟩ := proj_real hr hw e (gateRow i)
  obtain ⟨u, hu⟩ := proj_real hr hw e (upRow i)
  unfold hid
  rw [hg, hu, Ideal.logistic_coe]
  exact ⟨(g * (1 + Real.exp (-g))⁻¹) * u, by rw [EReal.coe_mul, EReal.coe_mul]⟩

theorem ffn_real {r : Fin 2048 → EReal} (hr : ∀ k, ∃ a : ℝ, r k = (a : EReal)) {w1 : FVec Ideal SW1 .f32} (hw1 : AllReal w1)
    {w2 : FVec Ideal SW2 .f32} (hw2 : AllReal w2) (e : Fin 8) (c : Fin 2048) : ∃ a : ℝ, ffn r w1 w2 e c = (a : EReal) :=
  exists_real_sum _ _ fun i _ => by
    obtain ⟨a, ha⟩ := hid_real hr hw1 e i
    obtain ⟨b, hb⟩ := hw2 (ix3 e c i)
    exact ⟨a * b, by rw [ha, hb, EReal.coe_mul]⟩

/-! ### The two arrangements -/

/-- Over the reals: distributing over the slot sum and exchanging the sums. -/
theorem real_arrangements (p : Fin 2 → Fin 8 → Prop) [∀ s e, Decidable (p s e)] (t : Fin 2 → ℝ) (o : Fin 8 → ℝ) :
    ∑ e : Fin 8, (∑ s : Fin 2, (if p s e then (1 : ℝ) else 0) * t s) * o e
      = ∑ s : Fin 2, (∑ e : Fin 8, if p s e then o e else 0) * t s := by
  calc ∑ e : Fin 8, (∑ s : Fin 2, (if p s e then (1 : ℝ) else 0) * t s) * o e
      = ∑ e : Fin 8, ∑ s : Fin 2, (if p s e then (1 : ℝ) else 0) * t s * o e := by
        refine Finset.sum_congr rfl fun e _ => ?_
        rw [Finset.sum_mul]
    _ = ∑ s : Fin 2, ∑ e : Fin 8, (if p s e then (1 : ℝ) else 0) * t s * o e := Finset.sum_comm
    _ = ∑ s : Fin 2, (∑ e : Fin 8, if p s e then o e else 0) * t s := by
        refine Finset.sum_congr rfl fun s _ => ?_
        rw [Finset.sum_mul]
        refine Finset.sum_congr rfl fun e _ => ?_
        split_ifs <;> ring

/-- Combine weights first equals routed rows first, for real entries. -/
theorem combined_eq_routed {x : FVec Ideal SX .f32} {w1 : FVec Ideal SW1 .f32} {w2 : FVec Ideal SW2 .f32} {tw : FVec Ideal ST .f32}
    (hx : AllReal x) (hw1 : AllReal w1) (hw2 : AllReal w2) (htw : AllReal tw) (ids : IVec ST 32) (m c : Fin 2048) :
    combinedSum x w1 w2 tw ids m c = routedSum x w1 w2 tw ids m c := by
  have ho : ∀ e : Fin 8, ∃ o : ℝ, ffn (row x m) w1 w2 e c = (o : EReal) := fun e =>
    ffn_real (fun k => hx (ix2 m k)) hw1 hw2 e c
  choose o ho using ho
  have ht : ∀ s : Fin 2, ∃ t : ℝ, tw (ix2 m s) = (t : EReal) := fun s => htw (ix2 m s)
  choose t ht using ht
  unfold combinedSum routedSum combineWeight
  simp only [ffn_masked, ho, ht]
  have hL : ∑ e : Fin 8, (∑ s : Fin 2, (if ids (ix2 m s) = expertWord e then (1 : EReal) else 0) * (t s : EReal)) * (o e : EReal)
      = ((∑ e : Fin 8, (∑ s : Fin 2, (if ids (ix2 m s) = expertWord e then (1 : ℝ) else 0) * t s) * o e : ℝ) : EReal) := by
    rw [coe_sum]
    refine Finset.sum_congr rfl fun e _ => ?_
    rw [EReal.coe_mul, coe_sum]
    congr 1
    refine Finset.sum_congr rfl fun s _ => ?_
    rw [EReal.coe_mul]
    congr 1
    split_ifs <;> simp
  have hR : ∑ s : Fin 2, (∑ e : Fin 8, if ids (ix2 m s) = expertWord e then (o e : EReal) else 0) * (t s : EReal)
      = ((∑ s : Fin 2, (∑ e : Fin 8, if ids (ix2 m s) = expertWord e then o e else 0) * t s : ℝ) : EReal) := by
    rw [coe_sum]
    refine Finset.sum_congr rfl fun s _ => ?_
    rw [EReal.coe_mul, coe_sum]
    congr 1
    refine Finset.sum_congr rfl fun e _ => ?_
    split_ifs <;> simp
  rw [hL, hR, real_arrangements (fun s e => ids (ix2 m s) = expertWord e) t o]

end Cert.MoE

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.Finite.lean ====
/-
  The precondition read back: every entry of the four float arguments is a real number.

  The precondition is the conjunction (by `and` of one-bit words) of four tests  all(|v| < +inf),  one per float
  argument; a conjunction that is 1 has every conjunct 1, and each test that is 1 says every entry of its argument
  is real (LibFiniteEntries).
-/
import proofs.«124578_j81028853006988_2_alg».proof.Pre_finite_inputs
import proofs.«124578_j81028853006988_2_alg».proof.Proof.LibFiniteEntries
import proofs.«124578_j81028853006988_2_alg».proof.Proof.LibReal
import Idealize.ShloMosaic.Lib.Affine
import Idealize.ShloMosaic.Lib.ValueIdx

noncomputable section

namespace Cert.MoE.Finite

open Idealize.ShloMosaic Cert.Pre_finite_inputs

variable [Cert.Pre_finite_inputs.Facts]

theorem real_of_pre (a0 : FVec Ideal S2048x2048 .f32) (a1 : FVec Ideal S8x5632x2048 .f32) (a2 : FVec Ideal S8x2048x2816 .f32)
    (a3 : FVec Ideal S2048x2 .f32) (a4 : IVec S2048x2 32)
    (h : fn (F := Ideal) a0 a1 a2 a3 a4 = fun _ => 1#1) :
    LibReal.AllReal a0 ∧ LibReal.AllReal a1 ∧ LibReal.AllReal a2 ∧ LibReal.AllReal a3 := by
  have h0 := congrFun h ValueIdx.ix0
  dsimp only [fn, fn_part1] at h0
  have h1 := IntOp.andi_eq_one.mp h0
  have h2 := IntOp.andi_eq_one.mp h1.1
  have h3 := IntOp.andi_eq_one.mp h2.1
  exact ⟨fun i => Cert.LibFiniteEntries.real_of_all a0 _ _ _ _ _ h3.1 i,
    fun i => Cert.LibFiniteEntries.real_of_all a1 _ _ _ _ _ h3.2 i,
    fun i => Cert.LibFiniteEntries.real_of_all a2 _ _ _ _ _ h2.2 i,
    fun i => Cert.LibFiniteEntries.real_of_all a3 _ _ _ _ _ h1.2 i⟩

end Cert.MoE.Finite

end
-- ==== Proof.lean ====
/-
  A mixture-of-experts feed-forward layer: 2048 tokens of 2048 features, 8 experts (a fused gate/up weight [5632, 2048]
  and a down weight [2048, 2816] each), every token routed to two experts with two routing weights.

  The reference replicates each token once per slot, sends every replicated row through every expert with the row
  replaced by zeros unless the slot's id names the expert, adds the eight expert outputs, scales by the slot's routing
  weight and adds the two slots ("routed rows first", Spec.lean routedSum; RefValue.lean reads the reference's
  operations one by one to that sum). The kernel sends every token row through every expert unmasked and scales the
  expert's output by the token's combine weight for the expert — the sum of the routing weights of the slots routed
  to it — accumulating over a grid of 8 token tiles × 8 experts × 2 halves of the hidden axis ("combine weights
  first", combinedSum; Tile.lean follows the two accumulators point by point, KernelValue.lean evaluates them and
  assembles the result array from its blocks). A row of zeros gives a zero expert output on all extended reals, so
  masking the row is masking the output; the two arrangements then differ by distributing the product over the slot
  sum and exchanging two finite sums, which holds because under the precondition every float entry is a real number
  (Finite.lean, Algebra.lean). Integer ids need no range: an id that names no expert contributes zero on both sides.
  The kernel's idealization rewrote no operation, so its sanctioned-idealization conjunct is trivial.
-/
import proofs.«124578_j81028853006988_2_alg».proof.Defs
import proofs.«124578_j81028853006988_2_alg».proof.Proof.Gen.Kernel
import proofs.«124578_j81028853006988_2_alg».proof.Proof.Gen.Kernel.Skeleton
import proofs.«124578_j81028853006988_2_alg».proof.Proof.Gen.Kernel.Launch
import proofs.«124578_j81028853006988_2_alg».proof.Proof.Gen.Kernel.Points
import proofs.«124578_j81028853006988_2_alg».proof.Proof.Gen.Kernel.Frame
import proofs.«124578_j81028853006988_2_alg».proof.Proof.Gen.KernelIdeal
import proofs.«124578_j81028853006988_2_alg».proof.Proof.Gen.KernelIdeal.Skeleton
import proofs.«124578_j81028853006988_2_alg».proof.Proof.Gen.KernelIdeal.Launch
import proofs.«124578_j81028853006988_2_alg».proof.Proof.Gen.KernelIdeal.Points
import proofs.«124578_j81028853006988_2_alg».proof.Proof.Gen.KernelIdeal.Frame
import proofs.«124578_j81028853006988_2_alg».proof.Proof.Gen.ReferenceIdeal
import proofs.«124578_j81028853006988_2_alg».proof.Proof.Gen.KernelIdeal.Value
import proofs.«124578_j81028853006988_2_alg».proof.Proof.RefRun
import proofs.«124578_j81028853006988_2_alg».proof.Proof.RefRead
import proofs.«124578_j81028853006988_2_alg».proof.Proof.Gen.Pre_finite_inputs
import proofs.«124578_j81028853006988_2_alg».proof.Proof.KernelValue
import proofs.«124578_j81028853006988_2_alg».proof.Proof.RefValue
import proofs.«124578_j81028853006988_2_alg».proof.Proof.Algebra
import proofs.«124578_j81028853006988_2_alg».proof.Proof.Finite
import Idealize.ShloMosaic.Adequacy
import Idealize.ShloMosaic.Init

noncomputable section

namespace Cert.Proof

open Idealize.ShloMosaic Idealize.SL.Sem Idealize.ShloMosaic.ValueIdx Cert.Kernel

/-- The kernel as printed runs, and leaves its arguments as they were. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals, from memories that agree on the arguments and hold finite floats, the kernel's result
    array (combine weights first) and the reference's (routed rows first) are equal entry by entry. -/
theorem algebraic : Cert.algebraic_KernelIdeal_ReferenceIdeal := by
  intro m ρ m' ρ' hpre hagree
  refine ⟨fun c => Cert.MoE.KernelValue.result m c, Cert.MoE.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v145_eq, (hagree c).1, (hagree c).2.1, (hagree c).2.2.1, (hagree c).2.2.2.1, (hagree c).2.2.2.2]
  obtain ⟨h0, h1, h2, h3⟩ := Cert.MoE.Finite.real_of_pre _ _ _ _ _ (hpre c)
  funext y
  obtain ⟨a, b, rfl⟩ : ∃ (a b : Fin 2048), y = ix2 a b := ⟨y 0, y 1, eq_ix2 y⟩
  rw [Cert.MoE.Ref.result_apply]
  exact (Cert.MoE.combined_eq_routed h0 h1 h2 h3 _ a b).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
